-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40x64 : Shape := ⟨3, ![4096, 40, 64]⟩
abbrev S40x40x64 : Shape := ⟨3, ![40, 40, 64]⟩
abbrev S_ : Shape := ⟨0, ![]⟩

class Facts : Prop where
  bcast_S_S4096x40x64 : S_.BroadcastsInDim S4096x40x64 (![] : Fin 0 → Fin S4096x40x64.rank)
  reducesTo_S4096x40x64_S_d0_1_2 : S4096x40x64.ReducesTo [0, 1, 2] S_
  h_S_ : 0 < S_.numel
  bcast_S_S40x40x64 : S_.BroadcastsInDim S40x40x64 (![] : Fin 0 → Fin S40x40x64.rank)
  reducesTo_S40x40x64_S_d0_1_2 : S40x40x64.ReducesTo [0, 1, 2] S_

variable [Facts]

def fn {F : FTy → Type} [FloatOps F] (main_arg0 : FVec F S4096x40x64 .f32) (main_arg1 : FVec F S40x40x64 .f32) : IVec S_ 1 :=
  let main_v0 : FVec F S4096x40x64 .f32 := Host.absf main_arg0
  let main_cst : FVec F S_ .f32 := constant S_ .f32 0x7F800000#32
  let main_v1 : FVec F S4096x40x64 .f32 := broadcastInDim S4096x40x64 ![] bcast_S_S4096x40x64 main_cst
  let main_v2 : IVec S4096x40x64 1 := cmpf .olt main_v0 main_v1
  let main_c : IVec S_ 1 := constantI S_ 1 1#1
  let main_v3 : IVec S_ 1 := (fun x v => Host.reduce IntOp.andi x v reducesTo_S4096x40x64_S_d0_1_2 h_S_) main_v2 main_c
  let main_v4 : FVec F S40x40x64 .f32 := Host.absf main_arg1
  let main_cst_0 : FVec F S_ .f32 := constant S_ .f32 0x7F800000#32
  let main_v5 : FVec F S40x40x64 .f32 := broadcastInDim S40x40x64 ![] bcast_S_S40x40x64 main_cst_0
  let main_v6 : IVec S40x40x64 1 := cmpf .olt main_v4 main_v5
  let main_c_1 : IVec S_ 1 := constantI S_ 1 1#1
  let main_v7 : IVec S_ 1 := (fun x v => Host.reduce IntOp.andi x v reducesTo_S40x40x64_S_d0_1_2 h_S_) main_v6 main_c_1
  let main_v8 : IVec S_ 1 := andi main_v3 main_v7
  main_v8
-- ==== Kernel.lean ====
abbrev S4096x40x64 : Shape := ⟨3, ![4096, 40, 64]⟩
abbrev S40x40x64 : Shape := ⟨3, ![40, 40, 64]⟩
abbrev S780 : Shape := ⟨1, ![780]⟩
abbrev S_ : Shape := ⟨0, ![]⟩
abbrev S780x1 : Shape := ⟨2, ![780, 1]⟩
abbrev S780x2 : Shape := ⟨2, ![780, 2]⟩
abbrev S780x64 : Shape := ⟨2, ![780, 64]⟩
abbrev S4096x49920 : Shape := ⟨2, ![4096, 49920]⟩
abbrev S64x40x64 : Shape := ⟨3, ![64, 40, 64]⟩
abbrev S64x49920 : Shape := ⟨2, ![64, 49920]⟩
abbrev S64x1x64 : Shape := ⟨3, ![64, 1, 64]⟩
abbrev S64x64 : Shape := ⟨2, ![64, 64]⟩
abbrev S64x39x64 : Shape := ⟨3, ![64, 39, 64]⟩
abbrev S39x64 : Shape := ⟨2, ![39, 64]⟩
abbrev S1x39x64 : Shape := ⟨3, ![1, 39, 64]⟩
abbrev S64x2496 : Shape := ⟨2, ![64, 2496]⟩
abbrev S64x38x64 : Shape := ⟨3, ![64, 38, 64]⟩
abbrev S38x64 : Shape := ⟨2, ![38, 64]⟩
abbrev S1x38x64 : Shape := ⟨3, ![1, 38, 64]⟩
abbrev S64x2432 : Shape := ⟨2, ![64, 2432]⟩
abbrev S64x37x64 : Shape := ⟨3, ![64, 37, 64]⟩
abbrev S37x64 : Shape := ⟨2, ![37, 64]⟩
abbrev S1x37x64 : Shape := ⟨3, ![1, 37, 64]⟩
abbrev S64x2368 : Shape := ⟨2, ![64, 2368]⟩
abbrev S64x36x64 : Shape := ⟨3, ![64, 36, 64]⟩
abbrev S36x64 : Shape := ⟨2, ![36, 64]⟩
abbrev S1x36x64 : Shape := ⟨3, ![1, 36, 64]⟩
abbrev S64x2304 : Shape := ⟨2, ![64, 2304]⟩
abbrev S64x35x64 : Shape := ⟨3, ![64, 35, 64]⟩
abbrev S35x64 : Shape := ⟨2, ![35, 64]⟩
abbrev S1x35x64 : Shape := ⟨3, ![1, 35, 64]⟩
abbrev S64x2240 : Shape := ⟨2, ![64, 2240]⟩
abbrev S64x34x64 : Shape := ⟨3, ![64, 34, 64]⟩
abbrev S34x64 : Shape := ⟨2, ![34, 64]⟩
abbrev S1x34x64 : Shape := ⟨3, ![1, 34, 64]⟩
abbrev S64x2176 : Shape := ⟨2, ![64, 2176]⟩
abbrev S64x33x64 : Shape := ⟨3, ![64, 33, 64]⟩
abbrev S33x64 : Shape := ⟨2, ![33, 64]⟩
abbrev S1x33x64 : Shape := ⟨3, ![1, 33, 64]⟩
abbrev S64x2112 : Shape := ⟨2, ![64, 2112]⟩
abbrev S64x32x64 : Shape := ⟨3, ![64, 32, 64]⟩
abbrev S32x64 : Shape := ⟨2, ![32, 64]⟩
abbrev S1x32x64 : Shape := ⟨3, ![1, 32, 64]⟩
abbrev S64x2048 : Shape := ⟨2, ![64, 2048]⟩
abbrev S64x31x64 : Shape := ⟨3, ![64, 31, 64]⟩
abbrev S31x64 : Shape := ⟨2, ![31, 64]⟩
abbrev S1x31x64 : Shape := ⟨3, ![1, 31, 64]⟩
abbrev S64x1984 : Shape := ⟨2, ![64, 1984]⟩
abbrev S64x30x64 : Shape := ⟨3, ![64, 30, 64]⟩
abbrev S30x64 : Shape := ⟨2, ![30, 64]⟩
abbrev S1x30x64 : Shape := ⟨3, ![1, 30, 64]⟩
abbrev S64x1920 : Shape := ⟨2, ![64, 1920]⟩
abbrev S64x29x64 : Shape := ⟨3, ![64, 29, 64]⟩
abbrev S29x64 : Shape := ⟨2, ![29, 64]⟩
abbrev S1x29x64 : Shape := ⟨3, ![1, 29, 64]⟩
abbrev S64x1856 : Shape := ⟨2, ![64, 1856]⟩
abbrev S64x28x64 : Shape := ⟨3, ![64, 28, 64]⟩
abbrev S28x64 : Shape := ⟨2, ![28, 64]⟩
abbrev S1x28x64 : Shape := ⟨3, ![1, 28, 64]⟩
abbrev S64x1792 : Shape := ⟨2, ![64, 1792]⟩
abbrev S64x27x64 : Shape := ⟨3, ![64, 27, 64]⟩
abbrev S27x64 : Shape := ⟨2, ![27, 64]⟩
abbrev S1x27x64 : Shape := ⟨3, ![1, 27, 64]⟩
abbrev S64x1728 : Shape := ⟨2, ![64, 1728]⟩
abbrev S64x26x64 : Shape := ⟨3, ![64, 26, 64]⟩
abbrev S26x64 : Shape := ⟨2, ![26, 64]⟩
abbrev S1x26x64 : Shape := ⟨3, ![1, 26, 64]⟩
abbrev S64x1664 : Shape := ⟨2, ![64, 1664]⟩
abbrev S64x25x64 : Shape := ⟨3, ![64, 25, 64]⟩
abbrev S25x64 : Shape := ⟨2, ![25, 64]⟩
abbrev S1x25x64 : Shape := ⟨3, ![1, 25, 64]⟩
abbrev S64x1600 : Shape := ⟨2, ![64, 1600]⟩
abbrev S64x24x64 : Shape := ⟨3, ![64, 24, 64]⟩
abbrev S24x64 : Shape := ⟨2, ![24, 64]⟩
abbrev S1x24x64 : Shape := ⟨3, ![1, 24, 64]⟩
abbrev S64x1536 : Shape := ⟨2, ![64, 1536]⟩
abbrev S64x23x64 : Shape := ⟨3, ![64, 23, 64]⟩
abbrev S23x64 : Shape := ⟨2, ![23, 64]⟩
abbrev S1x23x64 : Shape := ⟨3, ![1, 23, 64]⟩
abbrev S64x1472 : Shape := ⟨2, ![64, 1472]⟩
abbrev S64x22x64 : Shape := ⟨3, ![64, 22, 64]⟩
abbrev S22x64 : Shape := ⟨2, ![22, 64]⟩
abbrev S1x22x64 : Shape := ⟨3, ![1, 22, 64]⟩
abbrev S64x1408 : Shape := ⟨2, ![64, 1408]⟩
abbrev S64x21x64 : Shape := ⟨3, ![64, 21, 64]⟩
abbrev S21x64 : Shape := ⟨2, ![21, 64]⟩
abbrev S1x21x64 : Shape := ⟨3, ![1, 21, 64]⟩
abbrev S64x1344 : Shape := ⟨2, ![64, 1344]⟩
abbrev S64x20x64 : Shape := ⟨3, ![64, 20, 64]⟩
abbrev S20x64 : Shape := ⟨2, ![20, 64]⟩
abbrev S1x20x64 : Shape := ⟨3, ![1, 20, 64]⟩
abbrev S64x1280 : Shape := ⟨2, ![64, 1280]⟩
abbrev S64x19x64 : Shape := ⟨3, ![64, 19, 64]⟩
abbrev S19x64 : Shape := ⟨2, ![19, 64]⟩
abbrev S1x19x64 : Shape := ⟨3, ![1, 19, 64]⟩
abbrev S64x1216 : Shape := ⟨2, ![64, 1216]⟩
abbrev S64x18x64 : Shape := ⟨3, ![64, 18, 64]⟩
abbrev S18x64 : Shape := ⟨2, ![18, 64]⟩
abbrev S1x18x64 : Shape := ⟨3, ![1, 18, 64]⟩
abbrev S64x1152 : Shape := ⟨2, ![64, 1152]⟩
abbrev S64x17x64 : Shape := ⟨3, ![64, 17, 64]⟩
abbrev S17x64 : Shape := ⟨2, ![17, 64]⟩
abbrev S1x17x64 : Shape := ⟨3, ![1, 17, 64]⟩
abbrev S64x1088 : Shape := ⟨2, ![64, 1088]⟩
abbrev S64x16x64 : Shape := ⟨3, ![64, 16, 64]⟩
abbrev S16x64 : Shape := ⟨2, ![16, 64]⟩
abbrev S1x16x64 : Shape := ⟨3, ![1, 16, 64]⟩
abbrev S64x1024 : Shape := ⟨2, ![64, 1024]⟩
abbrev S64x15x64 : Shape := ⟨3, ![64, 15, 64]⟩
abbrev S15x64 : Shape := ⟨2, ![15, 64]⟩
abbrev S1x15x64 : Shape := ⟨3, ![1, 15, 64]⟩
abbrev S64x960 : Shape := ⟨2, ![64, 960]⟩
abbrev S64x14x64 : Shape := ⟨3, ![64, 14, 64]⟩
abbrev S14x64 : Shape := ⟨2, ![14, 64]⟩
abbrev S1x14x64 : Shape := ⟨3, ![1, 14, 64]⟩
abbrev S64x896 : Shape := ⟨2, ![64, 896]⟩
abbrev S64x13x64 : Shape := ⟨3, ![64, 13, 64]⟩
abbrev S13x64 : Shape := ⟨2, ![13, 64]⟩
abbrev S1x13x64 : Shape := ⟨3, ![1, 13, 64]⟩
abbrev S64x832 : Shape := ⟨2, ![64, 832]⟩
abbrev S64x12x64 : Shape := ⟨3, ![64, 12, 64]⟩
abbrev S12x64 : Shape := ⟨2, ![12, 64]⟩
abbrev S1x12x64 : Shape := ⟨3, ![1, 12, 64]⟩
abbrev S64x768 : Shape := ⟨2, ![64, 768]⟩
abbrev S64x11x64 : Shape := ⟨3, ![64, 11, 64]⟩
abbrev S11x64 : Shape := ⟨2, ![11, 64]⟩
abbrev S1x11x64 : Shape := ⟨3, ![1, 11, 64]⟩
abbrev S64x704 : Shape := ⟨2, ![64, 704]⟩
abbrev S64x10x64 : Shape := ⟨3, ![64, 10, 64]⟩
abbrev S10x64 : Shape := ⟨2, ![10, 64]⟩
abbrev S1x10x64 : Shape := ⟨3, ![1, 10, 64]⟩
abbrev S64x640 : Shape := ⟨2, ![64, 640]⟩
abbrev S64x9x64 : Shape := ⟨3, ![64, 9, 64]⟩
abbrev S9x64 : Shape := ⟨2, ![9, 64]⟩
abbrev S1x9x64 : Shape := ⟨3, ![1, 9, 64]⟩
abbrev S64x576 : Shape := ⟨2, ![64, 576]⟩
abbrev S64x8x64 : Shape := ⟨3, ![64, 8, 64]⟩
abbrev S8x64 : Shape := ⟨2, ![8, 64]⟩
abbrev S1x8x64 : Shape := ⟨3, ![1, 8, 64]⟩
abbrev S64x512 : Shape := ⟨2, ![64, 512]⟩
abbrev S64x7x64 : Shape := ⟨3, ![64, 7, 64]⟩
abbrev S7x64 : Shape := ⟨2, ![7, 64]⟩
abbrev S1x7x64 : Shape := ⟨3, ![1, 7, 64]⟩
abbrev S64x448 : Shape := ⟨2, ![64, 448]⟩
abbrev S64x6x64 : Shape := ⟨3, ![64, 6, 64]⟩
abbrev S6x64 : Shape := ⟨2, ![6, 64]⟩
abbrev S1x6x64 : Shape := ⟨3, ![1, 6, 64]⟩
abbrev S64x384 : Shape := ⟨2, ![64, 384]⟩
abbrev S64x5x64 : Shape := ⟨3, ![64, 5, 64]⟩
abbrev S5x64 : Shape := ⟨2, ![5, 64]⟩
abbrev S1x5x64 : Shape := ⟨3, ![1, 5, 64]⟩
abbrev S64x320 : Shape := ⟨2, ![64, 320]⟩
abbrev S64x4x64 : Shape := ⟨3, ![64, 4, 64]⟩
abbrev S4x64 : Shape := ⟨2, ![4, 64]⟩
abbrev S1x4x64 : Shape := ⟨3, ![1, 4, 64]⟩
abbrev S64x256 : Shape := ⟨2, ![64, 256]⟩
abbrev S64x3x64 : Shape := ⟨3, ![64, 3, 64]⟩
abbrev S3x64 : Shape := ⟨2, ![3, 64]⟩
abbrev S1x3x64 : Shape := ⟨3, ![1, 3, 64]⟩
abbrev S64x192 : Shape := ⟨2, ![64, 192]⟩
abbrev S64x2x64 : Shape := ⟨3, ![64, 2, 64]⟩
abbrev S2x64 : Shape := ⟨2, ![2, 64]⟩
abbrev S1x2x64 : Shape := ⟨3, ![1, 2, 64]⟩
abbrev S64x128 : Shape := ⟨2, ![64, 128]⟩
abbrev S1x64 : Shape := ⟨2, ![1, 64]⟩
abbrev S1x1x64 : Shape := ⟨3, ![1, 1, 64]⟩

abbrev nBuf : Space → Nat
  | .hbm => 34
  | .vmem => 5
  | .smem => 0
  | _ => 0

abbrev bufTy : (tb : Table) → Fin (tcTables nBuf tb) → BufTy
  | .hbm, ⟨0, _⟩ => ⟨S4096x40x64, .f32⟩
  | .hbm, ⟨1, _⟩ => ⟨S40x40x64, .f32⟩
  | .hbm, ⟨2, _⟩ => ⟨S780, .i32⟩
  | .hbm, ⟨3, _⟩ => ⟨S780, .i1⟩
  | .hbm, ⟨4, _⟩ => ⟨S780, .i32⟩
  | .hbm, ⟨5, _⟩ => ⟨S780, .i1⟩
  | .hbm, ⟨6, _⟩ => ⟨S780, .i1⟩
  | .hbm, ⟨7, _⟩ => ⟨S780, .i1⟩
  | .hbm, ⟨8, _⟩ => ⟨S_, .i32⟩
  | .hbm, ⟨9, _⟩ => ⟨S780, .i32⟩
  | .hbm, ⟨10, _⟩ => ⟨S780, .i32⟩
  | .hbm, ⟨11, _⟩ => ⟨S780, .i32⟩
  | .hbm, ⟨12, _⟩ => ⟨S_, .i32⟩
  | .hbm, ⟨13, _⟩ => ⟨S780, .i32⟩
  | .hbm, ⟨14, _⟩ => ⟨S780, .i32⟩
  | .hbm, ⟨15, _⟩ => ⟨S780, .i32⟩
  | .hbm, ⟨16, _⟩ => ⟨S780x1, .i32⟩
  | .hbm, ⟨17, _⟩ => ⟨S780x1, .i32⟩
  | .hbm, ⟨18, _⟩ => ⟨S780x2, .i32⟩
  | .hbm, ⟨19, _⟩ => ⟨S780x64, .f32⟩
  | .hbm, ⟨20, _⟩ => ⟨S_, .i32⟩
  | .hbm, ⟨21, _⟩ => ⟨S780, .i32⟩
  | .hbm, ⟨22, _⟩ => ⟨S780, .i32⟩
  | .hbm, ⟨23, _⟩ => ⟨S780, .i32⟩
  | .hbm, ⟨24, _⟩ => ⟨S_, .i32⟩
  | .hbm, ⟨25, _⟩ => ⟨S780, .i32⟩
  | .hbm, ⟨26, _⟩ => ⟨S780, .i32⟩
  | .hbm, ⟨27, _⟩ => ⟨S780, .i32⟩
  | .hbm, ⟨28, _⟩ => ⟨S780x1, .i32⟩
  | .hbm, ⟨29, _⟩ => ⟨S780x1, .i32⟩
  | .hbm, ⟨30, _⟩ => ⟨S780x2, .i32⟩
  | .hbm, ⟨31, _⟩ => ⟨S780x64, .f32⟩
  | .hbm, ⟨32, _⟩ => ⟨S780x64, .f32⟩
  | .hbm, ⟨33, _⟩ => ⟨S4096x49920, .f32⟩
  | .local _ .vmem, ⟨0, _⟩ => ⟨S64x40x64, .f32⟩
  | .local _ .vmem, ⟨1, _⟩ => ⟨S64x40x64, .f32⟩
  | .local _ .vmem, ⟨2, _⟩ => ⟨S780x64, .f32⟩
  | .local _ .vmem, ⟨3, _⟩ => ⟨S64x49920, .f32⟩
  | .local _ .vmem, ⟨4, _⟩ => ⟨S64x49920, .f32⟩
  | _, _ => ⟨S4096x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_6 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_7 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_8 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x40x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S780x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x49920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S780 : S_.BroadcastsInDim S780 (![] : Fin 0 → Fin S780.rank)
  bcast_S780_S780x1_0 : S780.BroadcastsInDim S780x1 (![0] : Fin 1 → Fin S780x1.rank)
  concatenates_S780x1_S780x1_S780x2_d1 : Shape.Concatenates [S780x1, S780x1] S780x2 1
  inb_S64x40x64_S64x1x64_0_0_0 : ∀ a, (![0, 0, 0] : Fin 3 → Nat) a + S64x1x64.size a ≤ S64x40x64.size a
  h_S64x1x64 : 0 < S64x1x64.numel
  shapeCasts_S64x1x64_S64x64 : S64x1x64.ShapeCasts S64x64
  inb_S64x40x64_S64x39x64_0_1_0 : ∀ a, (![0, 1, 0] : Fin 3 → Nat) a + S64x39x64.size a ≤ S64x40x64.size a
  h_S64x39x64 : 0 < S64x39x64.numel
  shapeCasts_S64x64_S64x1x64 : S64x64.ShapeCasts S64x1x64
  broadcasts_S64x1x64_S64x39x64 : S64x1x64.Broadcasts S64x39x64
  inb_S780x64_S39x64_0_0 : ∀ a, (![0, 0] : Fin 2 → Nat) a + S39x64.size a ≤ S780x64.size a
  h_S39x64 : 0 < S39x64.numel
  shapeCasts_S39x64_S39x64 : S39x64.ShapeCasts S39x64
  shapeCasts_S39x64_S1x39x64 : S39x64.ShapeCasts S1x39x64
  broadcasts_S1x39x64_S64x39x64 : S1x39x64.Broadcasts S64x39x64
  shapeCasts_S64x39x64_S64x2496 : S64x39x64.ShapeCasts S64x2496
  inb_S64x49920_S64x2496_0_0 : ∀ a, (![0, 0] : Fin 2 → Nat) a + S64x2496.size a ≤ S64x49920.size a
  h_S64x2496 : 0 < S64x2496.numel
  inb_S64x40x64_S64x1x64_0_1_0 : ∀ a, (![0, 1, 0] : Fin 3 → Nat) a + S64x1x64.size a ≤ S64x40x64.size a
  inb_S64x40x64_S64x38x64_0_2_0 : ∀ a, (![0, 2, 0] : Fin 3 → Nat) a + S64x38x64.size a ≤ S64x40x64.size a
  h_S64x38x64 : 0 < S64x38x64.numel
  broadcasts_S64x1x64_S64x38x64 : S64x1x64.Broadcasts S64x38x64
  inb_S780x64_S38x64_39_0 : ∀ a, (![39, 0] : Fin 2 → Nat) a + S38x64.size a ≤ S780x64.size a
  h_S38x64 : 0 < S38x64.numel
  shapeCasts_S38x64_S38x64 : S38x64.ShapeCasts S38x64
  shapeCasts_S38x64_S1x38x64 : S38x64.ShapeCasts S1x38x64
  broadcasts_S1x38x64_S64x38x64 : S1x38x64.Broadcasts S64x38x64
  shapeCasts_S64x38x64_S64x2432 : S64x38x64.ShapeCasts S64x2432
  inb_S64x49920_S64x2432_0_2496 : ∀ a, (![0, 2496] : Fin 2 → Nat) a + S64x2432.size a ≤ S64x49920.size a
  h_S64x2432 : 0 < S64x2432.numel
  inb_S64x40x64_S64x1x64_0_2_0 : ∀ a, (![0, 2, 0] : Fin 3 → Nat) a + S64x1x64.size a ≤ S64x40x64.size a
  inb_S64x40x64_S64x37x64_0_3_0 : ∀ a, (![0, 3, 0] : Fin 3 → Nat) a + S64x37x64.size a ≤ S64x40x64.size a
  h_S64x37x64 : 0 < S64x37x64.numel
  broadcasts_S64x1x64_S64x37x64 : S64x1x64.Broadcasts S64x37x64
  inb_S780x64_S37x64_77_0 : ∀ a, (![77, 0] : Fin 2 → Nat) a + S37x64.size a ≤ S780x64.size a
  h_S37x64 : 0 < S37x64.numel
  shapeCasts_S37x64_S37x64 : S37x64.ShapeCasts S37x64
  shapeCasts_S37x64_S1x37x64 : S37x64.ShapeCasts S1x37x64
  broadcasts_S1x37x64_S64x37x64 : S1x37x64.Broadcasts S64x37x64
  shapeCasts_S64x37x64_S64x2368 : S64x37x64.ShapeCasts S64x2368
  inb_S64x49920_S64x2368_0_4928 : ∀ a, (![0, 4928] : Fin 2 → Nat) a + S64x2368.size a ≤ S64x49920.size a
  h_S64x2368 : 0 < S64x2368.numel
  inb_S64x40x64_S64x1x64_0_3_0 : ∀ a, (![0, 3, 0] : Fin 3 → Nat) a + S64x1x64.size a ≤ S64x40x64.size a
  inb_S64x40x64_S64x36x64_0_4_0 : ∀ a, (![0, 4, 0] : Fin 3 → Nat) a + S64x36x64.size a ≤ S64x40x64.size a
  h_S64x36x64 : 0 < S64x36x64.numel
  broadcasts_S64x1x64_S64x36x64 : S64x1x64.Broadcasts S64x36x64
  inb_S780x64_S36x64_114_0 : ∀ a, (![114, 0] : Fin 2 → Nat) a + S36x64.size a ≤ S780x64.size a
  h_S36x64 : 0 < S36x64.numel
  shapeCasts_S36x64_S36x64 : S36x64.ShapeCasts S36x64
  shapeCasts_S36x64_S1x36x64 : S36x64.ShapeCasts S1x36x64
  broadcasts_S1x36x64_S64x36x64 : S1x36x64.Broadcasts S64x36x64
  shapeCasts_S64x36x64_S64x2304 : S64x36x64.ShapeCasts S64x2304
  inb_S64x49920_S64x2304_0_7296 : ∀ a, (![0, 7296] : Fin 2 → Nat) a + S64x2304.size a ≤ S64x49920.size a
  h_S64x2304 : 0 < S64x2304.numel
  inb_S64x40x64_S64x1x64_0_4_0 : ∀ a, (![0, 4, 0] : Fin 3 → Nat) a + S64x1x64.size a ≤ S64x40x64.size a
  inb_S64x40x64_S64x35x64_0_5_0 : ∀ a, (![0, 5, 0] : Fin 3 → Nat) a + S64x35x64.size a ≤ S64x40x64.size a
  h_S64x35x64 : 0 < S64x35x64.numel
  broadcasts_S64x1x64_S64x35x64 : S64x1x64.Broadcasts S64x35x64
  inb_S780x64_S35x64_150_0 : ∀ a, (![150, 0] : Fin 2 → Nat) a + S35x64.size a ≤ S780x64.size a
  h_S35x64 : 0 < S35x64.numel
  shapeCasts_S35x64_S35x64 : S35x64.ShapeCasts S35x64
  shapeCasts_S35x64_S1x35x64 : S35x64.ShapeCasts S1x35x64
  broadcasts_S1x35x64_S64x35x64 : S1x35x64.Broadcasts S64x35x64
  shapeCasts_S64x35x64_S64x2240 : S64x35x64.ShapeCasts S64x2240
  inb_S64x49920_S64x2240_0_9600 : ∀ a, (![0, 9600] : Fin 2 → Nat) a + S64x2240.size a ≤ S64x49920.size a
  h_S64x2240 : 0 < S64x2240.numel
  inb_S64x40x64_S64x1x64_0_5_0 : ∀ a, (![0, 5, 0] : Fin 3 → Nat) a + S64x1x64.size a ≤ S64x40x64.size a
  inb_S64x40x64_S64x34x64_0_6_0 : ∀ a, (![0, 6, 0] : Fin 3 → Nat) a + S64x34x64.size a ≤ S64x40x64.size a
  h_S64x34x64 : 0 < S64x34x64.numel
  broadcasts_S64x1x64_S64x34x64 : S64x1x64.Broadcasts S64x34x64
  inb_S780x64_S34x64_185_0 : ∀ a, (![185, 0] : Fin 2 → Nat) a + S34x64.size a ≤ S780x64.size a
  h_S34x64 : 0 < S34x64.numel
  shapeCasts_S34x64_S34x64 : S34x64.ShapeCasts S34x64
  shapeCasts_S34x64_S1x34x64 : S34x64.ShapeCasts S1x34x64
  broadcasts_S1x34x64_S64x34x64 : S1x34x64.Broadcasts S64x34x64
  shapeCasts_S64x34x64_S64x2176 : S64x34x64.ShapeCasts S64x2176
  inb_S64x49920_S64x2176_0_11840 : ∀ a, (![0, 11840] : Fin 2 → Nat) a + S64x2176.size a ≤ S64x49920.size a
  h_S64x2176 : 0 < S64x2176.numel
  inb_S64x40x64_S64x1x64_0_6_0 : ∀ a, (![0, 6, 0] : Fin 3 → Nat) a + S64x1x64.size a ≤ S64x40x64.size a
  inb_S64x40x64_S64x33x64_0_7_0 : ∀ a, (![0, 7, 0] : Fin 3 → Nat) a + S64x33x64.size a ≤ S64x40x64.size a
  h_S64x33x64 : 0 < S64x33x64.numel
  broadcasts_S64x1x64_S64x33x64 : S64x1x64.Broadcasts S64x33x64
  inb_S780x64_S33x64_219_0 : ∀ a, (![219, 0] : Fin 2 → Nat) a + S33x64.size a ≤ S780x64.size a
  h_S33x64 : 0 < S33x64.numel
  shapeCasts_S33x64_S33x64 : S33x64.ShapeCasts S33x64
  shapeCasts_S33x64_S1x33x64 : S33x64.ShapeCasts S1x33x64
  broadcasts_S1x33x64_S64x33x64 : S1x33x64.Broadcasts S64x33x64
  shapeCasts_S64x33x64_S64x2112 : S64x33x64.ShapeCasts S64x2112
  inb_S64x49920_S64x2112_0_14016 : ∀ a, (![0, 14016] : Fin 2 → Nat) a + S64x2112.size a ≤ S64x49920.size a
  h_S64x2112 : 0 < S64x2112.numel
  inb_S64x40x64_S64x1x64_0_7_0 : ∀ a, (![0, 7, 0] : Fin 3 → Nat) a + S64x1x64.size a ≤ S64x40x64.size a
  inb_S64x40x64_S64x32x64_0_8_0 : ∀ a, (![0, 8, 0] : Fin 3 → Nat) a + S64x32x64.size a ≤ S64x40x64.size a
  h_S64x32x64 : 0 < S64x32x64.numel
  broadcasts_S64x1x64_S64x32x64 : S64x1x64.Broadcasts S64x32x64
  inb_S780x64_S32x64_252_0 : ∀ a, (![252, 0] : Fin 2 → Nat) a + S32x64.size a ≤ S780x64.size a
  h_S32x64 : 0 < S32x64.numel
  shapeCasts_S32x64_S32x64 : S32x64.ShapeCasts S32x64
  shapeCasts_S32x64_S1x32x64 : S32x64.ShapeCasts S1x32x64
  broadcasts_S1x32x64_S64x32x64 : S1x32x64.Broadcasts S64x32x64
  shapeCasts_S64x32x64_S64x2048 : S64x32x64.ShapeCasts S64x2048
  inb_S64x49920_S64x2048_0_16128 : ∀ a, (![0, 16128] : Fin 2 → Nat) a + S64x2048.size a ≤ S64x49920.size a
  h_S64x2048 : 0 < S64x2048.numel
  inb_S64x40x64_S64x1x64_0_8_0 : ∀ a, (![0, 8, 0] : Fin 3 → Nat) a + S64x1x64.size a ≤ S64x40x64.size a
  inb_S64x40x64_S64x31x64_0_9_0 : ∀ a, (![0, 9, 0] : Fin 3 → Nat) a + S64x31x64.size a ≤ S64x40x64.size a
  h_S64x31x64 : 0 < S64x31x64.numel
  broadcasts_S64x1x64_S64x31x64 : S64x1x64.Broadcasts S64x31x64
  inb_S780x64_S31x64_284_0 : ∀ a, (![284, 0] : Fin 2 → Nat) a + S31x64.size a ≤ S780x64.size a
  h_S31x64 : 0 < S31x64.numel
  shapeCasts_S31x64_S31x64 : S31x64.ShapeCasts S31x64
  shapeCasts_S31x64_S1x31x64 : S31x64.ShapeCasts S1x31x64
  broadcasts_S1x31x64_S64x31x64 : S1x31x64.Broadcasts S64x31x64
  shapeCasts_S64x31x64_S64x1984 : S64x31x64.ShapeCasts S64x1984
  inb_S64x49920_S64x1984_0_18176 : ∀ a, (![0, 18176] : Fin 2 → Nat) a + S64x1984.size a ≤ S64x49920.size a
  h_S64x1984 : 0 < S64x1984.numel
  inb_S64x40x64_S64x1x64_0_9_0 : ∀ a, (![0, 9, 0] : Fin 3 → Nat) a + S64x1x64.size a ≤ S64x40x64.size a
  inb_S64x40x64_S64x30x64_0_10_0 : ∀ a, (![0, 10, 0] : Fin 3 → Nat) a + S64x30x64.size a ≤ S64x40x64.size a
  h_S64x30x64 : 0 < S64x30x64.numel
  broadcasts_S64x1x64_S64x30x64 : S64x1x64.Broadcasts S64x30x64
  inb_S780x64_S30x64_315_0 : ∀ a, (![315, 0] : Fin 2 → Nat) a + S30x64.size a ≤ S780x64.size a
  h_S30x64 : 0 < S30x64.numel
  shapeCasts_S30x64_S30x64 : S30x64.ShapeCasts S30x64
  shapeCasts_S30x64_S1x30x64 : S30x64.ShapeCasts S1x30x64
  broadcasts_S1x30x64_S64x30x64 : S1x30x64.Broadcasts S64x30x64
  shapeCasts_S64x30x64_S64x1920 : S64x30x64.ShapeCasts S64x1920
  inb_S64x49920_S64x1920_0_20160 : ∀ a, (![0, 20160] : Fin 2 → Nat) a + S64x1920.size a ≤ S64x49920.size a
  h_S64x1920 : 0 < S64x1920.numel
  inb_S64x40x64_S64x1x64_0_10_0 : ∀ a, (![0, 10, 0] : Fin 3 → Nat) a + S64x1x64.size a ≤ S64x40x64.size a
  inb_S64x40x64_S64x29x64_0_11_0 : ∀ a, (![0, 11, 0] : Fin 3 → Nat) a + S64x29x64.size a ≤ S64x40x64.size a
  h_S64x29x64 : 0 < S64x29x64.numel
  broadcasts_S64x1x64_S64x29x64 : S64x1x64.Broadcasts S64x29x64
  inb_S780x64_S29x64_345_0 : ∀ a, (![345, 0] : Fin 2 → Nat) a + S29x64.size a ≤ S780x64.size a
  h_S29x64 : 0 < S29x64.numel
  shapeCasts_S29x64_S29x64 : S29x64.ShapeCasts S29x64
  shapeCasts_S29x64_S1x29x64 : S29x64.ShapeCasts S1x29x64
  broadcasts_S1x29x64_S64x29x64 : S1x29x64.Broadcasts S64x29x64
  shapeCasts_S64x29x64_S64x1856 : S64x29x64.ShapeCasts S64x1856
  inb_S64x49920_S64x1856_0_22080 : ∀ a, (![0, 22080] : Fin 2 → Nat) a + S64x1856.size a ≤ S64x49920.size a
  h_S64x1856 : 0 < S64x1856.numel
  inb_S64x40x64_S64x1x64_0_11_0 : ∀ a, (![0, 11, 0] : Fin 3 → Nat) a + S64x1x64.size a ≤ S64x40x64.size a
  inb_S64x40x64_S64x28x64_0_12_0 : ∀ a, (![0, 12, 0] : Fin 3 → Nat) a + S64x28x64.size a ≤ S64x40x64.size a
  h_S64x28x64 : 0 < S64x28x64.numel
  broadcasts_S64x1x64_S64x28x64 : S64x1x64.Broadcasts S64x28x64
  inb_S780x64_S28x64_374_0 : ∀ a, (![374, 0] : Fin 2 → Nat) a + S28x64.size a ≤ S780x64.size a
  h_S28x64 : 0 < S28x64.numel
  shapeCasts_S28x64_S28x64 : S28x64.ShapeCasts S28x64
  shapeCasts_S28x64_S1x28x64 : S28x64.ShapeCasts S1x28x64
  broadcasts_S1x28x64_S64x28x64 : S1x28x64.Broadcasts S64x28x64
  shapeCasts_S64x28x64_S64x1792 : S64x28x64.ShapeCasts S64x1792
  inb_S64x49920_S64x1792_0_23936 : ∀ a, (![0, 23936] : Fin 2 → Nat) a + S64x1792.size a ≤ S64x49920.size a
  h_S64x1792 : 0 < S64x1792.numel
  inb_S64x40x64_S64x1x64_0_12_0 : ∀ a, (![0, 12, 0] : Fin 3 → Nat) a + S64x1x64.size a ≤ S64x40x64.size a
  inb_S64x40x64_S64x27x64_0_13_0 : ∀ a, (![0, 13, 0] : Fin 3 → Nat) a + S64x27x64.size a ≤ S64x40x64.size a
  h_S64x27x64 : 0 < S64x27x64.numel
  broadcasts_S64x1x64_S64x27x64 : S64x1x64.Broadcasts S64x27x64
  inb_S780x64_S27x64_402_0 : ∀ a, (![402, 0] : Fin 2 → Nat) a + S27x64.size a ≤ S780x64.size a
  h_S27x64 : 0 < S27x64.numel
  shapeCasts_S27x64_S27x64 : S27x64.ShapeCasts S27x64
  shapeCasts_S27x64_S1x27x64 : S27x64.ShapeCasts S1x27x64
  broadcasts_S1x27x64_S64x27x64 : S1x27x64.Broadcasts S64x27x64
  shapeCasts_S64x27x64_S64x1728 : S64x27x64.ShapeCasts S64x1728
  inb_S64x49920_S64x1728_0_25728 : ∀ a, (![0, 25728] : Fin 2 → Nat) a + S64x1728.size a ≤ S64x49920.size a
  h_S64x1728 : 0 < S64x1728.numel
  inb_S64x40x64_S64x1x64_0_13_0 : ∀ a, (![0, 13, 0] : Fin 3 → Nat) a + S64x1x64.size a ≤ S64x40x64.size a
  inb_S64x40x64_S64x26x64_0_14_0 : ∀ a, (![0, 14, 0] : Fin 3 → Nat) a + S64x26x64.size a ≤ S64x40x64.size a
  h_S64x26x64 : 0 < S64x26x64.numel
  broadcasts_S64x1x64_S64x26x64 : S64x1x64.Broadcasts S64x26x64
  inb_S780x64_S26x64_429_0 : ∀ a, (![429, 0] : Fin 2 → Nat) a + S26x64.size a ≤ S780x64.size a
  h_S26x64 : 0 < S26x64.numel
  shapeCasts_S26x64_S26x64 : S26x64.ShapeCasts S26x64
  shapeCasts_S26x64_S1x26x64 : S26x64.ShapeCasts S1x26x64
  broadcasts_S1x26x64_S64x26x64 : S1x26x64.Broadcasts S64x26x64
  shapeCasts_S64x26x64_S64x1664 : S64x26x64.ShapeCasts S64x1664
  inb_S64x49920_S64x1664_0_27456 : ∀ a, (![0, 27456] : Fin 2 → Nat) a + S64x1664.size a ≤ S64x49920.size a
  h_S64x1664 : 0 < S64x1664.numel
  inb_S64x40x64_S64x1x64_0_14_0 : ∀ a, (![0, 14, 0] : Fin 3 → Nat) a + S64x1x64.size a ≤ S64x40x64.size a
  inb_S64x40x64_S64x25x64_0_15_0 : ∀ a, (![0, 15, 0] : Fin 3 → Nat) a + S64x25x64.size a ≤ S64x40x64.size a
  h_S64x25x64 : 0 < S64x25x64.numel
  broadcasts_S64x1x64_S64x25x64 : S64x1x64.Broadcasts S64x25x64
  inb_S780x64_S25x64_455_0 : ∀ a, (![455, 0] : Fin 2 → Nat) a + S25x64.size a ≤ S780x64.size a
  h_S25x64 : 0 < S25x64.numel
  shapeCasts_S25x64_S25x64 : S25x64.ShapeCasts S25x64
  shapeCasts_S25x64_S1x25x64 : S25x64.ShapeCasts S1x25x64
  broadcasts_S1x25x64_S64x25x64 : S1x25x64.Broadcasts S64x25x64
  shapeCasts_S64x25x64_S64x1600 : S64x25x64.ShapeCasts S64x1600
  inb_S64x49920_S64x1600_0_29120 : ∀ a, (![0, 29120] : Fin 2 → Nat) a + S64x1600.size a ≤ S64x49920.size a
  h_S64x1600 : 0 < S64x1600.numel
  inb_S64x40x64_S64x1x64_0_15_0 : ∀ a, (![0, 15, 0] : Fin 3 → Nat) a + S64x1x64.size a ≤ S64x40x64.size a
  inb_S64x40x64_S64x24x64_0_16_0 : ∀ a, (![0, 16, 0] : Fin 3 → Nat) a + S64x24x64.size a ≤ S64x40x64.size a
  h_S64x24x64 : 0 < S64x24x64.numel
  broadcasts_S64x1x64_S64x24x64 : S64x1x64.Broadcasts S64x24x64
  inb_S780x64_S24x64_480_0 : ∀ a, (![480, 0] : Fin 2 → Nat) a + S24x64.size a ≤ S780x64.size a
  h_S24x64 : 0 < S24x64.numel
  shapeCasts_S24x64_S24x64 : S24x64.ShapeCasts S24x64
  shapeCasts_S24x64_S1x24x64 : S24x64.ShapeCasts S1x24x64
  broadcasts_S1x24x64_S64x24x64 : S1x24x64.Broadcasts S64x24x64
  shapeCasts_S64x24x64_S64x1536 : S64x24x64.ShapeCasts S64x1536
  inb_S64x49920_S64x1536_0_30720 : ∀ a, (![0, 30720] : Fin 2 → Nat) a + S64x1536.size a ≤ S64x49920.size a
  h_S64x1536 : 0 < S64x1536.numel
  inb_S64x40x64_S64x1x64_0_16_0 : ∀ a, (![0, 16, 0] : Fin 3 → Nat) a + S64x1x64.size a ≤ S64x40x64.size a
  inb_S64x40x64_S64x23x64_0_17_0 : ∀ a, (![0, 17, 0] : Fin 3 → Nat) a + S64x23x64.size a ≤ S64x40x64.size a
  h_S64x23x64 : 0 < S64x23x64.numel
  broadcasts_S64x1x64_S64x23x64 : S64x1x64.Broadcasts S64x23x64
  inb_S780x64_S23x64_504_0 : ∀ a, (![504, 0] : Fin 2 → Nat) a + S23x64.size a ≤ S780x64.size a
  h_S23x64 : 0 < S23x64.numel
  shapeCasts_S23x64_S23x64 : S23x64.ShapeCasts S23x64
  shapeCasts_S23x64_S1x23x64 : S23x64.ShapeCasts S1x23x64
  broadcasts_S1x23x64_S64x23x64 : S1x23x64.Broadcasts S64x23x64
  shapeCasts_S64x23x64_S64x1472 : S64x23x64.ShapeCasts S64x1472
  inb_S64x49920_S64x1472_0_32256 : ∀ a, (![0, 32256] : Fin 2 → Nat) a + S64x1472.size a ≤ S64x49920.size a
  h_S64x1472 : 0 < S64x1472.numel
  inb_S64x40x64_S64x1x64_0_17_0 : ∀ a, (![0, 17, 0] : Fin 3 → Nat) a + S64x1x64.size a ≤ S64x40x64.size a
  inb_S64x40x64_S64x22x64_0_18_0 : ∀ a, (![0, 18, 0] : Fin 3 → Nat) a + S64x22x64.size a ≤ S64x40x64.size a
  h_S64x22x64 : 0 < S64x22x64.numel
  broadcasts_S64x1x64_S64x22x64 : S64x1x64.Broadcasts S64x22x64
  inb_S780x64_S22x64_527_0 : ∀ a, (![527, 0] : Fin 2 → Nat) a + S22x64.size a ≤ S780x64.size a
  h_S22x64 : 0 < S22x64.numel
  shapeCasts_S22x64_S22x64 : S22x64.ShapeCasts S22x64
  shapeCasts_S22x64_S1x22x64 : S22x64.ShapeCasts S1x22x64
  broadcasts_S1x22x64_S64x22x64 : S1x22x64.Broadcasts S64x22x64
  shapeCasts_S64x22x64_S64x1408 : S64x22x64.ShapeCasts S64x1408
  inb_S64x49920_S64x1408_0_33728 : ∀ a, (![0, 33728] : Fin 2 → Nat) a + S64x1408.size a ≤ S64x49920.size a
  h_S64x1408 : 0 < S64x1408.numel
  inb_S64x40x64_S64x1x64_0_18_0 : ∀ a, (![0, 18, 0] : Fin 3 → Nat) a + S64x1x64.size a ≤ S64x40x64.size a
  inb_S64x40x64_S64x21x64_0_19_0 : ∀ a, (![0, 19, 0] : Fin 3 → Nat) a + S64x21x64.size a ≤ S64x40x64.size a
  h_S64x21x64 : 0 < S64x21x64.numel
  broadcasts_S64x1x64_S64x21x64 : S64x1x64.Broadcasts S64x21x64
  inb_S780x64_S21x64_549_0 : ∀ a, (![549, 0] : Fin 2 → Nat) a + S21x64.size a ≤ S780x64.size a
  h_S21x64 : 0 < S21x64.numel
  shapeCasts_S21x64_S21x64 : S21x64.ShapeCasts S21x64
  shapeCasts_S21x64_S1x21x64 : S21x64.ShapeCasts S1x21x64
  broadcasts_S1x21x64_S64x21x64 : S1x21x64.Broadcasts S64x21x64
  shapeCasts_S64x21x64_S64x1344 : S64x21x64.ShapeCasts S64x1344
  inb_S64x49920_S64x1344_0_35136 : ∀ a, (![0, 35136] : Fin 2 → Nat) a + S64x1344.size a ≤ S64x49920.size a
  h_S64x1344 : 0 < S64x1344.numel
  inb_S64x40x64_S64x1x64_0_19_0 : ∀ a, (![0, 19, 0] : Fin 3 → Nat) a + S64x1x64.size a ≤ S64x40x64.size a
  inb_S64x40x64_S64x20x64_0_20_0 : ∀ a, (![0, 20, 0] : Fin 3 → Nat) a + S64x20x64.size a ≤ S64x40x64.size a
  h_S64x20x64 : 0 < S64x20x64.numel
  broadcasts_S64x1x64_S64x20x64 : S64x1x64.Broadcasts S64x20x64
  inb_S780x64_S20x64_570_0 : ∀ a, (![570, 0] : Fin 2 → Nat) a + S20x64.size a ≤ S780x64.size a
  h_S20x64 : 0 < S20x64.numel
  shapeCasts_S20x64_S20x64 : S20x64.ShapeCasts S20x64
  shapeCasts_S20x64_S1x20x64 : S20x64.ShapeCasts S1x20x64
  broadcasts_S1x20x64_S64x20x64 : S1x20x64.Broadcasts S64x20x64
  shapeCasts_S64x20x64_S64x1280 : S64x20x64.ShapeCasts S64x1280
  inb_S64x49920_S64x1280_0_36480 : ∀ a, (![0, 36480] : Fin 2 → Nat) a + S64x1280.size a ≤ S64x49920.size a
  h_S64x1280 : 0 < S64x1280.numel
  inb_S64x40x64_S64x1x64_0_20_0 : ∀ a, (![0, 20, 0] : Fin 3 → Nat) a + S64x1x64.size a ≤ S64x40x64.size a
  inb_S64x40x64_S64x19x64_0_21_0 : ∀ a, (![0, 21, 0] : Fin 3 → Nat) a + S64x19x64.size a ≤ S64x40x64.size a
  h_S64x19x64 : 0 < S64x19x64.numel
  broadcasts_S64x1x64_S64x19x64 : S64x1x64.Broadcasts S64x19x64
  inb_S780x64_S19x64_590_0 : ∀ a, (![590, 0] : Fin 2 → Nat) a + S19x64.size a ≤ S780x64.size a
  h_S19x64 : 0 < S19x64.numel
  shapeCasts_S19x64_S19x64 : S19x64.ShapeCasts S19x64
  shapeCasts_S19x64_S1x19x64 : S19x64.ShapeCasts S1x19x64
  broadcasts_S1x19x64_S64x19x64 : S1x19x64.Broadcasts S64x19x64
  shapeCasts_S64x19x64_S64x1216 : S64x19x64.ShapeCasts S64x1216
  inb_S64x49920_S64x1216_0_37760 : ∀ a, (![0, 37760] : Fin 2 → Nat) a + S64x1216.size a ≤ S64x49920.size a
  h_S64x1216 : 0 < S64x1216.numel
  inb_S64x40x64_S64x1x64_0_21_0 : ∀ a, (![0, 21, 0] : Fin 3 → Nat) a + S64x1x64.size a ≤ S64x40x64.size a
  inb_S64x40x64_S64x18x64_0_22_0 : ∀ a, (![0, 22, 0] : Fin 3 → Nat) a + S64x18x64.size a ≤ S64x40x64.size a
  h_S64x18x64 : 0 < S64x18x64.numel
  broadcasts_S64x1x64_S64x18x64 : S64x1x64.Broadcasts S64x18x64
  inb_S780x64_S18x64_609_0 : ∀ a, (![609, 0] : Fin 2 → Nat) a + S18x64.size a ≤ S780x64.size a
  h_S18x64 : 0 < S18x64.numel
  shapeCasts_S18x64_S18x64 : S18x64.ShapeCasts S18x64
  shapeCasts_S18x64_S1x18x64 : S18x64.ShapeCasts S1x18x64
  broadcasts_S1x18x64_S64x18x64 : S1x18x64.Broadcasts S64x18x64
  shapeCasts_S64x18x64_S64x1152 : S64x18x64.ShapeCasts S64x1152
  inb_S64x49920_S64x1152_0_38976 : ∀ a, (![0, 38976] : Fin 2 → Nat) a + S64x1152.size a ≤ S64x49920.size a
  h_S64x1152 : 0 < S64x1152.numel
  inb_S64x40x64_S64x1x64_0_22_0 : ∀ a, (![0, 22, 0] : Fin 3 → Nat) a + S64x1x64.size a ≤ S64x40x64.size a
  inb_S64x40x64_S64x17x64_0_23_0 : ∀ a, (![0, 23, 0] : Fin 3 → Nat) a + S64x17x64.size a ≤ S64x40x64.size a
  h_S64x17x64 : 0 < S64x17x64.numel
  broadcasts_S64x1x64_S64x17x64 : S64x1x64.Broadcasts S64x17x64
  inb_S780x64_S17x64_627_0 : ∀ a, (![627, 0] : Fin 2 → Nat) a + S17x64.size a ≤ S780x64.size a
  h_S17x64 : 0 < S17x64.numel
  shapeCasts_S17x64_S17x64 : S17x64.ShapeCasts S17x64
  shapeCasts_S17x64_S1x17x64 : S17x64.ShapeCasts S1x17x64
  broadcasts_S1x17x64_S64x17x64 : S1x17x64.Broadcasts S64x17x64
  shapeCasts_S64x17x64_S64x1088 : S64x17x64.ShapeCasts S64x1088
  inb_S64x49920_S64x1088_0_40128 : ∀ a, (![0, 40128] : Fin 2 → Nat) a + S64x1088.size a ≤ S64x49920.size a
  h_S64x1088 : 0 < S64x1088.numel
  inb_S64x40x64_S64x1x64_0_23_0 : ∀ a, (![0, 23, 0] : Fin 3 → Nat) a + S64x1x64.size a ≤ S64x40x64.size a
  inb_S64x40x64_S64x16x64_0_24_0 : ∀ a, (![0, 24, 0] : Fin 3 → Nat) a + S64x16x64.size a ≤ S64x40x64.size a
  h_S64x16x64 : 0 < S64x16x64.numel
  broadcasts_S64x1x64_S64x16x64 : S64x1x64.Broadcasts S64x16x64
  inb_S780x64_S16x64_644_0 : ∀ a, (![644, 0] : Fin 2 → Nat) a + S16x64.size a ≤ S780x64.size a
  h_S16x64 : 0 < S16x64.numel
  shapeCasts_S16x64_S16x64 : S16x64.ShapeCasts S16x64
  shapeCasts_S16x64_S1x16x64 : S16x64.ShapeCasts S1x16x64
  broadcasts_S1x16x64_S64x16x64 : S1x16x64.Broadcasts S64x16x64
  shapeCasts_S64x16x64_S64x1024 : S64x16x64.ShapeCasts S64x1024
  inb_S64x49920_S64x1024_0_41216 : ∀ a, (![0, 41216] : Fin 2 → Nat) a + S64x1024.size a ≤ S64x49920.size a
  h_S64x1024 : 0 < S64x1024.numel
  inb_S64x40x64_S64x1x64_0_24_0 : ∀ a, (![0, 24, 0] : Fin 3 → Nat) a + S64x1x64.size a ≤ S64x40x64.size a
  inb_S64x40x64_S64x15x64_0_25_0 : ∀ a, (![0, 25, 0] : Fin 3 → Nat) a + S64x15x64.size a ≤ S64x40x64.size a
  h_S64x15x64 : 0 < S64x15x64.numel
  broadcasts_S64x1x64_S64x15x64 : S64x1x64.Broadcasts S64x15x64
  inb_S780x64_S15x64_660_0 : ∀ a, (![660, 0] : Fin 2 → Nat) a + S15x64.size a ≤ S780x64.size a
  h_S15x64 : 0 < S15x64.numel
  shapeCasts_S15x64_S15x64 : S15x64.ShapeCasts S15x64
  shapeCasts_S15x64_S1x15x64 : S15x64.ShapeCasts S1x15x64
  broadcasts_S1x15x64_S64x15x64 : S1x15x64.Broadcasts S64x15x64
  shapeCasts_S64x15x64_S64x960 : S64x15x64.ShapeCasts S64x960
  inb_S64x49920_S64x960_0_42240 : ∀ a, (![0, 42240] : Fin 2 → Nat) a + S64x960.size a ≤ S64x49920.size a
  h_S64x960 : 0 < S64x960.numel
  inb_S64x40x64_S64x1x64_0_25_0 : ∀ a, (![0, 25, 0] : Fin 3 → Nat) a + S64x1x64.size a ≤ S64x40x64.size a
  inb_S64x40x64_S64x14x64_0_26_0 : ∀ a, (![0, 26, 0] : Fin 3 → Nat) a + S64x14x64.size a ≤ S64x40x64.size a
  h_S64x14x64 : 0 < S64x14x64.numel
  broadcasts_S64x1x64_S64x14x64 : S64x1x64.Broadcasts S64x14x64
  inb_S780x64_S14x64_675_0 : ∀ a, (![675, 0] : Fin 2 → Nat) a + S14x64.size a ≤ S780x64.size a
  h_S14x64 : 0 < S14x64.numel
  shapeCasts_S14x64_S14x64 : S14x64.ShapeCasts S14x64
  shapeCasts_S14x64_S1x14x64 : S14x64.ShapeCasts S1x14x64
  broadcasts_S1x14x64_S64x14x64 : S1x14x64.Broadcasts S64x14x64
  shapeCasts_S64x14x64_S64x896 : S64x14x64.ShapeCasts S64x896
  inb_S64x49920_S64x896_0_43200 : ∀ a, (![0, 43200] : Fin 2 → Nat) a + S64x896.size a ≤ S64x49920.size a
  h_S64x896 : 0 < S64x896.numel
  inb_S64x40x64_S64x1x64_0_26_0 : ∀ a, (![0, 26, 0] : Fin 3 → Nat) a + S64x1x64.size a ≤ S64x40x64.size a
  inb_S64x40x64_S64x13x64_0_27_0 : ∀ a, (![0, 27, 0] : Fin 3 → Nat) a + S64x13x64.size a ≤ S64x40x64.size a
  h_S64x13x64 : 0 < S64x13x64.numel
  broadcasts_S64x1x64_S64x13x64 : S64x1x64.Broadcasts S64x13x64
  inb_S780x64_S13x64_689_0 : ∀ a, (![689, 0] : Fin 2 → Nat) a + S13x64.size a ≤ S780x64.size a
  h_S13x64 : 0 < S13x64.numel
  shapeCasts_S13x64_S13x64 : S13x64.ShapeCasts S13x64
  shapeCasts_S13x64_S1x13x64 : S13x64.ShapeCasts S1x13x64
  broadcasts_S1x13x64_S64x13x64 : S1x13x64.Broadcasts S64x13x64
  shapeCasts_S64x13x64_S64x832 : S64x13x64.ShapeCasts S64x832
  inb_S64x49920_S64x832_0_44096 : ∀ a, (![0, 44096] : Fin 2 → Nat) a + S64x832.size a ≤ S64x49920.size a
  h_S64x832 : 0 < S64x832.numel
  inb_S64x40x64_S64x1x64_0_27_0 : ∀ a, (![0, 27, 0] : Fin 3 → Nat) a + S64x1x64.size a ≤ S64x40x64.size a
  inb_S64x40x64_S64x12x64_0_28_0 : ∀ a, (![0, 28, 0] : Fin 3 → Nat) a + S64x12x64.size a ≤ S64x40x64.size a
  h_S64x12x64 : 0 < S64x12x64.numel
  broadcasts_S64x1x64_S64x12x64 : S64x1x64.Broadcasts S64x12x64
  inb_S780x64_S12x64_702_0 : ∀ a, (![702, 0] : Fin 2 → Nat) a + S12x64.size a ≤ S780x64.size a
  h_S12x64 : 0 < S12x64.numel
  shapeCasts_S12x64_S12x64 : S12x64.ShapeCasts S12x64
  shapeCasts_S12x64_S1x12x64 : S12x64.ShapeCasts S1x12x64
  broadcasts_S1x12x64_S64x12x64 : S1x12x64.Broadcasts S64x12x64
  shapeCasts_S64x12x64_S64x768 : S64x12x64.ShapeCasts S64x768
  inb_S64x49920_S64x768_0_44928 : ∀ a, (![0, 44928] : Fin 2 → Nat) a + S64x768.size a ≤ S64x49920.size a
  h_S64x768 : 0 < S64x768.numel
  inb_S64x40x64_S64x1x64_0_28_0 : ∀ a, (![0, 28, 0] : Fin 3 → Nat) a + S64x1x64.size a ≤ S64x40x64.size a
  inb_S64x40x64_S64x11x64_0_29_0 : ∀ a, (![0, 29, 0] : Fin 3 → Nat) a + S64x11x64.size a ≤ S64x40x64.size a
  h_S64x11x64 : 0 < S64x11x64.numel
  broadcasts_S64x1x64_S64x11x64 : S64x1x64.Broadcasts S64x11x64
  inb_S780x64_S11x64_714_0 : ∀ a, (![714, 0] : Fin 2 → Nat) a + S11x64.size a ≤ S780x64.size a
  h_S11x64 : 0 < S11x64.numel
  shapeCasts_S11x64_S11x64 : S11x64.ShapeCasts S11x64
  shapeCasts_S11x64_S1x11x64 : S11x64.ShapeCasts S1x11x64
  broadcasts_S1x11x64_S64x11x64 : S1x11x64.Broadcasts S64x11x64
  shapeCasts_S64x11x64_S64x704 : S64x11x64.ShapeCasts S64x704
  inb_S64x49920_S64x704_0_45696 : ∀ a, (![0, 45696] : Fin 2 → Nat) a + S64x704.size a ≤ S64x49920.size a
  h_S64x704 : 0 < S64x704.numel
  inb_S64x40x64_S64x1x64_0_29_0 : ∀ a, (![0, 29, 0] : Fin 3 → Nat) a + S64x1x64.size a ≤ S64x40x64.size a
  inb_S64x40x64_S64x10x64_0_30_0 : ∀ a, (![0, 30, 0] : Fin 3 → Nat) a + S64x10x64.size a ≤ S64x40x64.size a
  h_S64x10x64 : 0 < S64x10x64.numel
  broadcasts_S64x1x64_S64x10x64 : S64x1x64.Broadcasts S64x10x64
  inb_S780x64_S10x64_725_0 : ∀ a, (![725, 0] : Fin 2 → Nat) a + S10x64.size a ≤ S780x64.size a
  h_S10x64 : 0 < S10x64.numel
  shapeCasts_S10x64_S10x64 : S10x64.ShapeCasts S10x64
  shapeCasts_S10x64_S1x10x64 : S10x64.ShapeCasts S1x10x64
  broadcasts_S1x10x64_S64x10x64 : S1x10x64.Broadcasts S64x10x64
  shapeCasts_S64x10x64_S64x640 : S64x10x64.ShapeCasts S64x640
  inb_S64x49920_S64x640_0_46400 : ∀ a, (![0, 46400] : Fin 2 → Nat) a + S64x640.size a ≤ S64x49920.size a
  h_S64x640 : 0 < S64x640.numel
  inb_S64x40x64_S64x1x64_0_30_0 : ∀ a, (![0, 30, 0] : Fin 3 → Nat) a + S64x1x64.size a ≤ S64x40x64.size a
  inb_S64x40x64_S64x9x64_0_31_0 : ∀ a, (![0, 31, 0] : Fin 3 → Nat) a + S64x9x64.size a ≤ S64x40x64.size a
  h_S64x9x64 : 0 < S64x9x64.numel
  broadcasts_S64x1x64_S64x9x64 : S64x1x64.Broadcasts S64x9x64
  inb_S780x64_S9x64_735_0 : ∀ a, (![735, 0] : Fin 2 → Nat) a + S9x64.size a ≤ S780x64.size a
  h_S9x64 : 0 < S9x64.numel
  shapeCasts_S9x64_S9x64 : S9x64.ShapeCasts S9x64
  shapeCasts_S9x64_S1x9x64 : S9x64.ShapeCasts S1x9x64
  broadcasts_S1x9x64_S64x9x64 : S1x9x64.Broadcasts S64x9x64
  shapeCasts_S64x9x64_S64x576 : S64x9x64.ShapeCasts S64x576
  inb_S64x49920_S64x576_0_47040 : ∀ a, (![0, 47040] : Fin 2 → Nat) a + S64x576.size a ≤ S64x49920.size a
  h_S64x576 : 0 < S64x576.numel
  inb_S64x40x64_S64x1x64_0_31_0 : ∀ a, (![0, 31, 0] : Fin 3 → Nat) a + S64x1x64.size a ≤ S64x40x64.size a
  inb_S64x40x64_S64x8x64_0_32_0 : ∀ a, (![0, 32, 0] : Fin 3 → Nat) a + S64x8x64.size a ≤ S64x40x64.size a
  h_S64x8x64 : 0 < S64x8x64.numel
  broadcasts_S64x1x64_S64x8x64 : S64x1x64.Broadcasts S64x8x64
  inb_S780x64_S8x64_744_0 : ∀ a, (![744, 0] : Fin 2 → Nat) a + S8x64.size a ≤ S780x64.size a
  h_S8x64 : 0 < S8x64.numel
  shapeCasts_S8x64_S8x64 : S8x64.ShapeCasts S8x64
  shapeCasts_S8x64_S1x8x64 : S8x64.ShapeCasts S1x8x64
  broadcasts_S1x8x64_S64x8x64 : S1x8x64.Broadcasts S64x8x64
  shapeCasts_S64x8x64_S64x512 : S64x8x64.ShapeCasts S64x512
  inb_S64x49920_S64x512_0_47616 : ∀ a, (![0, 47616] : Fin 2 → Nat) a + S64x512.size a ≤ S64x49920.size a
  h_S64x512 : 0 < S64x512.numel
  inb_S64x40x64_S64x1x64_0_32_0 : ∀ a, (![0, 32, 0] : Fin 3 → Nat) a + S64x1x64.size a ≤ S64x40x64.size a
  inb_S64x40x64_S64x7x64_0_33_0 : ∀ a, (![0, 33, 0] : Fin 3 → Nat) a + S64x7x64.size a ≤ S64x40x64.size a
  h_S64x7x64 : 0 < S64x7x64.numel
  broadcasts_S64x1x64_S64x7x64 : S64x1x64.Broadcasts S64x7x64
  inb_S780x64_S7x64_752_0 : ∀ a, (![752, 0] : Fin 2 → Nat) a + S7x64.size a ≤ S780x64.size a
  h_S7x64 : 0 < S7x64.numel
  shapeCasts_S7x64_S7x64 : S7x64.ShapeCasts S7x64
  shapeCasts_S7x64_S1x7x64 : S7x64.ShapeCasts S1x7x64
  broadcasts_S1x7x64_S64x7x64 : S1x7x64.Broadcasts S64x7x64
  shapeCasts_S64x7x64_S64x448 : S64x7x64.ShapeCasts S64x448
  inb_S64x49920_S64x448_0_48128 : ∀ a, (![0, 48128] : Fin 2 → Nat) a + S64x448.size a ≤ S64x49920.size a
  h_S64x448 : 0 < S64x448.numel
  inb_S64x40x64_S64x1x64_0_33_0 : ∀ a, (![0, 33, 0] : Fin 3 → Nat) a + S64x1x64.size a ≤ S64x40x64.size a
  inb_S64x40x64_S64x6x64_0_34_0 : ∀ a, (![0, 34, 0] : Fin 3 → Nat) a + S64x6x64.size a ≤ S64x40x64.size a
  h_S64x6x64 : 0 < S64x6x64.numel
  broadcasts_S64x1x64_S64x6x64 : S64x1x64.Broadcasts S64x6x64
  inb_S780x64_S6x64_759_0 : ∀ a, (![759, 0] : Fin 2 → Nat) a + S6x64.size a ≤ S780x64.size a
  h_S6x64 : 0 < S6x64.numel
  shapeCasts_S6x64_S6x64 : S6x64.ShapeCasts S6x64
  shapeCasts_S6x64_S1x6x64 : S6x64.ShapeCasts S1x6x64
  broadcasts_S1x6x64_S64x6x64 : S1x6x64.Broadcasts S64x6x64
  shapeCasts_S64x6x64_S64x384 : S64x6x64.ShapeCasts S64x384
  inb_S64x49920_S64x384_0_48576 : ∀ a, (![0, 48576] : Fin 2 → Nat) a + S64x384.size a ≤ S64x49920.size a
  h_S64x384 : 0 < S64x384.numel
  inb_S64x40x64_S64x1x64_0_34_0 : ∀ a, (![0, 34, 0] : Fin 3 → Nat) a + S64x1x64.size a ≤ S64x40x64.size a
  inb_S64x40x64_S64x5x64_0_35_0 : ∀ a, (![0, 35, 0] : Fin 3 → Nat) a + S64x5x64.size a ≤ S64x40x64.size a
  h_S64x5x64 : 0 < S64x5x64.numel
  broadcasts_S64x1x64_S64x5x64 : S64x1x64.Broadcasts S64x5x64
  inb_S780x64_S5x64_765_0 : ∀ a, (![765, 0] : Fin 2 → Nat) a + S5x64.size a ≤ S780x64.size a
  h_S5x64 : 0 < S5x64.numel
  shapeCasts_S5x64_S5x64 : S5x64.ShapeCasts S5x64
  shapeCasts_S5x64_S1x5x64 : S5x64.ShapeCasts S1x5x64
  broadcasts_S1x5x64_S64x5x64 : S1x5x64.Broadcasts S64x5x64
  shapeCasts_S64x5x64_S64x320 : S64x5x64.ShapeCasts S64x320
  inb_S64x49920_S64x320_0_48960 : ∀ a, (![0, 48960] : Fin 2 → Nat) a + S64x320.size a ≤ S64x49920.size a
  h_S64x320 : 0 < S64x320.numel
  inb_S64x40x64_S64x1x64_0_35_0 : ∀ a, (![0, 35, 0] : Fin 3 → Nat) a + S64x1x64.size a ≤ S64x40x64.size a
  inb_S64x40x64_S64x4x64_0_36_0 : ∀ a, (![0, 36, 0] : Fin 3 → Nat) a + S64x4x64.size a ≤ S64x40x64.size a
  h_S64x4x64 : 0 < S64x4x64.numel
  broadcasts_S64x1x64_S64x4x64 : S64x1x64.Broadcasts S64x4x64
  inb_S780x64_S4x64_770_0 : ∀ a, (![770, 0] : Fin 2 → Nat) a + S4x64.size a ≤ S780x64.size a
  h_S4x64 : 0 < S4x64.numel
  shapeCasts_S4x64_S4x64 : S4x64.ShapeCasts S4x64
  shapeCasts_S4x64_S1x4x64 : S4x64.ShapeCasts S1x4x64
  broadcasts_S1x4x64_S64x4x64 : S1x4x64.Broadcasts S64x4x64
  shapeCasts_S64x4x64_S64x256 : S64x4x64.ShapeCasts S64x256
  inb_S64x49920_S64x256_0_49280 : ∀ a, (![0, 49280] : Fin 2 → Nat) a + S64x256.size a ≤ S64x49920.size a
  h_S64x256 : 0 < S64x256.numel
  inb_S64x40x64_S64x1x64_0_36_0 : ∀ a, (![0, 36, 0] : Fin 3 → Nat) a + S64x1x64.size a ≤ S64x40x64.size a
  inb_S64x40x64_S64x3x64_0_37_0 : ∀ a, (![0, 37, 0] : Fin 3 → Nat) a + S64x3x64.size a ≤ S64x40x64.size a
  h_S64x3x64 : 0 < S64x3x64.numel
  broadcasts_S64x1x64_S64x3x64 : S64x1x64.Broadcasts S64x3x64
  inb_S780x64_S3x64_774_0 : ∀ a, (![774, 0] : Fin 2 → Nat) a + S3x64.size a ≤ S780x64.size a
  h_S3x64 : 0 < S3x64.numel
  shapeCasts_S3x64_S3x64 : S3x64.ShapeCasts S3x64
  shapeCasts_S3x64_S1x3x64 : S3x64.ShapeCasts S1x3x64
  broadcasts_S1x3x64_S64x3x64 : S1x3x64.Broadcasts S64x3x64
  shapeCasts_S64x3x64_S64x192 : S64x3x64.ShapeCasts S64x192
  inb_S64x49920_S64x192_0_49536 : ∀ a, (![0, 49536] : Fin 2 → Nat) a + S64x192.size a ≤ S64x49920.size a
  h_S64x192 : 0 < S64x192.numel
  inb_S64x40x64_S64x1x64_0_37_0 : ∀ a, (![0, 37, 0] : Fin 3 → Nat) a + S64x1x64.size a ≤ S64x40x64.size a
  inb_S64x40x64_S64x2x64_0_38_0 : ∀ a, (![0, 38, 0] : Fin 3 → Nat) a + S64x2x64.size a ≤ S64x40x64.size a
  h_S64x2x64 : 0 < S64x2x64.numel
  broadcasts_S64x1x64_S64x2x64 : S64x1x64.Broadcasts S64x2x64
  inb_S780x64_S2x64_777_0 : ∀ a, (![777, 0] : Fin 2 → Nat) a + S2x64.size a ≤ S780x64.size a
  h_S2x64 : 0 < S2x64.numel
  shapeCasts_S2x64_S2x64 : S2x64.ShapeCasts S2x64
  shapeCasts_S2x64_S1x2x64 : S2x64.ShapeCasts S1x2x64
  broadcasts_S1x2x64_S64x2x64 : S1x2x64.Broadcasts S64x2x64
  shapeCasts_S64x2x64_S64x128 : S64x2x64.ShapeCasts S64x128
  inb_S64x49920_S64x128_0_49728 : ∀ a, (![0, 49728] : Fin 2 → Nat) a + S64x128.size a ≤ S64x49920.size a
  h_S64x128 : 0 < S64x128.numel
  inb_S64x40x64_S64x1x64_0_38_0 : ∀ a, (![0, 38, 0] : Fin 3 → Nat) a + S64x1x64.size a ≤ S64x40x64.size a
  inb_S64x40x64_S64x1x64_0_39_0 : ∀ a, (![0, 39, 0] : Fin 3 → Nat) a + S64x1x64.size a ≤ S64x40x64.size a
  inb_S780x64_S1x64_779_0 : ∀ a, (![779, 0] : Fin 2 → Nat) a + S1x64.size a ≤ S780x64.size a
  h_S1x64 : 0 < S1x64.numel
  shapeCasts_S1x64_S1x64 : S1x64.ShapeCasts S1x64
  shapeCasts_S1x64_S1x1x64 : S1x64.ShapeCasts S1x1x64
  broadcasts_S1x1x64_S64x1x64 : S1x1x64.Broadcasts S64x1x64
  inb_S64x49920_S64x64_0_49856 : ∀ a, (![0, 49856] : Fin 2 → Nat) a + S64x64.size a ≤ S64x49920.size a
  h_S64x64 : 0 < S64x64.numel
  gather_S40x40x64_S780x2_S780x64_1_01_n_n_01_1_1164_wf : GatherDims.WF S40x40x64 S780x2 S780x64 [1] [0, 1] [] [0, 1] [] 1 ![1, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x40x64.size a ≤ S4096x40x64.size a
  hwx0_0 : ∀ i : grid0.Coords, EltTy.bits .f32 = 32 ∨ (Rect.block (s := S4096x40x64) S64x40x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S780x64.size a ≤ S780x64.size a
  hwx0_1 : ∀ i : grid0.Coords, EltTy.bits .f32 = 32 ∨ (Rect.block (s := S780x64) S780x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x49920.size a ≤ S4096x49920.size a
  hwx0_2 : ∀ i : grid0.Coords, EltTy.bits .f32 = 32 ∨ (Rect.block (s := S4096x49920) S64x49920.size (cc0_transform_2 i) (hinb0_2 i)).WholeWords (EltTy.packing .f32)

variable [Facts₀]

def gather_S40x40x64_S780x2_S780x64_1_01_n_n_01_1_1164 : GatherDims S40x40x64 S780x2 S780x64 where
  offsetDims := [1]
  collapsedSliceDims := [0, 1]
  operandBatchingDims := []
  startIndicesBatchingDims := []
  startIndexMap := [0, 1]
  indexVectorDim := 1
  sliceSizes := ![1, 1, 64]
  wf := gather_S40x40x64_S780x2_S780x64_1_01_n_n_01_1_1164_wf

abbrev win0_0 : Pipeline.Window sig grid0 :=
  Pipeline.Window.ofSpec (Memref.whole main_arg0) S64x40x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S780x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x49920.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x40x64 : Shape := ⟨3, ![4096, 40, 64]⟩
abbrev S40x40x64 : Shape := ⟨3, ![40, 40, 64]⟩
abbrev S_ : Shape := ⟨0, ![]⟩
abbrev S40x40 : Shape := ⟨2, ![40, 40]⟩
abbrev S1600 : Shape := ⟨1, ![1600]⟩
abbrev S780 : Shape := ⟨1, ![780]⟩
abbrev S1600x1 : Shape := ⟨2, ![1600, 1]⟩
abbrev S780x1 : Shape := ⟨2, ![780, 1]⟩
abbrev S780x2 : Shape := ⟨2, ![780, 2]⟩
abbrev S780x64 : Shape := ⟨2, ![780, 64]⟩
abbrev S4096x780x64 : Shape := ⟨3, ![4096, 780, 64]⟩
abbrev S1x780x64 : Shape := ⟨3, ![1, 780, 64]⟩
abbrev S4096x49920 : Shape := ⟨2, ![4096, 49920]⟩

abbrev nBuf : Space → Nat
  | .hbm => 179
  | .vmem => 0
  | .smem => 0
  | _ => 0

abbrev hbmTy0_0 (i : Nat) : BufTy := match i % 128 with
  | 0 => ⟨S4096x40x64, .f32⟩
  | 1 => ⟨S40x40x64, .f32⟩
  | 2 => ⟨S_, .f32⟩
  | 3 => ⟨S40x40, .f32⟩
  | 4 => ⟨S40x40, .i32⟩
  | 5 => ⟨S_, .i32⟩
  | 6 => ⟨S40x40, .i32⟩
  | 7 => ⟨S40x40, .i32⟩
  | 8 => ⟨S40x40, .i32⟩
  | 9 => ⟨S40x40, .i1⟩
  | 10 => ⟨S_, .f32⟩
  | 11 => ⟨S40x40, .f32⟩
  | 12 => ⟨S40x40, .f32⟩
  | 13 => ⟨S_, .f32⟩
  | 14 => ⟨S40x40, .f32⟩
  | 15 => ⟨S40x40, .i1⟩
  | 16 => ⟨S1600, .i1⟩
  | 17 => ⟨S1600, .i32⟩
  | 18 => ⟨S_, .i32⟩
  | 19 => ⟨S_, .i32⟩
  | 20 => ⟨S1600, .i32⟩
  | 21 => ⟨S_, .i32⟩
  | 22 => ⟨S780, .i32⟩
  | 23 => ⟨S_, .i32⟩
  | 24 => ⟨S_, .i32⟩
  | 25 => ⟨S1600, .i32⟩
  | 26 => ⟨S1600, .i32⟩
  | 27 => ⟨S_, .i32⟩
  | 28 => ⟨S1600, .i32⟩
  | 29 => ⟨S1600, .i1⟩
  | 30 => ⟨S_, .i32⟩
  | 31 => ⟨S1600, .i32⟩
  | 32 => ⟨S1600, .i32⟩
  | 33 => ⟨S1600, .i32⟩
  | 34 => ⟨S1600x1, .i32⟩
  | 35 => ⟨S_, .i32⟩
  | 36 => ⟨S1600, .i32⟩
  | 37 => ⟨S780, .i32⟩
  | 38 => ⟨S_, .i32⟩
  | 39 => ⟨S_, .i32⟩
  | 40 => ⟨S780, .i32⟩
  | 41 => ⟨S_, .i32⟩
  | 42 => ⟨S780, .i32⟩
  | 43 => ⟨S780, .i32⟩
  | 44 => ⟨S780, .i32⟩
  | 45 => ⟨S_, .i32⟩
  | 46 => ⟨S780, .i32⟩
  | 47 => ⟨S780, .i1⟩
  | 48 => ⟨S780, .i32⟩
  | 49 => ⟨S780, .i32⟩
  | 50 => ⟨S_, .i32⟩
  | 51 => ⟨S780, .i32⟩
  | 52 => ⟨S780, .i1⟩
  | 53 => ⟨S780, .i1⟩
  | 54 => ⟨S_, .i32⟩
  | 55 => ⟨S780, .i32⟩
  | 56 => ⟨S780, .i32⟩
  | 57 => ⟨S780, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S780, .i32⟩
  | 65 => ⟨S780, .i32⟩
  | 66 => ⟨S_, .i32⟩
  | 67 => ⟨S780, .i32⟩
  | 68 => ⟨S780, .i1⟩
  | 69 => ⟨S_, .i32⟩
  | 70 => ⟨S780, .i32⟩
  | 71 => ⟨S780, .i1⟩
  | 72 => ⟨S_, .i32⟩
  | 73 => ⟨S_, .i1⟩
  | 74 => ⟨S780, .i1⟩
  | 75 => ⟨S780, .i1⟩
  | 76 => ⟨S780, .i1⟩
  | 77 => ⟨S780, .i32⟩
  | 78 => ⟨S780, .i32⟩
  | 79 => ⟨S780, .i32⟩
  | 80 => ⟨S_, .i32⟩
  | 81 => ⟨S780, .i32⟩
  | 82 => ⟨S780, .i32⟩
  | 83 => ⟨S780, .i32⟩
  | 84 => ⟨S_, .i32⟩
  | 85 => ⟨S780, .i32⟩
  | 86 => ⟨S780, .i1⟩
  | 87 => ⟨S780, .i32⟩
  | 88 => ⟨S780, .i32⟩
  | 89 => ⟨S_, .i32⟩
  | 90 => ⟨S780, .i32⟩
  | 91 => ⟨S780, .i1⟩
  | 92 => ⟨S780, .i1⟩
  | 93 => ⟨S_, .i32⟩
  | 94 => ⟨S780, .i32⟩
  | 95 => ⟨S780, .i32⟩
  | 96 => ⟨S780, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S780, .i32⟩
  | 104 => ⟨S780, .i32⟩
  | 105 => ⟨S_, .i32⟩
  | 106 => ⟨S780, .i32⟩
  | 107 => ⟨S780, .i1⟩
  | 108 => ⟨S_, .i32⟩
  | 109 => ⟨S780, .i32⟩
  | 110 => ⟨S780, .i1⟩
  | 111 => ⟨S_, .i32⟩
  | 112 => ⟨S_, .i1⟩
  | 113 => ⟨S780, .i1⟩
  | 114 => ⟨S780, .i1⟩
  | 115 => ⟨S780, .i1⟩
  | 116 => ⟨S780, .i32⟩
  | 117 => ⟨S780, .i32⟩
  | 118 => ⟨S780, .i32⟩
  | 119 => ⟨S_, .i32⟩
  | 120 => ⟨S780, .i32⟩
  | 121 => ⟨S780, .i1⟩
  | 122 => ⟨S_, .i32⟩
  | 123 => ⟨S780, .i32⟩
  | 124 => ⟨S780, .i32⟩
  | 125 => ⟨S780, .i32⟩
  | 126 => ⟨S_, .i32⟩
  | 127 => ⟨S780, .i32⟩
  | _ => ⟨S4096x40x64, .f32⟩

abbrev hbmTy0_1 (i : Nat) : BufTy := match i % 128 with
  | 0 => ⟨S780, .i1⟩
  | 1 => ⟨S_, .i32⟩
  | 2 => ⟨S780, .i32⟩
  | 3 => ⟨S780, .i32⟩
  | 4 => ⟨S780, .i32⟩
  | 5 => ⟨S780x1, .i32⟩
  | 6 => ⟨S780x1, .i32⟩
  | 7 => ⟨S780x2, .i32⟩
  | 8 => ⟨S780x64, .f32⟩
  | 9 => ⟨S_, .i32⟩
  | 10 => ⟨S780, .i32⟩
  | 11 => ⟨S780, .i1⟩
  | 12 => ⟨S_, .i32⟩
  | 13 => ⟨S780, .i32⟩
  | 14 => ⟨S780, .i32⟩
  | 15 => ⟨S780, .i32⟩
  | 16 => ⟨S_, .i32⟩
  | 17 => ⟨S780, .i32⟩
  | 18 => ⟨S780, .i1⟩
  | 19 => ⟨S_, .i32⟩
  | 20 => ⟨S780, .i32⟩
  | 21 => ⟨S780, .i32⟩
  | 22 => ⟨S780, .i32⟩
  | 23 => ⟨S780x1, .i32⟩
  | 24 => ⟨S780x1, .i32⟩
  | 25 => ⟨S780x2, .i32⟩
  | 26 => ⟨S780x64, .f32⟩
  | 27 => ⟨S780x64, .f32⟩
  | 28 => ⟨S_, .i32⟩
  | 29 => ⟨S780, .i32⟩
  | 30 => ⟨S780, .i1⟩
  | 31 => ⟨S_, .i32⟩
  | 32 => ⟨S780, .i32⟩
  | 33 => ⟨S780, .i32⟩
  | 34 => ⟨S780, .i32⟩
  | 35 => ⟨S780x1, .i32⟩
  | 36 => ⟨S4096x780x64, .f32⟩
  | 37 => ⟨S_, .i32⟩
  | 38 => ⟨S780, .i32⟩
  | 39 => ⟨S780, .i1⟩
  | 40 => ⟨S_, .i32⟩
  | 41 => ⟨S780, .i32⟩
  | 42 => ⟨S780, .i32⟩
  | 43 => ⟨S780, .i32⟩
  | 44 => ⟨S780x1, .i32⟩
  | 45 => ⟨S4096x780x64, .f32⟩
  | 46 => ⟨S4096x780x64, .f32⟩
  | 47 => ⟨S1x780x64, .f32⟩
  | 48 => ⟨S4096x780x64, .f32⟩
  | 49 => ⟨S4096x780x64, .f32⟩
  | 50 => ⟨S4096x49920, .f32⟩
  | _ => ⟨S4096x40x64, .f32⟩

abbrev hbmTy (i : Nat) : BufTy := match i / 128 with
  | 0 => hbmTy0_0 i
  | 1 => hbmTy0_1 i
  | _ => ⟨S4096x40x64, .f32⟩

abbrev bufTy : (tb : Table) → Fin (tcTables nBuf tb) → BufTy
  | .hbm, ⟨i, _⟩ => hbmTy i
  | _, _ => ⟨S4096x40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_v8 : Ref sig .tc := ⟨.hbm, 29, rfl⟩
abbrev main_c_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_4 : Ref sig .tc := ⟨.hbm, 35, rfl⟩
abbrev main_v13 : Ref sig .tc := ⟨.hbm, 36, rfl⟩
abbrev main_v14 : Ref sig .tc := ⟨.hbm, 37, rfl⟩
abbrev main_call3_call0_c : Ref sig .tc := ⟨.hbm, 38, rfl⟩
abbrev main_call3_call0_v0 : Ref sig .tc := ⟨.hbm, 39, rfl⟩
abbrev main_v15 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v16 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v17 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v18 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v19 : Ref sig .tc := ⟨.hbm, 118, rfl⟩
abbrev main_c_9 : Ref sig .tc := ⟨.hbm, 119, rfl⟩
abbrev main_v20 : Ref sig .tc := ⟨.hbm, 120, rfl⟩
abbrev main_v21 : Ref sig .tc := ⟨.hbm, 121, rfl⟩
abbrev main_c_10 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_c_11 : Ref sig .tc := ⟨.hbm, 126, rfl⟩
abbrev main_v25 : Ref sig .tc := ⟨.hbm, 127, rfl⟩
abbrev main_v26 : Ref sig .tc := ⟨.hbm, 128, rfl⟩
abbrev main_c_12 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_c_13 : Ref sig .tc := ⟨.hbm, 137, rfl⟩
abbrev main_v34 : Ref sig .tc := ⟨.hbm, 138, rfl⟩
abbrev main_v35 : Ref sig .tc := ⟨.hbm, 139, rfl⟩
abbrev main_c_14 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_c_15 : Ref sig .tc := ⟨.hbm, 144, rfl⟩
abbrev main_v39 : Ref sig .tc := ⟨.hbm, 145, rfl⟩
abbrev main_v40 : Ref sig .tc := ⟨.hbm, 146, rfl⟩
abbrev main_c_16 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_c_17 : Ref sig .tc := ⟨.hbm, 156, rfl⟩
abbrev main_v49 : Ref sig .tc := ⟨.hbm, 157, rfl⟩
abbrev main_v50 : Ref sig .tc := ⟨.hbm, 158, rfl⟩
abbrev main_c_18 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_c_19 : Ref sig .tc := ⟨.hbm, 165, rfl⟩
abbrev main_v56 : Ref sig .tc := ⟨.hbm, 166, rfl⟩
abbrev main_v57 : Ref sig .tc := ⟨.hbm, 167, rfl⟩
abbrev main_c_20 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩

abbrev nD : Nat := 1
abbrev τ : Topo := Topo.v7x

variable {F : FTy → Type} [FloatOps F]

class Facts₀ : Prop where
  bcast_S_S40x40 : S_.BroadcastsInDim S40x40 (![] : Fin 0 → Fin S40x40.rank)
  shapeCasts_S40x40_S1600 : S40x40.ShapeCasts S1600
  natLt_1_32 : 1 < 32
  bcast_S_S_ : S_.BroadcastsInDim S_ (![] : Fin 0 → Fin S_.rank)
  reduceWindows_S1600_S1600_w1600s1p1599_0 : S1600.ReduceWindows (![1600] : Fin 1 → Nat) ![1] ![1599] ![0] S1600
  h_S_ : 0 < S_.numel
  bcast_S_S780 : S_.BroadcastsInDim S780 (![] : Fin 0 → Fin S780.rank)
  bcast_S_S1600 : S_.BroadcastsInDim S1600 (![] : Fin 0 → Fin S1600.rank)
  bcast_S1600_S1600x1_0 : S1600.BroadcastsInDim S1600x1 (![0] : Fin 1 → Fin S1600x1.rank)
  reduceWindows_S780_S780_w780s1p779_0 : S780.ReduceWindows (![780] : Fin 1 → Nat) ![1] ![779] ![0] S780
  bcast_S780_S780x1_0 : S780.BroadcastsInDim S780x1 (![0] : Fin 1 → Fin S780x1.rank)
  concatenates_S780x1_S780x1_S780x2_d1 : Shape.Concatenates [S780x1, S780x1] S780x2 1
  bcast_S780x64_S1x780x64_1_2 : S780x64.BroadcastsInDim S1x780x64 (![1, 2] : Fin 2 → Fin S1x780x64.rank)
  bcast_S1x780x64_S4096x780x64_0_1_2 : S1x780x64.BroadcastsInDim S4096x780x64 (![0, 1, 2] : Fin 3 → Fin S4096x780x64.rank)
  shapeCasts_S4096x780x64_S4096x49920 : S4096x780x64.ShapeCasts S4096x49920
  scatter_S780_S1600x1_S1600_n_0_0_1_wf : ScatterDims.WF S780 S1600x1 S1600 [] [0] [0] 1
  gather_S40x40x64_S780x2_S780x64_1_01_n_n_01_1_1164_wf : GatherDims.WF S40x40x64 S780x2 S780x64 [1] [0, 1] [] [0, 1] [] 1 ![1, 1, 64]
  gather_S4096x40x64_S780x1_S4096x780x64_02_1_n_n_1_1_4096164_wf : GatherDims.WF S4096x40x64 S780x1 S4096x780x64 [0, 2] [1] [] [1] [] 1 ![4096, 1, 64]

variable [Facts₀]

def scatter_S780_S1600x1_S1600_n_0_0_1 : ScatterDims S780 S1600x1 S1600 where
  updateWindowDims := []
  insertedWindowDims := [0]
  scatterDimsToOperandDims := [0]
  indexVectorDim := 1
  wf := scatter_S780_S1600x1_S1600_n_0_0_1_wf
def gather_S40x40x64_S780x2_S780x64_1_01_n_n_01_1_1164 : GatherDims S40x40x64 S780x2 S780x64 where
  offsetDims := [1]
  collapsedSliceDims := [0, 1]
  operandBatchingDims := []
  startIndicesBatchingDims := []
  startIndexMap := [0, 1]
  indexVectorDim := 1
  sliceSizes := ![1, 1, 64]
  wf := gather_S40x40x64_S780x2_S780x64_1_01_n_n_01_1_1164_wf
def gather_S4096x40x64_S780x1_S4096x780x64_02_1_n_n_1_1_4096164 : GatherDims S4096x40x64 S780x1 S4096x780x64 where
  offsetDims := [0, 2]
  collapsedSliceDims := [1]
  operandBatchingDims := []
  startIndicesBatchingDims := []
  startIndexMap := [1]
  indexVectorDim := 1
  sliceSizes := ![4096, 1, 64]
  wf := gather_S4096x40x64_S780x1_S4096x780x64_02_1_n_n_1_1_4096164_wf

class Facts : Prop extends Facts₀ where

variable [Facts]
-- ==== Proof.Spec.lean ====
import proofs.«165907_j66383014527546_2_alg».proof.ReferenceIdeal
import Idealize.ShloMosaic.PureOps.Ideal
import Idealize.ShloMosaic.Lib.ValueIdx

/-!
# What the reference computes, stage by stage

The reference builds its pair tables at run time: the strictly-upper-triangle mask of a 40 × 40
square, flattened to 1600 entries; the positions of its ones as a running count, a count of how many
positions share each running count (a scatter-add of ones), and a second running count; the flat
position split into row and column by floor division and remainder by 40. With the two tables
I, J (780 entries each) the result is, at row b and column 64 p + e,
(x[b, I p, e] · x[b, J p, e]) · (w[I p, J p, e] · w[J p, I p, e]).

Every definition below is the composition of the program's own operations for one stage, in the
program's order, so that the program's run is this term by unfolding. rowOf / colOf are the
closed forms of the two tables: the p-th pair (i, j), i < j < 40, in row-major order.
-/

noncomputable section

namespace Cert.ReferenceIdeal.Spec

open Idealize.ShloMosaic Cert.ReferenceIdeal Cert.ReferenceIdeal.Facts₀

variable [Cert.ReferenceIdeal.Facts]

/-- Contents of an i32 tensor value of shape S. -/
abbrev I32 (S : Shape) : Type := (⟨S, .i32⟩ : BufTy).Contents (Elt Ideal)
/-- Contents of an i1 tensor value of shape S. -/
abbrev I1 (S : Shape) : Type := (⟨S, .i1⟩ : BufTy).Contents (Elt Ideal)
/-- Contents of an f32 tensor value of shape S. -/
abbrev F32 (S : Shape) : Type := (⟨S, .f32⟩ : BufTy).Contents (Elt Ideal)

/-- A scalar spread over 780 entries. -/
def bc780 (c : I32 S_) : I32 S780 := broadcastInDim S780 ![] bcast_S_S780 c
/-- A scalar spread over 1600 entries. -/
def bc1600 (c : I32 S_) : I32 S1600 := broadcastInDim S1600 ![] bcast_S_S1600 c

/-- The mask i < j over the 40 × 40 square: ones, zeroed where i ≥ j, compared against zero. -/
def mask : I1 S40x40 :=
  cmpf .une
    (select (cmpi .sge (addi (iotaInDim S40x40 32 0) (broadcastInDim S40x40 ![] bcast_S_S40x40 (constantI S_ 32 0#32))) (iotaInDim S40x40 32 1))
      (broadcastInDim S40x40 ![] bcast_S_S40x40 (constant (F := Ideal) S_ .f32 0x00000000#32))
      (broadcastInDim S40x40 ![] bcast_S_S40x40 (constant (F := Ideal) S_ .f32 0x3F800000#32)) : F32 S40x40)
    (broadcastInDim S40x40 ![] bcast_S_S40x40 (constant (F := Ideal) S_ .f32 0x00000000#32))

/-- The running count of the flattened mask: entry n counts the mask's ones at positions ≤ n. -/
def csum : I32 S1600 :=
  Host.reduceWindow IntOp.addi ![1600] ![1] ![1599] ![0]
    (extui 32 (shapeCast S1600 mask shapeCasts_S40x40_S1600) natLt_1_32)
    (broadcastInDim S_ ![] bcast_S_S_ (constantI S_ 32 0#32))
    reduceWindows_S1600_S1600_w1600s1p1599_0 h_S_

/-- The running count clipped below at zero, a negative value wrapped by 780: the bin each position adds to. -/
def binIdx : I32 S1600 :=
  select (cmpi .slt (maxsi (bc1600 (constantI S_ 32 0#32)) csum) (bc1600 (constantI S_ 32 0#32)))
    (addi (maxsi (bc1600 (constantI S_ 32 0#32)) csum) (bc1600 (constantI S_ 32 780#32)))
    (maxsi (bc1600 (constantI S_ 32 0#32)) csum)

/-- How many positions have each running count v < 780: ones added into zeros at binIdx. -/
def bins : I32 S780 :=
  Host.scatter scatter_S780_S1600x1_S1600_n_0_0_1 IntOp.addi (bc780 (constantI S_ 32 0#32))
    (broadcastInDim S1600x1 ![0] bcast_S1600_S1600x1_0 binIdx) (bc1600 (constantI S_ 32 1#32))

/-- The flat position of the k-th one of the mask: the running count of bins. -/
def flat : I32 S780 :=
  Host.reduceWindow IntOp.addi ![780] ![1] ![779] ![0] bins
    (broadcastInDim S_ ![] bcast_S_S_ (constantI S_ 32 0#32))
    reduceWindows_S780_S780_w780s1p779_0 h_S_

/-- Floor division by a scalar: the truncated quotient, less one where the signs differ and the remainder is not zero. -/
def floorDiv (a : I32 S780) (d : I32 S_) : I32 S780 :=
  select (andi (cmpi .ne (signi a) (bc780 (signi d))) (cmpi .ne (Host.remsi a (bc780 d)) (bc780 (constantI S_ 32 0#32))))
    (subi (Host.divsi a (bc780 d)) (bc780 (constantI S_ 32 1#32)))
    (Host.divsi a (bc780 d))

/-- The divisor the remainder uses: one in place of zero. -/
def safeDiv (d : I32 S_) : I32 S_ := select (cmpi .eq d (constantI S_ 32 0#32)) (constantI S_ 32 1#32) d

/-- The remainder with the divisor's sign: the truncated remainder, plus the divisor where it is not zero and its sign differs. -/
def floorRem (a : I32 S780) (d : I32 S_) : I32 S780 :=
  select (andi (cmpi .ne (cmpi .slt (Host.remsi a (bc780 (safeDiv d))) (bc780 (constantI S_ 32 0#32)))
        (broadcastInDim S780 ![] bcast_S_S780 (cmpi .slt (safeDiv d) (constantI S_ 32 0#32))))
      (cmpi .ne (Host.remsi a (bc780 (safeDiv d))) (bc780 (constantI S_ 32 0#32))))
    (addi (Host.remsi a (bc780 (safeDiv d))) (bc780 (safeDiv d)))
    (Host.remsi a (bc780 (safeDiv d)))

/-- The row of the k-th pair, as the program computes it: (flat / 40) mod 40. -/
def rowIdx : I32 S780 := floorRem (floorDiv flat (constantI S_ 32 40#32)) (constantI S_ 32 40#32)
/-- The column of the k-th pair, as the program computes it: (flat / 1) mod 40. -/
def colIdx : I32 S780 := floorRem (floorDiv flat (constantI S_ 32 1#32)) (constantI S_ 32 40#32)

/-- A negative index counted from the end of an axis of extent 40. -/
def wrap (v : I32 S780) : I32 S780 :=
  select (cmpi .slt v (bc780 (constantI S_ 32 0#32))) (addi v (bc780 (constantI S_ 32 40#32))) v

/-- An index vector as a column of start indices. -/
def col (v : I32 S780) : I32 S780x1 := broadcastInDim S780x1 ![0] bcast_S780_S780x1_0 v

/-- Two index vectors side by side: one start index pair per entry. -/
def pairIdx (a b : I32 S780) : I32 S780x2 :=
  concatenate S780x2 1 [⟨S780x1, col a⟩, ⟨S780x1, col b⟩] concatenates_S780x1_S780x1_S780x2_d1

/-- The interaction table: w[I p, J p, ·] · w[J p, I p, ·]. -/
def inter (w : F32 S40x40x64) (I J : I32 S780) : F32 S780x64 :=
  mulf (F := Ideal) (φ := .f32) (Host.gather gather_S40x40x64_S780x2_S780x64_1_01_n_n_01_1_1164 w (pairIdx I J))
    (Host.gather gather_S40x40x64_S780x2_S780x64_1_01_n_n_01_1_1164 w (pairIdx J I))

/-- The result from the two tables: (x[·, I p, ·] · x[·, J p, ·]) · inter, pairs laid side by side along the columns. -/
def out (x : F32 S4096x40x64) (w : F32 S40x40x64) (I J : I32 S780) : F32 S4096x49920 :=
  shapeCast S4096x49920
    (mulf (F := Ideal) (φ := .f32) (mulf (F := Ideal) (φ := .f32) (Host.gather gather_S4096x40x64_S780x1_S4096x780x64_02_1_n_n_1_1_4096164 x (col I))
        (Host.gather gather_S4096x40x64_S780x1_S4096x780x64_02_1_n_n_1_1_4096164 x (col J)))
      (broadcastInDim S4096x780x64 ![0, 1, 2] bcast_S1x780x64_S4096x780x64_0_1_2
        (broadcastInDim S1x780x64 ![1, 2] bcast_S780x64_S1x780x64_1_2 (inter w I J))))
    shapeCasts_S4096x780x64_S4096x49920

/-- The reference's result as a function of its two arguments. -/
def refOut (x : F32 S4096x40x64) (w : F32 S40x40x64) : F32 S4096x49920 :=
  out x w (wrap rowIdx) (wrap colIdx)

end Cert.ReferenceIdeal.Spec

/-! ## The pair tables in closed form -/

namespace Cert.Pairs

/-- Pairs (i', j) with i' < i, i' < j < 40: the number of pairs before row i. -/
def off (i : ℕ) : ℕ := i * (79 - i) / 2

/-- The row of the p-th pair: how many rows end at or before p. -/
def rowOf (p : ℕ) : ℕ := ((List.range 39).filter fun i => off (i + 1) ≤ p).length

/-- The column of the p-th pair: p counts from the first pair (i, i + 1) of its row. -/
def colOf (p : ℕ) : ℕ := p - off (rowOf p) + rowOf p + 1

end Cert.Pairs

/-! ## The common value

At row b and column q of the result: the product of x at the two fields of pair q / 64, at
embedding coordinate q % 64, times the interaction table's entry for that pair and coordinate. -/

namespace Cert.Pairs

open Idealize.ShloMosaic Idealize.ShloMosaic.ValueIdx

/-- The result both programs compute, from x and an interaction table. -/
def kOut (x : FVec Ideal ⟨3, ![4096, 40, 64]⟩ .f32) (t : FVec Ideal ⟨2, ![780, 64]⟩ .f32) :
    FVec Ideal ⟨2, ![4096, 49920]⟩ .f32 := fun q =>
  (x (ix3 (q 0) (⟨rowOf ((q 1).val / 64) % 40, Nat.mod_lt _ (by decide)⟩ : Fin 40) (⟨(q 1).val % 64, Nat.mod_lt _ (by decide)⟩ : Fin 64))
    * x (ix3 (q 0) (⟨colOf ((q 1).val / 64) % 40, Nat.mod_lt _ (by decide)⟩ : Fin 40) (⟨(q 1).val % 64, Nat.mod_lt _ (by decide)⟩ : Fin 64)))
  * t (ix2 (⟨(q 1).val / 64 % 780, Nat.mod_lt _ (by decide)⟩ : Fin 780) (⟨(q 1).val % 64, Nat.mod_lt _ (by decide)⟩ : Fin 64))

/-- Ones of the mask at flat positions ≤ n (n = 40 i + j): the pairs of the rows before i, and j - i in row i. -/
def cnt (n : ℕ) : ℕ := off (n / 40) + (n % 40 - n / 40)

/-- How many flat positions n < 1600 have running count v. -/
def binCount (v : ℕ) : ℕ := ((List.range 1600).filter fun n => cnt n = v).length

end Cert.Pairs

end
-- ==== Proof.LibGatherMid.lean ====
/-
  A gather along the middle axis of a rank-3 array, read at an index written by coordinates.

  x[:, idx, :] for x : [B, M, C] and a column of start indices idx : [E, 1] is a gather whose dimension numbers
  collapse axis 1 of the operand (slice size 1), keep axes 0 and 2 whole (the result's offset axes 0 and 2), and read
  the start index for axis 1 along axis 1 of the indices. Its result at (b, e, c) is x at (b, mid e, c), where mid e
  is the start index idx (e, 0) read as a signed integer and clamped into [0, M − 1].
-/
import Idealize.ShloMosaic.PureOps.Ideal
import Idealize.ShloMosaic.Lib.ValueIdx

namespace Cert.LibGatherMid

open Idealize.ShloMosaic Idealize.ShloMosaic.ValueIdx

variable {α : Type} {B M E C w : ℕ}

/-- The middle coordinate a gather along axis 1 reads for result position e: the start index idx (e, 0) as a signed
    integer, clamped into [0, M − 1]. -/
def gatherMid (hM : 0 < M) (idx : IVec ⟨2, ![E, 1]⟩ w) (e : Fin E) : Fin M :=
  ⟨min (idx (ix2 e (0 : Fin 1))).toInt.toNat (M - 1), by omega⟩

/-- The gather along the middle axis read at (b, e, c): for any dimension numbers with offset axes [0, 2], collapsed
    axis [1], no operand batching axes, start index map [1], index vector axis 1 and slice sizes [B, 1, C], the result
    at (b, e, c) is the operand at (b, gatherMid idx e, c). On axes 0 and 2 the operand coordinate is the result's
    offset coordinate (no start, no batching); on axis 1 it is the clamped start (no batching, no offset on a
    collapsed axis). -/
theorem gather_mid_apply (hM : 0 < M) (d : GatherDims ⟨3, ![B, M, C]⟩ ⟨2, ![E, 1]⟩ ⟨3, ![B, E, C]⟩)
    (hod : d.offsetDims = [0, 2]) (hcs : d.collapsedSliceDims = [1]) (hob : d.operandBatchingDims = [])
    (hsm : d.startIndexMap = [1]) (hiv : d.indexVectorDim = 1) (hss : d.sliceSizes = ![B, 1, C])
    (x : (⟨3, ![B, M, C]⟩ : Shape).Idx → α) (idx : IVec ⟨2, ![E, 1]⟩ w) (b : Fin B) (e : Fin E) (c : Fin C) :
    Host.gather d x idx (ix3 b e c) = x (ix3 b (gatherMid hM idx e) c) := by
  obtain ⟨od, cd, ob, sb, sm, iv, ss, wf⟩ := d
  simp only at hod hcs hob hsm hiv hss
  subst hod hcs hob hsm hiv hss
  unfold Host.gather
  congr 1
  funext a
  refine Fin.ext ?_
  match a with
  | ⟨0, _⟩ =>
    show GatherDims.start _ (ix3 b e c) idx 0 + GatherDims.batchCoord _ (ix3 b e c) 0 + GatherDims.offCoord _ (ix3 b e c) 0 = _
    rw [GatherDims.batchCoord_eq_zero _ _ _ List.not_mem_nil]
    have hst : GatherDims.start (⟨[0, 2], [1], [], sb, [1], 1, ![B, 1, C], wf⟩ : GatherDims ⟨3, ![B, M, C]⟩ ⟨2, ![E, 1]⟩ ⟨3, ![B, E, C]⟩) (ix3 b e c) idx 0 = 0 := by
      unfold GatherDims.start
      rw [dif_neg (show (0 : Fin 3) ∉ ([1] : List (Fin 3)) by decide)]
    have hoc : GatherDims.offCoord (⟨[0, 2], [1], [], sb, [1], 1, ![B, 1, C], wf⟩ : GatherDims ⟨3, ![B, M, C]⟩ ⟨2, ![E, 1]⟩ ⟨3, ![B, E, C]⟩) (ix3 b e c) 0 = b.val := by
      unfold GatherDims.offCoord
      rw [dif_pos ((GatherDims.mem_sKept _ _).mpr ⟨(show (0 : Fin 3) ∉ ([1] : List (Fin 3)) by decide), List.not_mem_nil⟩)]
      rfl
    rw [hst, hoc]
    simp
  | ⟨1, _⟩ =>
    show GatherDims.start _ (ix3 b e c) idx 1 + GatherDims.batchCoord _ (ix3 b e c) 1 + GatherDims.offCoord _ (ix3 b e c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[0, 2], [1], [], sb, [1], 1, ![B, 1, C], wf⟩ : GatherDims ⟨3, ![B, M, C]⟩ ⟨2, ![E, 1]⟩ ⟨3, ![B, E, C]⟩) (ix3 b e c)
        ⟨List.idxOf (1 : Fin 3) [1], List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show GatherDims.start _ (ix3 b e c) idx 2 + GatherDims.batchCoord _ (ix3 b e c) 2 + GatherDims.offCoord _ (ix3 b e c) 2 = _
    rw [GatherDims.batchCoord_eq_zero _ _ _ List.not_mem_nil]
    have hst : GatherDims.start (⟨[0, 2], [1], [], sb, [1], 1, ![B, 1, C], wf⟩ : GatherDims ⟨3, ![B, M, C]⟩ ⟨2, ![E, 1]⟩ ⟨3, ![B, E, C]⟩) (ix3 b e c) idx 2 = 0 := by
      unfold GatherDims.start
      rw [dif_neg (show (2 : Fin 3) ∉ ([1] : List (Fin 3)) by decide)]
    have hoc : GatherDims.offCoord (⟨[0, 2], [1], [], sb, [1], 1, ![B, 1, C], wf⟩ : GatherDims ⟨3, ![B, M, C]⟩ ⟨2, ![E, 1]⟩ ⟨3, ![B, E, C]⟩) (ix3 b e c) 2 = c.val := by
      unfold GatherDims.offCoord
      rw [dif_pos ((GatherDims.mem_sKept _ _).mpr ⟨(show (2 : Fin 3) ∉ ([1] : List (Fin 3)) by decide), List.not_mem_nil⟩)]
      rfl
    rw [hst, hoc]
    simp

end Cert.LibGatherMid
-- ==== Proof.Bridge.lean ====
import proofs.«165907_j66383014527546_2_alg».proof.Proof.Spec
import proofs.«165907_j66383014527546_2_alg».proof.Proof.LibGatherMid
import Idealize.ShloMosaic.Lib.Pipeline.Value
import Idealize.ShloMosaic.Lib.ValueIdx

/-!
# The reference's result from the closed-form tables

With the two index tables equal to the closed forms rowOf / colOf (as 32-bit words), the reference's
result is the common value kOut of x and the interaction table: the final reshape reads position
(b, q / 64, q % 64) of the rank-3 product, each gather along the field axis reads x at the clamped
start index (a value below 40 is its own clamp), and the interaction table is spread over the rows.
-/

noncomputable section

namespace Cert.ReferenceIdeal.Bridge

open Idealize.ShloMosaic Idealize.ShloMosaic.ValueIdx Cert.ReferenceIdeal Cert.ReferenceIdeal.Spec Cert.Pairs
open Cert.ReferenceIdeal.Facts₀

variable [Cert.ReferenceIdeal.Facts]

/-- The rows of the pairs, as the index vector both programs gather with. -/
def rowTab : I32 S780 := fun k => BitVec.ofNat 32 (rowOf (k 0).val)
/-- The columns of the pairs, as an index vector. -/
def colTab : I32 S780 := fun k => BitVec.ofNat 32 (colOf (k 0).val)

/-- Every pair lies inside the 40 × 40 square. -/
theorem pair_lt : ∀ p : Fin 780, rowOf p.val < 40 ∧ colOf p.val < 40 := by decide +kernel

/-- A word below 40, read signed and clamped into [0, 39], is itself. -/
theorem clamp_small : ∀ r : Fin 40, min (BitVec.ofNat 32 r.val).toInt.toNat (40 - 1) = r.val := by decide

/-- The field a gather along axis 1 reads for pair p, with a table of words below 40 as start indices. -/
theorem mid_tab (f : ℕ → ℕ) (hf : ∀ p : Fin 780, f p.val < 40) (p : Fin 780) :
    LibGatherMid.gatherMid (M := 40) (by decide) (col (fun k => BitVec.ofNat 32 (f (k 0).val))) p
      = (⟨f p.val % 40, Nat.mod_lt _ (by decide)⟩ : Fin 40) := by
  refine Fin.ext ?_
  show min ((col (fun k => BitVec.ofNat 32 (f (k 0).val))) (ix2 p (0 : Fin 1))).toInt.toNat (40 - 1) = f p.val % 40
  unfold col
  rw [broadcastInDim_apply _ _ _ (ix2 p (0 : Fin 1)) (ix1 p) (by
    intro a; match a with | ⟨0, _⟩ => rfl)]
  show min (BitVec.ofNat 32 (f p.val)).toInt.toNat (40 - 1) = f p.val % 40
  rw [clamp_small ⟨f p.val, hf p⟩, Nat.mod_eq_of_lt (hf p)]

/-- With the closed-form tables the reference's result is the common value of x and the interaction table. -/
theorem out_tabs (x : F32 S4096x40x64) (w : F32 S40x40x64) :
    Spec.out x w rowTab colTab = kOut x (Spec.inter w rowTab colTab) := by
  funext q
  obtain ⟨b, c, rfl⟩ : ∃ (b : Fin 4096) (c : Fin 49920), q = ix2 b c := ⟨q 0, q 1, eq_ix2 q⟩
  have hc1 : c.val / 64 < 780 := by omega
  have hc2 : c.val % 64 < 64 := Nat.mod_lt _ (by decide)
  unfold Spec.out
  rw [shapeCast_apply _ _ (ix2 b c) (ix3 b (⟨c.val / 64, hc1⟩ : Fin 780) (⟨c.val % 64, hc2⟩ : Fin 64)) (by
    rw [Shape.rowMajor_val_three, Shape.rowMajor_val_two]
    show (b.val * 780 + c.val / 64) * 64 + c.val % 64 = b.val * 49920 + c.val
    omega)]
  rw [mulf_apply, mulf_apply]
  rw [LibGatherMid.gather_mid_apply (by decide : 0 < 40) _ rfl rfl rfl rfl rfl rfl,
    LibGatherMid.gather_mid_apply (by decide : 0 < 40) _ rfl rfl rfl rfl rfl rfl]
  unfold rowTab colTab
  rw [mid_tab rowOf (fun p => (pair_lt p).1), mid_tab colOf (fun p => (pair_lt p).2)]
  rw [broadcastInDim_apply _ _ _ (ix3 b (⟨c.val / 64, hc1⟩ : Fin 780) (⟨c.val % 64, hc2⟩ : Fin 64))
    (ix3 (0 : Fin 1) (⟨c.val / 64, hc1⟩ : Fin 780) (⟨c.val % 64, hc2⟩ : Fin 64)) (by
      intro a; match a with | ⟨0, _⟩ => rfl | ⟨1, _⟩ => rfl | ⟨2, _⟩ => rfl)]
  rw [broadcastInDim_apply _ _ _ (ix3 (0 : Fin 1) (⟨c.val / 64, hc1⟩ : Fin 780) (⟨c.val % 64, hc2⟩ : Fin 64))
    (ix2 (⟨c.val / 64, hc1⟩ : Fin 780) (⟨c.val % 64, hc2⟩ : Fin 64)) (by
      intro a; match a with | ⟨0, _⟩ => rfl | ⟨1, _⟩ => rfl)]
  unfold kOut
  have e1 : (⟨c.val / 64 % 780, Nat.mod_lt _ (by decide)⟩ : Fin 780) = ⟨c.val / 64, hc1⟩ := Fin.ext (Nat.mod_eq_of_lt hc1)
  show _ = (x (ix3 b (⟨rowOf (c.val / 64) % 40, _⟩ : Fin 40) (⟨c.val % 64, _⟩ : Fin 64))
      * x (ix3 b (⟨colOf (c.val / 64) % 40, _⟩ : Fin 40) (⟨c.val % 64, _⟩ : Fin 64)))
    * Spec.inter w _ _ (ix2 (⟨c.val / 64 % 780, _⟩ : Fin 780) (⟨c.val % 64, _⟩ : Fin 64))
  rw [e1]

end Cert.ReferenceIdeal.Bridge

end
-- ==== Proof.KTableRaw.lean ====
import proofs.«165907_j66383014527546_2_alg».proof.Proof.Gen.KernelIdeal.Frame
import Idealize.ShloMosaic.Lib.StableHlo.Run
import Idealize.ShloMosaic.PureOps.Ideal

/-!
# The kernel's interaction table, as its host operations build it

Before its one region the kernel's program builds the interaction table from two literal index tables
(the rows and the columns of the 780 pairs): two gathers of w at the start index pairs (row, column) and
(column, row), and their product. Each table passes through a select on an all-false mask first.
-/

noncomputable section

namespace Cert.KernelIdeal.KTable

open Cert.KernelIdeal Idealize.ShloMosaic Idealize.ShloMosaic.TcCoe Idealize.SL.Sem
open Cert.KernelIdeal.Facts₀

variable [Cert.KernelIdeal.Facts]

/-- An index table after the program's select on an all-false mask (a negative index + 40 otherwise), as a column of start indices. -/
def keptCol (L : (⟨S780, .i32⟩ : BufTy).Contents (Elt Ideal)) : (⟨S780x1, .i32⟩ : BufTy).Contents (Elt Ideal) :=
  broadcastInDim S780x1 ![0] bcast_S780_S780x1_0
    (select (constantI S780 1 0#1) (addi L (broadcastInDim S780 ![] bcast_S_S780 (constantI S_ 32 40#32))) L)

/-- The interaction table from w and two index tables, in the program's own operations. -/
def interK (w : (⟨S40x40x64, .f32⟩ : BufTy).Contents (Elt Ideal)) (L0 L1 : (⟨S780, .i32⟩ : BufTy).Contents (Elt Ideal)) :
    (⟨S780x64, .f32⟩ : BufTy).Contents (Elt Ideal) :=
  mulf (F := Ideal) (φ := .f32)
    (Host.gather gather_S40x40x64_S780x2_S780x64_1_01_n_n_01_1_1164 w
      (concatenate S780x2 1 [⟨S780x1, keptCol L0⟩, ⟨S780x1, keptCol L1⟩] concatenates_S780x1_S780x1_S780x2_d1))
    (Host.gather gather_S40x40x64_S780x2_S780x64_1_01_n_n_01_1_1164 w
      (concatenate S780x2 1 [⟨S780x1, keptCol L1⟩, ⟨S780x1, keptCol L0⟩] concatenates_S780x1_S780x1_S780x2_d1))

set_option maxHeartbeats 4000000 in
/-- The table the region finds: the program's operations applied to w and the two literal tables. -/
theorem table_raw (m : (l : Loc nD τ sig) → Buf (Elt Ideal) l) (c : Dev nD) :
    (Gen.V m c main_v20 : S780x64.Idx → EReal)
      = interK (m ((c : Thread nD τ).loc main_arg1)) (fun i => lit0 (S780.rowMajor i)) (fun i => lit1 (S780.rowMajor i)) := by
  dsimp only [Gen.V, Gen.hostOps0]
  after_results
  rfl

end Cert.KernelIdeal.KTable

end
-- ==== Proof.KTable.lean ====
import proofs.«165907_j66383014527546_2_alg».proof.Proof.KTableRaw
import proofs.«165907_j66383014527546_2_alg».proof.Proof.Bridge

/-!
# The kernel's interaction table is the reference's

The kernel's two literal index tables are the closed forms rowOf / colOf, entry by entry; the selects on
an all-false mask keep the tables as they are; what is left is the reference's interaction table at the
closed-form index tables, operation for operation.
-/

noncomputable section

namespace Cert.KernelIdeal.KTable

open Cert.KernelIdeal Idealize.ShloMosaic Idealize.ShloMosaic.TcCoe Idealize.SL.Sem
open Idealize.ShloMosaic.ValueIdx Cert.Pairs

variable [Cert.KernelIdeal.Facts] [Cert.ReferenceIdeal.Facts]

/-- The literal table of rows is the closed form. -/
theorem lit_row : ∀ k : Fin 780, lit0 k = BitVec.ofNat 32 (rowOf k.val) := by decide +kernel
/-- The literal table of columns is the closed form. -/
theorem lit_col : ∀ k : Fin 780, lit1 k = BitVec.ofNat 32 (colOf k.val) := by decide +kernel

/-- The literal rows, as an index vector, are the closed-form table. -/
theorem tab_row : (fun i : S780.Idx => lit0 (S780.rowMajor i)) = Cert.ReferenceIdeal.Bridge.rowTab :=
  funext fun i => (lit_row (S780.rowMajor i)).trans
    (congrArg (fun n => BitVec.ofNat 32 (rowOf n)) (Shape.rowMajor_val_one i))

/-- The literal columns, as an index vector, are the closed-form table. -/
theorem tab_col : (fun i : S780.Idx => lit1 (S780.rowMajor i)) = Cert.ReferenceIdeal.Bridge.colTab :=
  funext fun i => (lit_col (S780.rowMajor i)).trans
    (congrArg (fun n => BitVec.ofNat 32 (colOf n)) (Shape.rowMajor_val_one i))

/-- A select on an all-false mask is its second branch. -/
theorem keptCol_eq (L : (⟨S780, .i32⟩ : BufTy).Contents (Elt Ideal)) : keptCol L = Cert.ReferenceIdeal.Spec.col L := by
  unfold keptCol Cert.ReferenceIdeal.Spec.col
  have h : select (constantI S780 1 0#1) (addi L (broadcastInDim S780 ![] Cert.KernelIdeal.Facts₀.bcast_S_S780 (constantI S_ 32 40#32))) L = L :=
    funext fun _ => rfl
  rw [h]

/-- The kernel's table operations are the reference's, for any two index tables. -/
theorem interK_eq (w : (⟨S40x40x64, .f32⟩ : BufTy).Contents (Elt Ideal)) (L0 L1 : (⟨S780, .i32⟩ : BufTy).Contents (Elt Ideal)) :
    interK w L0 L1 = Cert.ReferenceIdeal.Spec.inter w L0 L1 := by
  unfold interK Cert.ReferenceIdeal.Spec.inter Cert.ReferenceIdeal.Spec.pairIdx
  rw [keptCol_eq, keptCol_eq]
  rfl

/-- The table the region finds is the reference's interaction table at the closed-form index tables. -/
theorem table_eq (m : (l : Loc nD τ sig) → Buf (Elt Ideal) l) (c : Dev nD) :
    (Gen.V m c main_v20 : S780x64.Idx → EReal) = Cert.ReferenceIdeal.Spec.inter (m ((c : Thread nD τ).loc main_arg1)) Cert.ReferenceIdeal.Bridge.rowTab Cert.ReferenceIdeal.Bridge.colTab :=
  (table_raw m c).trans ((congrArg₂ (interK (m ((c : Thread nD τ).loc main_arg1))) tab_row tab_col).trans (interK_eq _ _ _))

end Cert.KernelIdeal.KTable

end
-- ==== Proof.KBlock.lean ====
import proofs.«165907_j66383014527546_2_alg».proof.Proof.Gen.KernelIdeal.Frame
import proofs.«165907_j66383014527546_2_alg».proof.Proof.Spec

/-!
# The block one grid point writes

At local row b and column q of the 64 × 49920 block: the product of the staged rows of x at the two
fields of pair q / 64, at embedding coordinate q % 64, times the interaction table's entry for that pair
and coordinate.
-/

noncomputable section

namespace Cert.KernelIdeal.KValue

open Cert.KernelIdeal Idealize.ShloMosaic Idealize.ShloMosaic.ValueIdx Cert.Pairs

variable [Cert.KernelIdeal.Facts]

/-- The block of the result computed from a 64-row block of x and the whole interaction table. -/
def Gblk (x0 : Vec Ideal S64x40x64 .f32) (x1 : Vec Ideal S780x64 .f32) : Vec Ideal S64x49920 .f32 := fun y =>
  (x0 (ix3 (y 0) (⟨rowOf ((y 1).val / 64) % 40, Nat.mod_lt _ (by decide)⟩ : Fin 40) (⟨(y 1).val % 64, Nat.mod_lt _ (by decide)⟩ : Fin 64))
    * x0 (ix3 (y 0) (⟨colOf ((y 1).val / 64) % 40, Nat.mod_lt _ (by decide)⟩ : Fin 40) (⟨(y 1).val % 64, Nat.mod_lt _ (by decide)⟩ : Fin 64)))
  * x1 (ix2 (⟨(y 1).val / 64 % 780, Nat.mod_lt _ (by decide)⟩ : Fin 780) (⟨(y 1).val % 64, Nat.mod_lt _ (by decide)⟩ : Fin 64))

end Cert.KernelIdeal.KValue

end
-- ==== Proof.KPay.lean ====
import proofs.«165907_j66383014527546_2_alg».proof.Proof.KBlock
import Idealize.ShloMosaic.Lib.Pipeline.Value
import Idealize.ShloMosaic.Lib.ValueIdx

/-!
# One store of the body, read at an index

For an anchor field i the body multiplies the anchor's rows of x, spread over the n = 39 - i later
fields, by those fields' rows and by the n table rows off i, …, off i + n - 1, and flattens the
(64, n, 64) product to (64, 64 n). Read at local row b and column 64 r + e this is
x[b, i, e] · x[b, i + 1 + r, e] · table[off i + r, e]; since the (off i + r)-th pair is (i, i + 1 + r),
it is the block function at row b and column 64 (off i + r) + e.
-/

noncomputable section

namespace Cert.KernelIdeal.KValue

open Cert.KernelIdeal Idealize.ShloMosaic Idealize.ShloMosaic.ValueIdx Cert.Pairs

variable [Cert.KernelIdeal.Facts]

/-- The (off i + r)-th pair is (i, i + 1 + r), for r < 39 - i; and there are 780 pairs. -/
theorem pair_facts : ∀ i : Fin 39, ∀ r : Fin 39, i.val + r.val < 39 →
    rowOf (off i.val + r.val) = i.val ∧ colOf (off i.val + r.val) = i.val + 1 + r.val
      ∧ off i.val + r.val < 780 := by decide +kernel

/-! ## The payload's layout operations at an index -/

/-- The anchor's rows, with the unit field axis dropped, restored and spread over n fields, read the anchor at field 0. -/
theorem anchor_apply (n : ℕ) (a : FVec Ideal ⟨3, ![64, 1, 64]⟩ .f32)
    (h1 : (⟨3, ![64, 1, 64]⟩ : Shape).ShapeCasts ⟨2, ![64, 64]⟩) (h2 : (⟨2, ![64, 64]⟩ : Shape).ShapeCasts ⟨3, ![64, 1, 64]⟩)
    (h3 : (⟨3, ![64, 1, 64]⟩ : Shape).Broadcasts ⟨3, ![64, n, 64]⟩) (b : Fin 64) (r : Fin n) (e : Fin 64) :
    broadcastTo ⟨3, ![64, n, 64]⟩ (shapeCast ⟨3, ![64, 1, 64]⟩ (shapeCast ⟨2, ![64, 64]⟩ a h1) h2) h3 (ix3 b r e)
      = a (ix3 b 0 e) := by
  rw [shapeCast_shapeCast]
  refine broadcastTo_apply a h3 (ix3 b r e) (ix3 b 0 e) (fun d => ?_)
  match d with
  | ⟨0, _⟩ => rfl
  | ⟨1, _⟩ => rfl
  | ⟨2, _⟩ => rfl

/-- The n table rows, given a leading unit axis and spread over the 64 rows of the block, read the table row. -/
theorem rows_apply (n : ℕ) (t : FVec Ideal ⟨2, ![n, 64]⟩ .f32)
    (h4 : (⟨2, ![n, 64]⟩ : Shape).ShapeCasts ⟨2, ![n, 64]⟩) (h5 : (⟨2, ![n, 64]⟩ : Shape).ShapeCasts ⟨3, ![1, n, 64]⟩)
    (h6 : (⟨3, ![1, n, 64]⟩ : Shape).Broadcasts ⟨3, ![64, n, 64]⟩) (b : Fin 64) (r : Fin n) (e : Fin 64) :
    broadcastTo ⟨3, ![64, n, 64]⟩ (shapeCast ⟨3, ![1, n, 64]⟩ (shapeCast ⟨2, ![n, 64]⟩ t h4) h5) h6 (ix3 b r e)
      = t (ix2 r e) := by
  rw [shapeCast_self]
  refine (broadcastTo_apply _ h6 (ix3 b r e) (ix3 (0 : Fin 1) r e) (fun d => ?_)).trans ?_
  · match d with
    | ⟨0, _⟩ => rfl
    | ⟨1, _⟩ =>
      show r.val = if n = 1 then 0 else r.val
      split
      · have := r.isLt; omega
      · rfl
    | ⟨2, _⟩ => rfl
  · refine shapeCast_apply t h5 _ (ix2 r e) ?_
    rw [Shape.rowMajor_val_two, Shape.rowMajor_val_three]
    show r.val * 64 + e.val = ((0 : ℕ) * n + r.val) * 64 + e.val
    rw [Nat.zero_mul, Nat.zero_add]

/-- The flattened product at (b, 64 r + e): the two factors at (b, r, e) times the table row r at e. -/
theorem core_apply (n w : ℕ) (hw : w = n * 64)
    (A o : FVec Ideal ⟨3, ![64, n, 64]⟩ .f32) (t : FVec Ideal ⟨2, ![n, 64]⟩ .f32)
    (h4 : (⟨2, ![n, 64]⟩ : Shape).ShapeCasts ⟨2, ![n, 64]⟩) (h5 : (⟨2, ![n, 64]⟩ : Shape).ShapeCasts ⟨3, ![1, n, 64]⟩)
    (h6 : (⟨3, ![1, n, 64]⟩ : Shape).Broadcasts ⟨3, ![64, n, 64]⟩)
    (h7 : (⟨3, ![64, n, 64]⟩ : Shape).ShapeCasts ⟨2, ![64, w]⟩)
    (b : Fin 64) (r : Fin n) (e : Fin 64) (q : Fin w) (hq : q.val = r.val * 64 + e.val) :
    shapeCast ⟨2, ![64, w]⟩ (mulf (mulf A o)
        (broadcastTo ⟨3, ![64, n, 64]⟩ (shapeCast ⟨3, ![1, n, 64]⟩ (shapeCast ⟨2, ![n, 64]⟩ t h4) h5) h6)) h7 (ix2 b q)
      = (A (ix3 b r e) * o (ix3 b r e)) * t (ix2 r e) := by
  refine (shapeCast_apply _ h7 (ix2 b q) (ix3 b r e) ?_).trans ?_
  · rw [Shape.rowMajor_val_two, Shape.rowMajor_val_three]
    show (b.val * n + r.val) * 64 + e.val = b.val * w + q.val
    rw [hq, hw, Nat.add_mul, Nat.mul_assoc, Nat.add_assoc]
  · rw [mulf_apply, mulf_apply, rows_apply]

/-! ## The loads at an index -/

/-- A load of n fields of the x block from field j on reads field j + r at its r-th field. -/
theorem ld_x (x0 : Vec Ideal S64x40x64 .f32) (j n : ℕ) (inb : ∀ a, ![0, j, 0] a + ![64, n, 64] a ≤ S64x40x64.size a)
    (b : Fin 64) (r : Fin n) (e : Fin 64) (k : Fin 40) (hk : k.val = j + r.val) :
    View.ld x0 (Rect.unit (s := S64x40x64) ![0, j, 0] ![64, n, 64] inb) (ix3 b r e) = x0 (ix3 b k e) := by
  show x0 ((Rect.unit (s := S64x40x64) ![0, j, 0] ![64, n, 64] inb).toLoadRect.idx (ix3 b r e)) = _
  refine congrArg x0 (funext fun d => Fin.ext ?_)
  match d with
  | ⟨0, _⟩ => show 0 + 1 * b.val = b.val; omega
  | ⟨1, _⟩ => show j + 1 * r.val = k.val; omega
  | ⟨2, _⟩ => show 0 + 1 * e.val = e.val; omega

/-- A load of n rows of the table from row p₀ on reads row p₀ + r at its r-th row. -/
theorem ld_t (x1 : Vec Ideal S780x64 .f32) (p0 n : ℕ) (inb : ∀ a, ![p0, 0] a + ![n, 64] a ≤ S780x64.size a)
    (r : Fin n) (e : Fin 64) (p : Fin 780) (hp : p.val = p0 + r.val) :
    View.ld x1 (Rect.unit (s := S780x64) ![p0, 0] ![n, 64] inb) (ix2 r e) = x1 (ix2 p e) := by
  show x1 ((Rect.unit (s := S780x64) ![p0, 0] ![n, 64] inb).toLoadRect.idx (ix2 r e)) = _
  refine congrArg x1 (funext fun d => Fin.ext ?_)
  match d with
  | ⟨0, _⟩ => show p0 + 1 * r.val = p.val; omega
  | ⟨1, _⟩ => show 0 + 1 * e.val = e.val; omega

/-! ## The block function at a column of anchor i -/

/-- At row b and column 64 (off i + r) + e the block function is x[b, i, e] · x[b, i + 1 + r, e] · table[off i + r, e]. -/
theorem Gblk_apply (x0 : Vec Ideal S64x40x64 .f32) (x1 : Vec Ideal S780x64 .f32) (b : Fin 64) (Q : Fin 49920)
    (i r : ℕ) (hir : i + r < 39) (e : Fin 64) (hQ : Q.val = 64 * (off i + r) + e.val)
    (I J : Fin 40) (p : Fin 780) (hI : I.val = i) (hJ : J.val = i + 1 + r) (hp : p.val = off i + r) :
    Gblk x0 x1 (ix2 b Q) = (x0 (ix3 b I e) * x0 (ix3 b J e)) * x1 (ix2 p e) := by
  obtain ⟨hrow, hcol, hlt⟩ := pair_facts ⟨i, by omega⟩ ⟨r, by omega⟩ hir
  have hrow' : rowOf (off i + r) = i := hrow
  have hcol' : colOf (off i + r) = i + 1 + r := hcol
  have he := e.isLt
  have hd : Q.val / 64 = off i + r := by omega
  have hm : Q.val % 64 = e.val := by omega
  unfold Gblk
  refine congrArg₂ (· * ·) (congrArg₂ (· * ·) (congrArg x0 (funext fun d => ?_)) (congrArg x0 (funext fun d => ?_)))
    (congrArg x1 (funext fun d => ?_))
  · match d with
    | ⟨0, _⟩ => rfl
    | ⟨1, _⟩ => exact Fin.ext (by show rowOf (Q.val / 64) % 40 = I.val; rw [hd, hrow', hI]; omega)
    | ⟨2, _⟩ => exact Fin.ext (by show Q.val % 64 = e.val; exact hm)
  · match d with
    | ⟨0, _⟩ => rfl
    | ⟨1, _⟩ => exact Fin.ext (by show colOf (Q.val / 64) % 40 = J.val; rw [hd, hcol', hJ]; omega)
    | ⟨2, _⟩ => exact Fin.ext (by show Q.val % 64 = e.val; exact hm)
  · match d with
    | ⟨0, _⟩ => exact Fin.ext (by show Q.val / 64 % 780 = p.val; rw [hd, hp]; omega)
    | ⟨1, _⟩ => exact Fin.ext (by show Q.val % 64 = e.val; exact hm)

/-! ## One store is a block of the block function -/

/-- A payload that reads x[b, i, e] · x[b, i + 1 + r, e] · table[off i + r, e] at (b, 64 r + e), stored at
    columns 64 off i …, is the block function there. -/
theorem piece_gen (x0 : Vec Ideal S64x40x64 .f32) (x1 : Vec Ideal S780x64 .f32) (i n w c0 : ℕ)
    (hin : i + n ≤ 39) (hw : w = n * 64) (hc : c0 = 64 * off i)
    (P : FVec Ideal ⟨2, ![64, w]⟩ .f32)
    (hP : ∀ (b : Fin 64) (r : Fin n) (e : Fin 64) (q : Fin w), q.val = r.val * 64 + e.val →
      ∀ (I J : Fin 40) (p : Fin 780), I.val = i → J.val = i + 1 + r.val → p.val = off i + r.val →
        P (ix2 b q) = (x0 (ix3 b I e) * x0 (ix3 b J e)) * x1 (ix2 p e))
    (inb : ∀ a, ![0, c0] a + ![64, w] a ≤ S64x49920.size a)
    (x : (⟨2, ![64, w]⟩ : Shape).Idx) :
    P x = Gblk x0 x1 ((Rect.unit (s := S64x49920) ![0, c0] ![64, w] inb).emb x) := by
  obtain ⟨b, q, rfl⟩ : ∃ (b : Fin 64) (q : Fin w), x = ix2 b q := ⟨x 0, x 1, eq_ix2 x⟩
  have hq := q.isLt
  have hcw : c0 + w ≤ 49920 := inb 1
  have hr : q.val / 64 < n := by omega
  have hir : i + q.val / 64 < 39 := by omega
  obtain ⟨-, -, hlt⟩ := pair_facts ⟨i, by omega⟩ ⟨q.val / 64, by omega⟩ hir
  have hlt' : off i + q.val / 64 < 780 := hlt
  have hemb : (Rect.unit (s := S64x49920) ![0, c0] ![64, w] inb).emb (ix2 b q)
      = ix2 b (⟨c0 + q.val, by omega⟩ : Fin 49920) := by
    funext d
    match d with
    | ⟨0, _⟩ => exact Fin.ext (by show 0 + 1 * b.val = b.val; omega)
    | ⟨1, _⟩ => exact Fin.ext (by show c0 + 1 * q.val = c0 + q.val; omega)
  rw [hemb]
  rw [hP b ⟨q.val / 64, hr⟩ ⟨q.val % 64, Nat.mod_lt _ (by decide)⟩ q (by show q.val = q.val / 64 * 64 + q.val % 64; omega)
    ⟨i, by omega⟩ ⟨i + 1 + q.val / 64, by omega⟩ ⟨off i + q.val / 64, hlt'⟩ rfl rfl rfl]
  refine (Gblk_apply x0 x1 b _ i (q.val / 64) hir ⟨q.val % 64, Nat.mod_lt _ (by decide)⟩ ?_ _ _ _ rfl rfl rfl).symm
  show c0 + q.val = 64 * (off i + q.val / 64) + q.val % 64
  rw [hc]; omega

/-- The store for anchor i with n ≥ 2 later fields. -/
theorem piece_std (x0 : Vec Ideal S64x40x64 .f32) (x1 : Vec Ideal S780x64 .f32) (i n w c0 i1 p0 : ℕ)
    (hin : i + n ≤ 39) (hw : w = n * 64) (hc : c0 = 64 * off i) (hi1 : i1 = i + 1) (hp0 : p0 = off i)
    (inb1 : ∀ a, ![0, i, 0] a + ![64, 1, 64] a ≤ S64x40x64.size a)
    (inb2 : ∀ a, ![0, i1, 0] a + ![64, n, 64] a ≤ S64x40x64.size a)
    (inb3 : ∀ a, ![p0, 0] a + ![n, 64] a ≤ S780x64.size a)
    (h1 : (⟨3, ![64, 1, 64]⟩ : Shape).ShapeCasts ⟨2, ![64, 64]⟩) (h2 : (⟨2, ![64, 64]⟩ : Shape).ShapeCasts ⟨3, ![64, 1, 64]⟩)
    (h3 : (⟨3, ![64, 1, 64]⟩ : Shape).Broadcasts ⟨3, ![64, n, 64]⟩)
    (h4 : (⟨2, ![n, 64]⟩ : Shape).ShapeCasts ⟨2, ![n, 64]⟩) (h5 : (⟨2, ![n, 64]⟩ : Shape).ShapeCasts ⟨3, ![1, n, 64]⟩)
    (h6 : (⟨3, ![1, n, 64]⟩ : Shape).Broadcasts ⟨3, ![64, n, 64]⟩)
    (h7 : (⟨3, ![64, n, 64]⟩ : Shape).ShapeCasts ⟨2, ![64, w]⟩)
    (inb : ∀ a, ![0, c0] a + ![64, w] a ≤ S64x49920.size a)
    (x : (⟨2, ![64, w]⟩ : Shape).Idx) :
    shapeCast ⟨2, ![64, w]⟩ (mulf (F := Ideal) (φ := .f32) (mulf (F := Ideal) (φ := .f32)
          (broadcastTo ⟨3, ![64, n, 64]⟩ (shapeCast ⟨3, ![64, 1, 64]⟩ (shapeCast ⟨2, ![64, 64]⟩
            (View.ld x0 (Rect.unit (s := S64x40x64) ![0, i, 0] ![64, 1, 64] inb1)) h1) h2) h3)
          (View.ld x0 (Rect.unit (s := S64x40x64) ![0, i1, 0] ![64, n, 64] inb2)))
        (broadcastTo ⟨3, ![64, n, 64]⟩ (shapeCast ⟨3, ![1, n, 64]⟩ (shapeCast ⟨2, ![n, 64]⟩
          (View.ld x1 (Rect.unit (s := S780x64) ![p0, 0] ![n, 64] inb3)) h4) h5) h6)) h7 x
      = Gblk x0 x1 ((Rect.unit (s := S64x49920) ![0, c0] ![64, w] inb).emb x) := by
  subst hi1 hp0
  refine piece_gen x0 x1 i n w c0 hin hw hc _ (fun b r e q hq I J p hI hJ hp => ?_) inb x
  rw [core_apply n w hw _ _ _ h4 h5 h6 h7 b r e q hq, anchor_apply n _ h1 h2 h3 b r e,
    ld_x x0 i 1 inb1 b 0 e I (by rw [hI]; rfl), ld_x x0 (i + 1) n inb2 b r e J (by rw [hJ]),
    ld_t x1 (off i) n inb3 r e p hp]

/-- The store for the last anchor, i = 38, with its one later field: the anchor's rows are not spread. -/
theorem piece_one (x0 : Vec Ideal S64x40x64 .f32) (x1 : Vec Ideal S780x64 .f32) (i w c0 i1 p0 : ℕ)
    (hin : i + 1 ≤ 39) (hw : w = 1 * 64) (hc : c0 = 64 * off i) (hi1 : i1 = i + 1) (hp0 : p0 = off i)
    (inb1 : ∀ a, ![0, i, 0] a + ![64, 1, 64] a ≤ S64x40x64.size a)
    (inb2 : ∀ a, ![0, i1, 0] a + ![64, 1, 64] a ≤ S64x40x64.size a)
    (inb3 : ∀ a, ![p0, 0] a + ![1, 64] a ≤ S780x64.size a)
    (h1 : (⟨3, ![64, 1, 64]⟩ : Shape).ShapeCasts ⟨2, ![64, 64]⟩) (h2 : (⟨2, ![64, 64]⟩ : Shape).ShapeCasts ⟨3, ![64, 1, 64]⟩)
    (h4 : (⟨2, ![1, 64]⟩ : Shape).ShapeCasts ⟨2, ![1, 64]⟩) (h5 : (⟨2, ![1, 64]⟩ : Shape).ShapeCasts ⟨3, ![1, 1, 64]⟩)
    (h6 : (⟨3, ![1, 1, 64]⟩ : Shape).Broadcasts ⟨3, ![64, 1, 64]⟩)
    (h7 : (⟨3, ![64, 1, 64]⟩ : Shape).ShapeCasts ⟨2, ![64, w]⟩)
    (inb : ∀ a, ![0, c0] a + ![64, w] a ≤ S64x49920.size a)
    (x : (⟨2, ![64, w]⟩ : Shape).Idx) :
    shapeCast ⟨2, ![64, w]⟩ (mulf (F := Ideal) (φ := .f32) (mulf (F := Ideal) (φ := .f32)
          (shapeCast ⟨3, ![64, 1, 64]⟩ (shapeCast ⟨2, ![64, 64]⟩
            (View.ld x0 (Rect.unit (s := S64x40x64) ![0, i, 0] ![64, 1, 64] inb1)) h1) h2)
          (View.ld x0 (Rect.unit (s := S64x40x64) ![0, i1, 0] ![64, 1, 64] inb2)))
        (broadcastTo ⟨3, ![64, 1, 64]⟩ (shapeCast ⟨3, ![1, 1, 64]⟩ (shapeCast ⟨2, ![1, 64]⟩
          (View.ld x1 (Rect.unit (s := S780x64) ![p0, 0] ![1, 64] inb3)) h4) h5) h6)) h7 x
      = Gblk x0 x1 ((Rect.unit (s := S64x49920) ![0, c0] ![64, w] inb).emb x) := by
  subst hi1 hp0
  refine piece_gen x0 x1 i 1 w c0 hin hw hc _ (fun b r e q hq I J p hI hJ hp => ?_) inb x
  rw [core_apply 1 w hw _ _ _ h4 h5 h6 h7 b r e q hq, shapeCast_shapeCast,
    ld_x x0 i 1 inb1 b r e I (by rw [hI]; have := r.isLt; omega), ld_x x0 (i + 1) 1 inb2 b r e J (by rw [hJ]),
    ld_t x1 (off i) 1 inb3 r e p hp]

end Cert.KernelIdeal.KValue

end
-- ==== Proof.KPieces.lean ====
import proofs.«165907_j66383014527546_2_alg».proof.Proof.KPay
import proofs.«165907_j66383014527546_2_alg».proof.Proof.Gen.KernelIdeal.Frame
import Idealize.ShloMosaic.Lib.Pipeline.Value
import Idealize.ShloMosaic.Lib.Tactic

/-!
# The block the body leaves

The body's 39 stores, one per anchor field i = 0, …, 38, each write the columns 64 off i, …, 64 off (i + 1) - 1
of the staged block with the block function's values there; the stores tile the block, so the block the
body leaves is the block function of the staged rows of x and the interaction table.
-/

noncomputable section

open Idealize.ShloMosaic Idealize.ShloMosaic.TcCoe Idealize.SL.Sem

namespace Cert.KernelIdeal.KValue

open Cert.KernelIdeal Cert.KernelIdeal.Gen

variable [Cert.KernelIdeal.Facts]

/-- A rectangle of all 64 rows and w columns from column c₀ on lies inside the block when c₀ + w ≤ 49920. -/
theorem inb_cols (c0 w : ℕ) (h : c0 + w ≤ 49920) : ∀ a, ![0, c0] a + ![64, w] a ≤ S64x49920.size a := fun a =>
  match a with
  | ⟨0, _⟩ => Nat.le_refl 64
  | ⟨1, _⟩ => h

set_option maxRecDepth 65536 in
/-- Every store of the body is a block of the block function: anchor i = 38, 37, …, 0 in the order of the list
    (last store first), with n = 39 - i later fields, width 64 n, first column 64 off i, first later field i + 1,
    first table row off i. -/
theorem pieces_ok (c : Dev nD) (i : grid0.Coords) (arg1 : Memref sig .tc .vmem S64x40x64 .f32) (harg1 : arg1.IsWhole)
    (arg2 : Memref sig .tc .vmem S780x64 .f32) (harg2 : arg2.IsWhole) (arg3 : Memref sig .tc .vmem S64x49920 .f32)
    (harg3 : arg3.IsWhole) (x0 : Vec Ideal S64x40x64 .f32) (x1 : Vec Ideal S780x64 .f32) :
    ∀ p ∈ (kernelRun0_A (F := Ideal) c i arg1 harg1 arg2 harg2 arg3 harg3 x0 x1).1,
      ∀ x : p.1.shape.Idx, p.2 x = Gblk x0 x1 (p.1.emb x) := by
  unfold kernelRun0_A
  dsimp only
  sl_unfold_words
  simp only [View.readAt_eq_ld, harg1.read_unread, harg2.read_unread]
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece_one x0 x1 38 64 49856 39 779 (by decide) rfl (by decide) rfl (by decide)
      inb_S64x40x64_S64x1x64_0_38_0 inb_S64x40x64_S64x1x64_0_39_0 inb_S780x64_S1x64_779_0
      shapeCasts_S64x1x64_S64x64 shapeCasts_S64x64_S64x1x64 shapeCasts_S1x64_S1x64 shapeCasts_S1x64_S1x1x64 broadcasts_S1x1x64_S64x1x64 shapeCasts_S64x1x64_S64x64
      (inb_cols 49856 64 (by decide)) x
  · exact fun x => piece_std x0 x1 37 2 128 49728 38 777 (by decide) rfl (by decide) rfl (by decide)
      inb_S64x40x64_S64x1x64_0_37_0 inb_S64x40x64_S64x2x64_0_38_0 inb_S780x64_S2x64_777_0
      shapeCasts_S64x1x64_S64x64 shapeCasts_S64x64_S64x1x64 broadcasts_S64x1x64_S64x2x64 shapeCasts_S2x64_S2x64 shapeCasts_S2x64_S1x2x64 broadcasts_S1x2x64_S64x2x64 shapeCasts_S64x2x64_S64x128
      (inb_cols 49728 128 (by decide)) x
  · exact fun x => piece_std x0 x1 36 3 192 49536 37 774 (by decide) rfl (by decide) rfl (by decide)
      inb_S64x40x64_S64x1x64_0_36_0 inb_S64x40x64_S64x3x64_0_37_0 inb_S780x64_S3x64_774_0
      shapeCasts_S64x1x64_S64x64 shapeCasts_S64x64_S64x1x64 broadcasts_S64x1x64_S64x3x64 shapeCasts_S3x64_S3x64 shapeCasts_S3x64_S1x3x64 broadcasts_S1x3x64_S64x3x64 shapeCasts_S64x3x64_S64x192
      (inb_cols 49536 192 (by decide)) x
  · exact fun x => piece_std x0 x1 35 4 256 49280 36 770 (by decide) rfl (by decide) rfl (by decide)
      inb_S64x40x64_S64x1x64_0_35_0 inb_S64x40x64_S64x4x64_0_36_0 inb_S780x64_S4x64_770_0
      shapeCasts_S64x1x64_S64x64 shapeCasts_S64x64_S64x1x64 broadcasts_S64x1x64_S64x4x64 shapeCasts_S4x64_S4x64 shapeCasts_S4x64_S1x4x64 broadcasts_S1x4x64_S64x4x64 shapeCasts_S64x4x64_S64x256
      (inb_cols 49280 256 (by decide)) x
  · exact fun x => piece_std x0 x1 34 5 320 48960 35 765 (by decide) rfl (by decide) rfl (by decide)
      inb_S64x40x64_S64x1x64_0_34_0 inb_S64x40x64_S64x5x64_0_35_0 inb_S780x64_S5x64_765_0
      shapeCasts_S64x1x64_S64x64 shapeCasts_S64x64_S64x1x64 broadcasts_S64x1x64_S64x5x64 shapeCasts_S5x64_S5x64 shapeCasts_S5x64_S1x5x64 broadcasts_S1x5x64_S64x5x64 shapeCasts_S64x5x64_S64x320
      (inb_cols 48960 320 (by decide)) x
  · exact fun x => piece_std x0 x1 33 6 384 48576 34 759 (by decide) rfl (by decide) rfl (by decide)
      inb_S64x40x64_S64x1x64_0_33_0 inb_S64x40x64_S64x6x64_0_34_0 inb_S780x64_S6x64_759_0
      shapeCasts_S64x1x64_S64x64 shapeCasts_S64x64_S64x1x64 broadcasts_S64x1x64_S64x6x64 shapeCasts_S6x64_S6x64 shapeCasts_S6x64_S1x6x64 broadcasts_S1x6x64_S64x6x64 shapeCasts_S64x6x64_S64x384
      (inb_cols 48576 384 (by decide)) x
  · exact fun x => piece_std x0 x1 32 7 448 48128 33 752 (by decide) rfl (by decide) rfl (by decide)
      inb_S64x40x64_S64x1x64_0_32_0 inb_S64x40x64_S64x7x64_0_33_0 inb_S780x64_S7x64_752_0
      shapeCasts_S64x1x64_S64x64 shapeCasts_S64x64_S64x1x64 broadcasts_S64x1x64_S64x7x64 shapeCasts_S7x64_S7x64 shapeCasts_S7x64_S1x7x64 broadcasts_S1x7x64_S64x7x64 shapeCasts_S64x7x64_S64x448
      (inb_cols 48128 448 (by decide)) x
  · exact fun x => piece_std x0 x1 31 8 512 47616 32 744 (by decide) rfl (by decide) rfl (by decide)
      inb_S64x40x64_S64x1x64_0_31_0 inb_S64x40x64_S64x8x64_0_32_0 inb_S780x64_S8x64_744_0
      shapeCasts_S64x1x64_S64x64 shapeCasts_S64x64_S64x1x64 broadcasts_S64x1x64_S64x8x64 shapeCasts_S8x64_S8x64 shapeCasts_S8x64_S1x8x64 broadcasts_S1x8x64_S64x8x64 shapeCasts_S64x8x64_S64x512
      (inb_cols 47616 512 (by decide)) x
  · exact fun x => piece_std x0 x1 30 9 576 47040 31 735 (by decide) rfl (by decide) rfl (by decide)
      inb_S64x40x64_S64x1x64_0_30_0 inb_S64x40x64_S64x9x64_0_31_0 inb_S780x64_S9x64_735_0
      shapeCasts_S64x1x64_S64x64 shapeCasts_S64x64_S64x1x64 broadcasts_S64x1x64_S64x9x64 shapeCasts_S9x64_S9x64 shapeCasts_S9x64_S1x9x64 broadcasts_S1x9x64_S64x9x64 shapeCasts_S64x9x64_S64x576
      (inb_cols 47040 576 (by decide)) x
  · exact fun x => piece_std x0 x1 29 10 640 46400 30 725 (by decide) rfl (by decide) rfl (by decide)
      inb_S64x40x64_S64x1x64_0_29_0 inb_S64x40x64_S64x10x64_0_30_0 inb_S780x64_S10x64_725_0
      shapeCasts_S64x1x64_S64x64 shapeCasts_S64x64_S64x1x64 broadcasts_S64x1x64_S64x10x64 shapeCasts_S10x64_S10x64 shapeCasts_S10x64_S1x10x64 broadcasts_S1x10x64_S64x10x64 shapeCasts_S64x10x64_S64x640
      (inb_cols 46400 640 (by decide)) x
  · exact fun x => piece_std x0 x1 28 11 704 45696 29 714 (by decide) rfl (by decide) rfl (by decide)
      inb_S64x40x64_S64x1x64_0_28_0 inb_S64x40x64_S64x11x64_0_29_0 inb_S780x64_S11x64_714_0
      shapeCasts_S64x1x64_S64x64 shapeCasts_S64x64_S64x1x64 broadcasts_S64x1x64_S64x11x64 shapeCasts_S11x64_S11x64 shapeCasts_S11x64_S1x11x64 broadcasts_S1x11x64_S64x11x64 shapeCasts_S64x11x64_S64x704
      (inb_cols 45696 704 (by decide)) x
  · exact fun x => piece_std x0 x1 27 12 768 44928 28 702 (by decide) rfl (by decide) rfl (by decide)
      inb_S64x40x64_S64x1x64_0_27_0 inb_S64x40x64_S64x12x64_0_28_0 inb_S780x64_S12x64_702_0
      shapeCasts_S64x1x64_S64x64 shapeCasts_S64x64_S64x1x64 broadcasts_S64x1x64_S64x12x64 shapeCasts_S12x64_S12x64 shapeCasts_S12x64_S1x12x64 broadcasts_S1x12x64_S64x12x64 shapeCasts_S64x12x64_S64x768
      (inb_cols 44928 768 (by decide)) x
  · exact fun x => piece_std x0 x1 26 13 832 44096 27 689 (by decide) rfl (by decide) rfl (by decide)
      inb_S64x40x64_S64x1x64_0_26_0 inb_S64x40x64_S64x13x64_0_27_0 inb_S780x64_S13x64_689_0
      shapeCasts_S64x1x64_S64x64 shapeCasts_S64x64_S64x1x64 broadcasts_S64x1x64_S64x13x64 shapeCasts_S13x64_S13x64 shapeCasts_S13x64_S1x13x64 broadcasts_S1x13x64_S64x13x64 shapeCasts_S64x13x64_S64x832
      (inb_cols 44096 832 (by decide)) x
  · exact fun x => piece_std x0 x1 25 14 896 43200 26 675 (by decide) rfl (by decide) rfl (by decide)
      inb_S64x40x64_S64x1x64_0_25_0 inb_S64x40x64_S64x14x64_0_26_0 inb_S780x64_S14x64_675_0
      shapeCasts_S64x1x64_S64x64 shapeCasts_S64x64_S64x1x64 broadcasts_S64x1x64_S64x14x64 shapeCasts_S14x64_S14x64 shapeCasts_S14x64_S1x14x64 broadcasts_S1x14x64_S64x14x64 shapeCasts_S64x14x64_S64x896
      (inb_cols 43200 896 (by decide)) x
  · exact fun x => piece_std x0 x1 24 15 960 42240 25 660 (by decide) rfl (by decide) rfl (by decide)
      inb_S64x40x64_S64x1x64_0_24_0 inb_S64x40x64_S64x15x64_0_25_0 inb_S780x64_S15x64_660_0
      shapeCasts_S64x1x64_S64x64 shapeCasts_S64x64_S64x1x64 broadcasts_S64x1x64_S64x15x64 shapeCasts_S15x64_S15x64 shapeCasts_S15x64_S1x15x64 broadcasts_S1x15x64_S64x15x64 shapeCasts_S64x15x64_S64x960
      (inb_cols 42240 960 (by decide)) x
  · exact fun x => piece_std x0 x1 23 16 1024 41216 24 644 (by decide) rfl (by decide) rfl (by decide)
      inb_S64x40x64_S64x1x64_0_23_0 inb_S64x40x64_S64x16x64_0_24_0 inb_S780x64_S16x64_644_0
      shapeCasts_S64x1x64_S64x64 shapeCasts_S64x64_S64x1x64 broadcasts_S64x1x64_S64x16x64 shapeCasts_S16x64_S16x64 shapeCasts_S16x64_S1x16x64 broadcasts_S1x16x64_S64x16x64 shapeCasts_S64x16x64_S64x1024
      (inb_cols 41216 1024 (by decide)) x
  · exact fun x => piece_std x0 x1 22 17 1088 40128 23 627 (by decide) rfl (by decide) rfl (by decide)
      inb_S64x40x64_S64x1x64_0_22_0 inb_S64x40x64_S64x17x64_0_23_0 inb_S780x64_S17x64_627_0
      shapeCasts_S64x1x64_S64x64 shapeCasts_S64x64_S64x1x64 broadcasts_S64x1x64_S64x17x64 shapeCasts_S17x64_S17x64 shapeCasts_S17x64_S1x17x64 broadcasts_S1x17x64_S64x17x64 shapeCasts_S64x17x64_S64x1088
      (inb_cols 40128 1088 (by decide)) x
  · exact fun x => piece_std x0 x1 21 18 1152 38976 22 609 (by decide) rfl (by decide) rfl (by decide)
      inb_S64x40x64_S64x1x64_0_21_0 inb_S64x40x64_S64x18x64_0_22_0 inb_S780x64_S18x64_609_0
      shapeCasts_S64x1x64_S64x64 shapeCasts_S64x64_S64x1x64 broadcasts_S64x1x64_S64x18x64 shapeCasts_S18x64_S18x64 shapeCasts_S18x64_S1x18x64 broadcasts_S1x18x64_S64x18x64 shapeCasts_S64x18x64_S64x1152
      (inb_cols 38976 1152 (by decide)) x
  · exact fun x => piece_std x0 x1 20 19 1216 37760 21 590 (by decide) rfl (by decide) rfl (by decide)
      inb_S64x40x64_S64x1x64_0_20_0 inb_S64x40x64_S64x19x64_0_21_0 inb_S780x64_S19x64_590_0
      shapeCasts_S64x1x64_S64x64 shapeCasts_S64x64_S64x1x64 broadcasts_S64x1x64_S64x19x64 shapeCasts_S19x64_S19x64 shapeCasts_S19x64_S1x19x64 broadcasts_S1x19x64_S64x19x64 shapeCasts_S64x19x64_S64x1216
      (inb_cols 37760 1216 (by decide)) x
  · exact fun x => piece_std x0 x1 19 20 1280 36480 20 570 (by decide) rfl (by decide) rfl (by decide)
      inb_S64x40x64_S64x1x64_0_19_0 inb_S64x40x64_S64x20x64_0_20_0 inb_S780x64_S20x64_570_0
      shapeCasts_S64x1x64_S64x64 shapeCasts_S64x64_S64x1x64 broadcasts_S64x1x64_S64x20x64 shapeCasts_S20x64_S20x64 shapeCasts_S20x64_S1x20x64 broadcasts_S1x20x64_S64x20x64 shapeCasts_S64x20x64_S64x1280
      (inb_cols 36480 1280 (by decide)) x
  · exact fun x => piece_std x0 x1 18 21 1344 35136 19 549 (by decide) rfl (by decide) rfl (by decide)
      inb_S64x40x64_S64x1x64_0_18_0 inb_S64x40x64_S64x21x64_0_19_0 inb_S780x64_S21x64_549_0
      shapeCasts_S64x1x64_S64x64 shapeCasts_S64x64_S64x1x64 broadcasts_S64x1x64_S64x21x64 shapeCasts_S21x64_S21x64 shapeCasts_S21x64_S1x21x64 broadcasts_S1x21x64_S64x21x64 shapeCasts_S64x21x64_S64x1344
      (inb_cols 35136 1344 (by decide)) x
  · exact fun x => piece_std x0 x1 17 22 1408 33728 18 527 (by decide) rfl (by decide) rfl (by decide)
      inb_S64x40x64_S64x1x64_0_17_0 inb_S64x40x64_S64x22x64_0_18_0 inb_S780x64_S22x64_527_0
      shapeCasts_S64x1x64_S64x64 shapeCasts_S64x64_S64x1x64 broadcasts_S64x1x64_S64x22x64 shapeCasts_S22x64_S22x64 shapeCasts_S22x64_S1x22x64 broadcasts_S1x22x64_S64x22x64 shapeCasts_S64x22x64_S64x1408
      (inb_cols 33728 1408 (by decide)) x
  · exact fun x => piece_std x0 x1 16 23 1472 32256 17 504 (by decide) rfl (by decide) rfl (by decide)
      inb_S64x40x64_S64x1x64_0_16_0 inb_S64x40x64_S64x23x64_0_17_0 inb_S780x64_S23x64_504_0
      shapeCasts_S64x1x64_S64x64 shapeCasts_S64x64_S64x1x64 broadcasts_S64x1x64_S64x23x64 shapeCasts_S23x64_S23x64 shapeCasts_S23x64_S1x23x64 broadcasts_S1x23x64_S64x23x64 shapeCasts_S64x23x64_S64x1472
      (inb_cols 32256 1472 (by decide)) x
  · exact fun x => piece_std x0 x1 15 24 1536 30720 16 480 (by decide) rfl (by decide) rfl (by decide)
      inb_S64x40x64_S64x1x64_0_15_0 inb_S64x40x64_S64x24x64_0_16_0 inb_S780x64_S24x64_480_0
      shapeCasts_S64x1x64_S64x64 shapeCasts_S64x64_S64x1x64 broadcasts_S64x1x64_S64x24x64 shapeCasts_S24x64_S24x64 shapeCasts_S24x64_S1x24x64 broadcasts_S1x24x64_S64x24x64 shapeCasts_S64x24x64_S64x1536
      (inb_cols 30720 1536 (by decide)) x
  · exact fun x => piece_std x0 x1 14 25 1600 29120 15 455 (by decide) rfl (by decide) rfl (by decide)
      inb_S64x40x64_S64x1x64_0_14_0 inb_S64x40x64_S64x25x64_0_15_0 inb_S780x64_S25x64_455_0
      shapeCasts_S64x1x64_S64x64 shapeCasts_S64x64_S64x1x64 broadcasts_S64x1x64_S64x25x64 shapeCasts_S25x64_S25x64 shapeCasts_S25x64_S1x25x64 broadcasts_S1x25x64_S64x25x64 shapeCasts_S64x25x64_S64x1600
      (inb_cols 29120 1600 (by decide)) x
  · exact fun x => piece_std x0 x1 13 26 1664 27456 14 429 (by decide) rfl (by decide) rfl (by decide)
      inb_S64x40x64_S64x1x64_0_13_0 inb_S64x40x64_S64x26x64_0_14_0 inb_S780x64_S26x64_429_0
      shapeCasts_S64x1x64_S64x64 shapeCasts_S64x64_S64x1x64 broadcasts_S64x1x64_S64x26x64 shapeCasts_S26x64_S26x64 shapeCasts_S26x64_S1x26x64 broadcasts_S1x26x64_S64x26x64 shapeCasts_S64x26x64_S64x1664
      (inb_cols 27456 1664 (by decide)) x
  · exact fun x => piece_std x0 x1 12 27 1728 25728 13 402 (by decide) rfl (by decide) rfl (by decide)
      inb_S64x40x64_S64x1x64_0_12_0 inb_S64x40x64_S64x27x64_0_13_0 inb_S780x64_S27x64_402_0
      shapeCasts_S64x1x64_S64x64 shapeCasts_S64x64_S64x1x64 broadcasts_S64x1x64_S64x27x64 shapeCasts_S27x64_S27x64 shapeCasts_S27x64_S1x27x64 broadcasts_S1x27x64_S64x27x64 shapeCasts_S64x27x64_S64x1728
      (inb_cols 25728 1728 (by decide)) x
  · exact fun x => piece_std x0 x1 11 28 1792 23936 12 374 (by decide) rfl (by decide) rfl (by decide)
      inb_S64x40x64_S64x1x64_0_11_0 inb_S64x40x64_S64x28x64_0_12_0 inb_S780x64_S28x64_374_0
      shapeCasts_S64x1x64_S64x64 shapeCasts_S64x64_S64x1x64 broadcasts_S64x1x64_S64x28x64 shapeCasts_S28x64_S28x64 shapeCasts_S28x64_S1x28x64 broadcasts_S1x28x64_S64x28x64 shapeCasts_S64x28x64_S64x1792
      (inb_cols 23936 1792 (by decide)) x
  · exact fun x => piece_std x0 x1 10 29 1856 22080 11 345 (by decide) rfl (by decide) rfl (by decide)
      inb_S64x40x64_S64x1x64_0_10_0 inb_S64x40x64_S64x29x64_0_11_0 inb_S780x64_S29x64_345_0
      shapeCasts_S64x1x64_S64x64 shapeCasts_S64x64_S64x1x64 broadcasts_S64x1x64_S64x29x64 shapeCasts_S29x64_S29x64 shapeCasts_S29x64_S1x29x64 broadcasts_S1x29x64_S64x29x64 shapeCasts_S64x29x64_S64x1856
      (inb_cols 22080 1856 (by decide)) x
  · exact fun x => piece_std x0 x1 9 30 1920 20160 10 315 (by decide) rfl (by decide) rfl (by decide)
      inb_S64x40x64_S64x1x64_0_9_0 inb_S64x40x64_S64x30x64_0_10_0 inb_S780x64_S30x64_315_0
      shapeCasts_S64x1x64_S64x64 shapeCasts_S64x64_S64x1x64 broadcasts_S64x1x64_S64x30x64 shapeCasts_S30x64_S30x64 shapeCasts_S30x64_S1x30x64 broadcasts_S1x30x64_S64x30x64 shapeCasts_S64x30x64_S64x1920
      (inb_cols 20160 1920 (by decide)) x
  · exact fun x => piece_std x0 x1 8 31 1984 18176 9 284 (by decide) rfl (by decide) rfl (by decide)
      inb_S64x40x64_S64x1x64_0_8_0 inb_S64x40x64_S64x31x64_0_9_0 inb_S780x64_S31x64_284_0
      shapeCasts_S64x1x64_S64x64 shapeCasts_S64x64_S64x1x64 broadcasts_S64x1x64_S64x31x64 shapeCasts_S31x64_S31x64 shapeCasts_S31x64_S1x31x64 broadcasts_S1x31x64_S64x31x64 shapeCasts_S64x31x64_S64x1984
      (inb_cols 18176 1984 (by decide)) x
  · exact fun x => piece_std x0 x1 7 32 2048 16128 8 252 (by decide) rfl (by decide) rfl (by decide)
      inb_S64x40x64_S64x1x64_0_7_0 inb_S64x40x64_S64x32x64_0_8_0 inb_S780x64_S32x64_252_0
      shapeCasts_S64x1x64_S64x64 shapeCasts_S64x64_S64x1x64 broadcasts_S64x1x64_S64x32x64 shapeCasts_S32x64_S32x64 shapeCasts_S32x64_S1x32x64 broadcasts_S1x32x64_S64x32x64 shapeCasts_S64x32x64_S64x2048
      (inb_cols 16128 2048 (by decide)) x
  · exact fun x => piece_std x0 x1 6 33 2112 14016 7 219 (by decide) rfl (by decide) rfl (by decide)
      inb_S64x40x64_S64x1x64_0_6_0 inb_S64x40x64_S64x33x64_0_7_0 inb_S780x64_S33x64_219_0
      shapeCasts_S64x1x64_S64x64 shapeCasts_S64x64_S64x1x64 broadcasts_S64x1x64_S64x33x64 shapeCasts_S33x64_S33x64 shapeCasts_S33x64_S1x33x64 broadcasts_S1x33x64_S64x33x64 shapeCasts_S64x33x64_S64x2112
      (inb_cols 14016 2112 (by decide)) x
  · exact fun x => piece_std x0 x1 5 34 2176 11840 6 185 (by decide) rfl (by decide) rfl (by decide)
      inb_S64x40x64_S64x1x64_0_5_0 inb_S64x40x64_S64x34x64_0_6_0 inb_S780x64_S34x64_185_0
      shapeCasts_S64x1x64_S64x64 shapeCasts_S64x64_S64x1x64 broadcasts_S64x1x64_S64x34x64 shapeCasts_S34x64_S34x64 shapeCasts_S34x64_S1x34x64 broadcasts_S1x34x64_S64x34x64 shapeCasts_S64x34x64_S64x2176
      (inb_cols 11840 2176 (by decide)) x
  · exact fun x => piece_std x0 x1 4 35 2240 9600 5 150 (by decide) rfl (by decide) rfl (by decide)
      inb_S64x40x64_S64x1x64_0_4_0 inb_S64x40x64_S64x35x64_0_5_0 inb_S780x64_S35x64_150_0
      shapeCasts_S64x1x64_S64x64 shapeCasts_S64x64_S64x1x64 broadcasts_S64x1x64_S64x35x64 shapeCasts_S35x64_S35x64 shapeCasts_S35x64_S1x35x64 broadcasts_S1x35x64_S64x35x64 shapeCasts_S64x35x64_S64x2240
      (inb_cols 9600 2240 (by decide)) x
  · exact fun x => piece_std x0 x1 3 36 2304 7296 4 114 (by decide) rfl (by decide) rfl (by decide)
      inb_S64x40x64_S64x1x64_0_3_0 inb_S64x40x64_S64x36x64_0_4_0 inb_S780x64_S36x64_114_0
      shapeCasts_S64x1x64_S64x64 shapeCasts_S64x64_S64x1x64 broadcasts_S64x1x64_S64x36x64 shapeCasts_S36x64_S36x64 shapeCasts_S36x64_S1x36x64 broadcasts_S1x36x64_S64x36x64 shapeCasts_S64x36x64_S64x2304
      (inb_cols 7296 2304 (by decide)) x
  · exact fun x => piece_std x0 x1 2 37 2368 4928 3 77 (by decide) rfl (by decide) rfl (by decide)
      inb_S64x40x64_S64x1x64_0_2_0 inb_S64x40x64_S64x37x64_0_3_0 inb_S780x64_S37x64_77_0
      shapeCasts_S64x1x64_S64x64 shapeCasts_S64x64_S64x1x64 broadcasts_S64x1x64_S64x37x64 shapeCasts_S37x64_S37x64 shapeCasts_S37x64_S1x37x64 broadcasts_S1x37x64_S64x37x64 shapeCasts_S64x37x64_S64x2368
      (inb_cols 4928 2368 (by decide)) x
  · exact fun x => piece_std x0 x1 1 38 2432 2496 2 39 (by decide) rfl (by decide) rfl (by decide)
      inb_S64x40x64_S64x1x64_0_1_0 inb_S64x40x64_S64x38x64_0_2_0 inb_S780x64_S38x64_39_0
      shapeCasts_S64x1x64_S64x64 shapeCasts_S64x64_S64x1x64 broadcasts_S64x1x64_S64x38x64 shapeCasts_S38x64_S38x64 shapeCasts_S38x64_S1x38x64 broadcasts_S1x38x64_S64x38x64 shapeCasts_S64x38x64_S64x2432
      (inb_cols 2496 2432 (by decide)) x
  · exact fun x => piece_std x0 x1 0 39 2496 0 1 0 (by decide) rfl (by decide) rfl (by decide)
      inb_S64x40x64_S64x1x64_0_0_0 inb_S64x40x64_S64x39x64_0_1_0 inb_S780x64_S39x64_0_0
      shapeCasts_S64x1x64_S64x64 shapeCasts_S64x64_S64x1x64 broadcasts_S64x1x64_S64x39x64 shapeCasts_S39x64_S39x64 shapeCasts_S39x64_S1x39x64 broadcasts_S1x39x64_S64x39x64 shapeCasts_S64x39x64_S64x2496
      (inb_cols 0 2496 (by decide)) x

/-- The block the body leaves in the output's staging buffer is the block function of the staged x rows and the table. -/
theorem block_eq (c : Dev nD) (i : grid0.Coords) (arg1 : Memref sig .tc .vmem S64x40x64 .f32) (harg1 : arg1.IsWhole) (arg2 : Memref sig .tc .vmem S780x64 .f32) (harg2 : arg2.IsWhole) (arg3 : Memref sig .tc .vmem S64x49920 .f32) (harg3 : arg3.IsWhole) (x0 : Vec Ideal S64x40x64 .f32) (x1 : Vec Ideal S780x64 .f32) :
    Gen.out0_A_2 (F := Ideal) c i arg1 harg1 arg2 harg2 arg3 harg3 x0 x1 = Gblk x0 x1 := by
  unfold Gen.out0_A_2
  rw [View.read_writes_eq_canon _ _ _ (cover0_A_2 c i arg1 harg1 arg2 harg2 arg3 harg3 x0 x1)]
  funext y
  exact View.canon_apply_of_pieces (Gblk x0 x1) _ (pieces_ok c i arg1 harg1 arg2 harg2 arg3 harg3 x0 x1) y
    (cover0_A_2 c i arg1 harg1 arg2 harg2 arg3 harg3 x0 x1 y)

end Cert.KernelIdeal.KValue

end
-- ==== Proof.KValue.lean ====
import proofs.«165907_j66383014527546_2_alg».proof.Proof.Gen.KernelIdeal.Value
import proofs.«165907_j66383014527546_2_alg».proof.Proof.KBlock
import Idealize.ShloMosaic.Lib.Pipeline.Value

/-!
# From the blocks to the whole result

Grid point t stages rows 64 t … 64 t + 63 of x and the whole interaction table, and writes back rows
64 t … 64 t + 63 of the result, all 49920 columns. Given that the block a point writes is Gblk of its
two staged blocks, that block is the restriction of ONE function of the arrays — kOut of x and of the
interaction table as the region finds them — to the point's rows: the staged block of x at local row b
is x at row 64 t + b, the staged table is the table, and the result's block at local row b, column q
sits at row 64 t + b, column q. Row r of the result is covered by point r / 64, so after the last
point the result array is kOut of the two arrays.
-/

noncomputable section

namespace Cert.KernelIdeal.KValue

open Cert.KernelIdeal Cert.KernelIdeal.Gen Idealize.ShloMosaic Idealize.ShloMosaic.TcCoe Idealize.SL.Sem
open Idealize.ShloMosaic.ValueIdx Cert.Pairs
open Idealize.ShloMosaic.Pipeline (Dat)

/-- The block's function at a local index is the whole-array function at the index it sits at, when the
staged block of x is x at the matching rows and the staged table is the table. -/
theorem blk_point (x : Vec Ideal S4096x40x64 .f32) (tt : Vec Ideal S780x64 .f32)
    (x0 : Vec Ideal S64x40x64 .f32) (x1 : Vec Ideal S780x64 .f32) (t : ℕ)
    (j : S64x49920.Idx) (i : S4096x49920.Idx)
    (hi0 : (i 0).val = 64 * t + (j 0).val) (hi1 : (i 1).val = (j 1).val)
    (hx0 : ∀ (y : S64x40x64.Idx) (k : S4096x40x64.Idx),
      (k 0).val = 64 * t + (y 0).val → (k 1).val = (y 1).val → (k 2).val = (y 2).val → x0 y = x k)
    (hx1 : ∀ y : S780x64.Idx, x1 y = tt y) :
    Gblk x0 x1 j = kOut x tt i := by
  have e1 := hx0
    (ix3 (j 0) (⟨rowOf ((j 1).val / 64) % 40, Nat.mod_lt _ (by decide)⟩ : Fin 40) (⟨(j 1).val % 64, Nat.mod_lt _ (by decide)⟩ : Fin 64))
    (ix3 (i 0) (⟨rowOf ((i 1).val / 64) % 40, Nat.mod_lt _ (by decide)⟩ : Fin 40) (⟨(i 1).val % 64, Nat.mod_lt _ (by decide)⟩ : Fin 64))
    hi0 (by show rowOf ((i 1).val / 64) % 40 = rowOf ((j 1).val / 64) % 40; rw [hi1])
    (by show (i 1).val % 64 = (j 1).val % 64; rw [hi1])
  have e2 := hx0
    (ix3 (j 0) (⟨colOf ((j 1).val / 64) % 40, Nat.mod_lt _ (by decide)⟩ : Fin 40) (⟨(j 1).val % 64, Nat.mod_lt _ (by decide)⟩ : Fin 64))
    (ix3 (i 0) (⟨colOf ((i 1).val / 64) % 40, Nat.mod_lt _ (by decide)⟩ : Fin 40) (⟨(i 1).val % 64, Nat.mod_lt _ (by decide)⟩ : Fin 64))
    hi0 (by show colOf ((i 1).val / 64) % 40 = colOf ((j 1).val / 64) % 40; rw [hi1])
    (by show (i 1).val % 64 = (j 1).val % 64; rw [hi1])
  have e3 : x1 (ix2 (⟨(j 1).val / 64 % 780, Nat.mod_lt _ (by decide)⟩ : Fin 780) (⟨(j 1).val % 64, Nat.mod_lt _ (by decide)⟩ : Fin 64))
      = tt (ix2 (⟨(i 1).val / 64 % 780, Nat.mod_lt _ (by decide)⟩ : Fin 780) (⟨(i 1).val % 64, Nat.mod_lt _ (by decide)⟩ : Fin 64)) := by
    rw [hx1]
    congr 2 <;> (apply Fin.ext; simp only [hi1])
  unfold Gblk kOut
  rw [e1, e2, e3]

variable (hblk : ∀ (c : Dev nD) (i : grid0.Coords) (arg1 : Memref sig .tc .vmem S64x40x64 .f32) (harg1 : arg1.IsWhole)
    (arg2 : Memref sig .tc .vmem S780x64 .f32) (harg2 : arg2.IsWhole) (arg3 : Memref sig .tc .vmem S64x49920 .f32) (harg3 : arg3.IsWhole)
    (x0 : Vec Ideal S64x40x64 .f32) (x1 : Vec Ideal S780x64 .f32),
    Gen.out0_A_2 (F := Ideal) c i arg1 harg1 arg2 harg2 arg3 harg3 x0 x1 = Gblk x0 x1)
variable (m : (ℓ : Loc nD τ sig) → Buf (Elt Ideal) ℓ) (ρ : Dev nD → PrngReg)

/-- The printed index maps over the grid: point t takes block t of x along the rows, the table's one
block, and block t of the result along the rows. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged block of x at point t, at local row b, is x at row 64 t + b. -/
theorem iblk0_apply (c : Dev nD) (t : Fin cfg0.N) (y : S64x40x64.Idx) (k : S4096x40x64.Idx)
    (h0 : (k 0).val = 64 * t.val + (y 0).val) (h1 : (k 1).val = (y 1).val) (h2 : (k 2).val = (y 2).val) :
    (iblk m c 0 t : Vec Ideal S64x40x64 .f32) y = (V m c main_arg0 : S4096x40x64.Idx → Elt Ideal .f32) k := by
  obtain ⟨e0, e1, e2, -, -, -, -⟩ := idx_facts t
  unfold iblk
  rw [View.read_apply]
  show (V m c main_arg0 : S4096x40x64.Idx → Elt Ideal .f32) (((cfg0.win 0).blk t).view.emb y) = (V m c main_arg0 : S4096x40x64.Idx → Elt Ideal .f32) k
  refine congrArg (V m c main_arg0 : S4096x40x64.Idx → Elt Ideal .f32) ?_
  funext a
  apply Fin.ext
  match a with
  | ⟨0, _⟩ => show win0_0.index t (0 : Fin 3) * 64 + 1 * (y 0).val = (k 0).val; rw [e0, h0]; omega
  | ⟨1, _⟩ => show win0_0.index t (1 : Fin 3) * 40 + 1 * (y 1).val = (k 1).val; rw [e1, h1]; omega
  | ⟨2, _⟩ => show win0_0.index t (2 : Fin 3) * 64 + 1 * (y 2).val = (k 2).val; rw [e2, h2]; omega

/-- The staged interaction table at any point is the table. -/
theorem iblk1_apply (c : Dev nD) (t : Fin cfg0.N) (y : S780x64.Idx) :
    (iblk m c 1 t : Vec Ideal S780x64 .f32) y = (V m c main_v20 : S780x64.Idx → Elt Ideal .f32) y := by
  obtain ⟨-, -, -, e0, e1, -, -⟩ := idx_facts t
  unfold iblk
  rw [View.read_apply]
  show (V m c main_v20 : S780x64.Idx → Elt Ideal .f32) (((cfg0.win 1).blk t).view.emb y) = (V m c main_v20 : S780x64.Idx → Elt Ideal .f32) y
  refine congrArg (V m c main_v20 : S780x64.Idx → Elt Ideal .f32) ?_
  funext a
  apply Fin.ext
  match a with
  | ⟨0, _⟩ => show win0_1.index t (0 : Fin 2) * 780 + 1 * (y 0).val = (y 0).val; rw [e0]; omega
  | ⟨1, _⟩ => show win0_1.index t (1 : Fin 2) * 64 + 1 * (y 1).val = (y 1).val; rw [e1]; omega

include hblk in
/-- What point t writes back is block t of kOut of x and the interaction table as the region finds them. -/
theorem flushed_eq (c : Dev nD) (t : Fin cfg0.N) :
    (dats m 0 c).flushed 2 t
      = ((cfg0.win 2).blk t).view.read (Elt Ideal)
          (kOut (V m c main_arg0 : S4096x40x64.Idx → Elt Ideal .f32) (V m c main_v20 : S780x64.Idx → Elt Ideal .f32)) := by
  obtain ⟨-, -, -, -, -, e0, e1⟩ := idx_facts t
  rw [Value.flushed2_A m c t,
    hblk c (grid0.coords t) (ms0_0 t) (hs0_0 t) (ms0_1 t) (hs0_1 t) (ms0_2 t) (hs0_2 t) (iblk m c 0 t) (iblk m c 1 t)]
  funext j
  rw [View.read_apply]
  show Gblk (iblk m c 0 t) (iblk m c 1 t) j
    = kOut (V m c main_arg0 : S4096x40x64.Idx → Elt Ideal .f32) (V m c main_v20 : S780x64.Idx → Elt Ideal .f32) (((cfg0.win 2).blk t).view.emb j)
  refine blk_point (V m c main_arg0 : S4096x40x64.Idx → Elt Ideal .f32) (V m c main_v20 : S780x64.Idx → Elt Ideal .f32)
    (iblk m c 0 t) (iblk m c 1 t) t.val j (((cfg0.win 2).blk t).view.emb j) ?_ ?_ ?_ ?_
  · show win0_2.index t (0 : Fin 2) * 64 + 1 * (j 0).val = 64 * t.val + (j 0).val
    rw [e0]; omega
  · show win0_2.index t (1 : Fin 2) * 49920 + 1 * (j 1).val = (j 1).val
    rw [e1]; omega
  · intro y k h0 h1 h2
    exact iblk0_apply m c t y k h0 h1 h2
  · intro y
    exact iblk1_apply m c t y

/-- An index of the result is in point t's block iff each coordinate is in the block's range on its axis. -/
theorem mem_blk (t : Fin cfg0.N) (i : S4096x49920.Idx) :
    i ∈ ((cfg0.win 2).blk t).view.set
      ↔ ∀ a : Fin 2, win0_2.index t a * S64x49920.size a ≤ (i a).val ∧ (i a).val < win0_2.index t a * S64x49920.size a + S64x49920.size a := by
  show i ∈ ((View.whole main_v21).slice (win0_2.rect t)).set ↔ _
  rw [View.set_slice_whole, Rect.mem_set_unit]
  exact Iff.rfl

/-- Row r of the result is in the block of point r / 64. -/
theorem cover (i : S4096x49920.Idx) :
    ∃ t : Fin cfg0.N, (cfg0.win 2).flush t = true ∧ i ∈ ((cfg0.win 2).blk t).view.set := by
  have hN : cfg0.N = 64 := N_0
  have hi0 : (i 0).val < 4096 := (i 0).isLt
  have hi1 : (i 1).val < 49920 := (i 1).isLt
  have ht : (i 0).val / 64 < cfg0.N := by rw [hN]; omega
  obtain ⟨-, -, -, -, -, e0, e1⟩ := idx_facts ⟨(i 0).val / 64, ht⟩
  refine ⟨⟨(i 0).val / 64, ht⟩, flush0_2 _, ?_⟩
  rw [mem_blk]
  intro a
  match a with
  | ⟨0, _⟩ =>
    show win0_2.index ⟨(i 0).val / 64, ht⟩ (0 : Fin 2) * 64 ≤ (i 0).val ∧ (i 0).val < win0_2.index ⟨(i 0).val / 64, ht⟩ (0 : Fin 2) * 64 + 64
    rw [e0]
    show (i 0).val / 64 * 64 ≤ (i 0).val ∧ (i 0).val < (i 0).val / 64 * 64 + 64
    omega
  | ⟨1, _⟩ =>
    show win0_2.index ⟨(i 0).val / 64, ht⟩ (1 : Fin 2) * 49920 ≤ (i 1).val ∧ (i 1).val < win0_2.index ⟨(i 0).val / 64, ht⟩ (1 : Fin 2) * 49920 + 49920
    rw [e1]
    omega

include hblk in
/-- The result array after the run: kOut of x and the interaction table as the region finds them. -/
theorem final (c : Dev nD) :
    (dats m 0 c).arrAt 2 cfg0.N
      = kOut (V m c main_arg0 : S4096x40x64.Idx → Elt Ideal .f32) (V m c main_v20 : S780x64.Idx → Elt Ideal .f32) :=
  (dats m 0 c).arrAt_eq_of_cover 2
    (kOut (V m c main_arg0 : S4096x40x64.Idx → Elt Ideal .f32) (V m c main_v20 : S780x64.Idx → Elt Ideal .f32))
    (fun t _ => flushed_eq hblk m c t) cover

include hblk in
/-- The kernel's run, read: the result array is kOut of x and the interaction table the host operations
before the region leave, the arguments unchanged. -/
theorem run : θ_run (defs (F := Ideal)) (onTc (τ := τ) (main (F := Ideal))) ⟨m, fun _ => 0, ρ⟩ fun r => ∀ c : Dev nD,
      r.2.mem ((c : Thread nD τ).loc main_v21) = Cert.Pairs.kOut (m ((c : Thread nD τ).loc main_arg0)) (Gen.V m c main_v20)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final hblk m c).trans (by rw [V_main_arg0])), (h c).2⟩)
    (Value.run_blocks m ρ)

end Cert.KernelIdeal.KValue

end
-- ==== Proof.LibHostStretches.lean ====
/-
  Host operations around a grid region: which buffers a stretch of host operations leaves alone.

  A program of the shape "host operations, one grid region, host operations" has its frame — it runs to the end and
  leaves its argument arrays unchanged — from the region's frame run once three things are known of the host
  operations: none allocates; none of those after the region writes an array the region stages; and none, before
  or after, writes an argument array.  Each is a statement about single operations, so it is proved stretch by
  stretch, whatever the number of operations, and combined over the list of stretches:

  * `WritesOutside L op`: the operation writes exactly one TensorCore buffer, and it is not in the list `L`.
    For a literal list of operations `ops.Forall (WritesOutside L)` is closed by the tactic `writes_outside`
    (one `rfl` and one `decide` over references per operation; no case split over the list).
  * `after_of_writesOutside`: a buffer of `L` keeps its contents through such operations
    (`StableHlo.after`), and `after_flatten_of_writesOutside` the same through a list of stretches.
  * `not_mem_writes_of_writesOutside`: no such operation writes a buffer of `L` — what a launch theorem's
    "the later operations write no staged array" asks, with the staged arrays put into `L`.
  * `forall_mem_of_forall_stretch`: a property of every operation of every stretch from the per-stretch facts.
  * `after_append`: the fold over a concatenation is the fold over the second list from the fold over the first.

  How a frame is assembled from these (one region, `k` stretches before it, `l` after it; the generated launch
  module names the stretches and proves `…_sub` for each and `main_chain`): take `L` := the argument arrays, plus,
  for the stretches after the region, the arrays the region's windows stage; prove `<stretch>.Forall (WritesOutside L)`
  and `<stretch>.Forall fun op => op.fresh = ∅` per stretch; the region-entry valuation is
  `StableHlo.after (List.flatten [stretches before]) launch`, `Pipeline.hmain_around` gives the program as
  "region continued by the later stretches", and `Pipeline.θ_run_frame_around` (`…_track` when a scratch buffer
  is carried between grid points) is the run; its three side conditions on the later operations are the
  per-stretch facts, and each argument array is read off the run's post by `after_flatten_of_writesOutside`
  (after the region, through `Pipeline.withArrays_of_ne`) and once more before it.
-/
import Idealize.ShloMosaic.Lib.StableHlo.Run

namespace Idealize.ShloMosaic.StableHlo

open Idealize.SL.Sem

variable {τ : Topo} {sig : RefSig} {Val : EltTy → Type}

/-- The operation writes exactly one TensorCore buffer, and that buffer is none of `L`. -/
def WritesOutside (L : List (Ref sig .tc)) (op : HloOp τ sig Val) : Prop :=
  ∃ y : Ref sig .tc, op.writes = {Proc.devRef .tc y} ∧ y ∉ L

/-- Closes `ops.Forall (WritesOutside L)` for a literal list of operations and a literal list `L`. -/
macro "writes_outside" : tactic =>
  `(tactic| repeat' (first | exact ⟨_, rfl, by decide⟩ | apply And.intro))

/-- Such an operation writes no buffer of `L`. -/
theorem not_mem_writes_of_writesOutside {L : List (Ref sig .tc)} {op : HloOp τ sig Val} (h : WritesOutside L op)
    {b : Ref sig .tc} (hb : b ∈ L) : Proc.devRef (τ := τ) .tc b ∉ op.writes := by
  obtain ⟨y, hw, hy⟩ := h
  rw [hw, Finset.mem_singleton]
  exact devRef_ne_of_ne (fun e => hy (e ▸ hb))

/-- A buffer of `L` keeps its contents through operations that all write outside `L`. -/
theorem after_of_writesOutside {L : List (Ref sig .tc)} (ops : List (HloOp τ sig Val))
    (h : ∀ op ∈ ops, WritesOutside L op) (V : Valuation τ sig Val) {b : Ref sig .tc} (hb : b ∈ L) :
    after ops V (Proc.devRef .tc b) = V (Proc.devRef .tc b) :=
  after_of_forall_not_mem (b := Proc.devRef .tc b) ops V fun op hop => not_mem_writes_of_writesOutside (h op hop) hb

/-- A property of every operation of every stretch, from one fact per stretch. -/
theorem forall_mem_of_forall_stretch {P : HloOp τ sig Val → Prop} (opss : List (List (HloOp τ sig Val)))
    (h : opss.Forall fun ops => ops.Forall P) : ∀ ops ∈ opss, ∀ op ∈ ops, P op :=
  fun ops hops op hop => (List.forall_iff_forall_mem.mp ((List.forall_iff_forall_mem.mp h) ops hops)) op hop

/-- The same through a list of stretches run one after the other. -/
theorem after_flatten_of_writesOutside {L : List (Ref sig .tc)} (opss : List (List (HloOp τ sig Val)))
    (h : ∀ ops ∈ opss, ∀ op ∈ ops, WritesOutside L op) (V : Valuation τ sig Val) {b : Ref sig .tc} (hb : b ∈ L) :
    after opss.flatten V (Proc.devRef .tc b) = V (Proc.devRef .tc b) :=
  after_of_writesOutside opss.flatten (fun op hop => by
    obtain ⟨ops, hops, hop'⟩ := List.mem_flatten.mp hop
    exact h ops hops op hop') V hb

/-- Operations run one list after the other: the second list starts from what the first left. Used to keep the
    contents before a stretch as ONE opaque valuation while the stretch is evaluated. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Writing outside a longer list is writing outside a shorter one. -/
theorem WritesOutside.mono {L L' : List (Ref sig .tc)} (hL : ∀ b ∈ L', b ∈ L) {op : HloOp τ sig Val}
    (h : WritesOutside L op) : WritesOutside L' op := by
  obtain ⟨y, hw, hy⟩ := h
  exact ⟨y, hw, fun hy' => hy (hL y hy')⟩

end Idealize.ShloMosaic.StableHlo
-- ==== Proof.RefRunOps.lean ====
import proofs.«165907_j66383014527546_2_alg».proof.Proof.Spec
import proofs.«165907_j66383014527546_2_alg».proof.Proof.LibHostStretches
import Idealize.ShloMosaic.Lib.StableHlo.Run

/-!
# The reference's run: its operations as a list

The reference's @main with every call replaced by the callee's operations over that call's buffers:
177 host operations in program order, cut into ten consecutive stretches, one per stage of the
computation (the mask, its running count, the bins, the flat positions, the two floor divisions and
remainders, the interaction table, the result). The program is the sequence of these operations, so
its run leaves every buffer at the fold of the operations' results over the launch contents.
-/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Cert.ReferenceIdeal.Facts]
variable {F : FTy → Type} [FloatOps F]

/-- Two columns of indices side by side: one pair of indices per row. -/
def cat2 (a b : (⟨S780x1, .i32⟩ : BufTy).Contents (Elt F)) : (⟨S780x2, .i32⟩ : BufTy).Contents (Elt F) :=
  concatenate S780x2 1 [⟨S780x1, a⟩, ⟨S780x1, b⟩] concatenates_S780x1_S780x1_S780x2_d1

/-- The mask i < j on the square: fourteen operations ending at the comparison against zero. -/
abbrev opsMask : List (HloOp τ sig (Elt F)) :=
  [ nullary main_cst (constant S_ .f32 0x3F800000#32),
    unary main_cst main_v0 (broadcastInDim S40x40 ![] bcast_S_S40x40 : (⟨S_, .f32⟩ : BufTy).Contents (Elt F) → (⟨S40x40, .f32⟩ : BufTy).Contents (Elt F)),
    nullary main_call0_v0 (iotaInDim S40x40 32 0),
    nullary main_call0_c (constantI S_ 32 0#32),
    unary main_call0_c main_call0_v1 (broadcastInDim S40x40 ![] bcast_S_S40x40),
    binary main_call0_v0 main_call0_v1 main_call0_v2 addi,
    nullary main_call0_v3 (iotaInDim S40x40 32 1),
    binary main_call0_v2 main_call0_v3 main_call0_v4 (cmpi .sge),
    nullary main_call0_cst (constant S_ .f32 0x00000000#32),
    unary main_call0_cst main_call0_v5 (broadcastInDim S40x40 ![] bcast_S_S40x40),
    ternary main_call0_v4 main_call0_v5 main_v0 main_v1 select,
    nullary main_cst_0 (constant S_ .f32 0x00000000#32),
    unary main_cst_0 main_v2 (broadcastInDim S40x40 ![] bcast_S_S40x40 : (⟨S_, .f32⟩ : BufTy).Contents (Elt F) → (⟨S40x40, .f32⟩ : BufTy).Contents (Elt F)),
    binary main_v1 main_v2 main_v3 (cmpf .une : (⟨S40x40, .f32⟩ : BufTy).Contents (Elt F) → (⟨S40x40, .f32⟩ : BufTy).Contents (Elt F) → (⟨S40x40, .i1⟩ : BufTy).Contents (Elt F)) ]

/-- The running count of the flattened mask. -/
abbrev opsCsum : List (HloOp τ sig (Elt F)) :=
  [ reshape main_v3 main_call1_v0 rfl shapeCasts_S40x40_S1600,
    unary main_call1_v0 main_call1_v1 (extui 32 · natLt_1_32),
    nullary main_call1_call0_c (constantI S_ 32 0#32),
    unary main_call1_call0_c main_call1_call0_v0 (broadcastInDim S_ ![] bcast_S_S_),
    binary main_call1_v1 main_call1_call0_v0 main_v4 (fun x v => Host.reduceWindow IntOp.addi ![1600] ![1] ![1599] ![0] x v reduceWindows_S1600_S1600_w1600s1p1599_0 h_S_) ]

/-- The bin of each position and the count per bin. -/
abbrev opsBins : List (HloOp τ sig (Elt F)) :=
  [ nullary main_c (constantI S_ 32 0#32),
    unary main_c main_v5 (broadcastInDim S780 ![] bcast_S_S780 : (⟨S_, .i32⟩ : BufTy).Contents (Elt F) → (⟨S780, .i32⟩ : BufTy).Contents (Elt F)),
    nullary main_c_1 (constantI S_ 32 0#32),
    unary main_c_1 main_call2_v0 id,
    unary main_call2_v0 main_call2_v1 (broadcastInDim S1600 ![] bcast_S_S1600),
    binary main_call2_v1 main_v4 main_v6 maxsi,
    nullary main_c_2 (constantI S_ 32 0#32),
    unary main_c_2 main_v7 (broadcastInDim S1600 ![] bcast_S_S1600 : (⟨S_, .i32⟩ : BufTy).Contents (Elt F) → (⟨S1600, .i32⟩ : BufTy).Contents (Elt F)),
    binary main_v6 main_v7 main_v8 (cmpi .slt : (⟨S1600, .i32⟩ : BufTy).Contents (Elt F) → (⟨S1600, .i32⟩ : BufTy).Contents (Elt F) → (⟨S1600, .i1⟩ : BufTy).Contents (Elt F)),
    nullary main_c_3 (constantI S_ 32 780#32),
    unary main_c_3 main_v9 (broadcastInDim S1600 ![] bcast_S_S1600 : (⟨S_, .i32⟩ : BufTy).Contents (Elt F) → (⟨S1600, .i32⟩ : BufTy).Contents (Elt F)),
    binary main_v6 main_v9 main_v10 (addi : (⟨S1600, .i32⟩ : BufTy).Contents (Elt F) → (⟨S1600, .i32⟩ : BufTy).Contents (Elt F) → (⟨S1600, .i32⟩ : BufTy).Contents (Elt F)),
    ternary main_v8 main_v10 main_v6 main_v11 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v11 main_v12 (broadcastInDim S1600x1 ![0] bcast_S1600_S1600x1_0 : (⟨S1600, .i32⟩ : BufTy).Contents (Elt F) → (⟨S1600x1, .i32⟩ : BufTy).Contents (Elt F)),
    nullary main_c_4 (constantI S_ 32 1#32),
    unary main_c_4 main_v13 (broadcastInDim S1600 ![] bcast_S_S1600 : (⟨S_, .i32⟩ : BufTy).Contents (Elt F) → (⟨S1600, .i32⟩ : BufTy).Contents (Elt F)),
    ternary main_v5 main_v12 main_v13 main_v14 ((fun x i u => Host.scatter scatter_S780_S1600x1_S1600_n_0_0_1 IntOp.addi x i u) : (⟨S780, .i32⟩ : BufTy).Contents (Elt F) → (⟨S1600x1, .i32⟩ : BufTy).Contents (Elt F) → (⟨S1600, .i32⟩ : BufTy).Contents (Elt F) → (⟨S780, .i32⟩ : BufTy).Contents (Elt F)) ]

/-- The running count of the bins: the flat position of each one of the mask. -/
abbrev opsFlat : List (HloOp τ sig (Elt F)) :=
  [ nullary main_call3_call0_c (constantI S_ 32 0#32),
    unary main_call3_call0_c main_call3_call0_v0 (broadcastInDim S_ ![] bcast_S_S_),
    binary main_v14 main_call3_call0_v0 main_v15 (fun x v => Host.reduceWindow IntOp.addi ![780] ![1] ![779] ![0] x v reduceWindows_S780_S780_w780s1p779_0 h_S_) ]

/-- Floor division of the flat position by 40. -/
abbrev opsDiv40 : List (HloOp τ sig (Elt F)) :=
  [ nullary main_c_5 (constantI S_ 32 40#32),
    unary main_c_5 main_call4_v0 (broadcastInDim S780 ![] bcast_S_S780),
    binary main_v15 main_call4_v0 main_call4_v1 Host.divsi,
    unary main_v15 main_call4_v2 signi,
    unary main_c_5 main_call4_v3 signi,
    unary main_call4_v3 main_call4_v4 (broadcastInDim S780 ![] bcast_S_S780),
    binary main_call4_v2 main_call4_v4 main_call4_v5 (cmpi .ne),
    unary main_c_5 main_call4_v6 (broadcastInDim S780 ![] bcast_S_S780),
    binary main_v15 main_call4_v6 main_call4_v7 Host.remsi,
    nullary main_call4_c (constantI S_ 32 0#32),
    unary main_call4_c main_call4_v8 (broadcastInDim S780 ![] bcast_S_S780),
    binary main_call4_v7 main_call4_v8 main_call4_v9 (cmpi .ne),
    binary main_call4_v5 main_call4_v9 main_call4_v10 andi,
    nullary main_call4_c_0 (constantI S_ 32 1#32),
    unary main_call4_c_0 main_call4_v11 (broadcastInDim S780 ![] bcast_S_S780),
    binary main_call4_v1 main_call4_v11 main_call4_v12 subi,
    ternary main_call4_v10 main_call4_v12 main_call4_v1 main_v16 select ]

/-- Its remainder by 40: the row. -/
abbrev opsRow : List (HloOp τ sig (Elt F)) :=
  [ nullary main_c_6 (constantI S_ 32 40#32),
    unary main_c_6 main_call5_v0 id,
    nullary main_call5_c (constantI S_ 32 0#32),
    binary main_call5_v0 main_call5_c main_call5_v1 (cmpi .eq),
    nullary main_call5_c_0 (constantI S_ 32 1#32),
    ternary main_call5_v1 main_call5_c_0 main_call5_v0 main_call5_v2 select,
    unary main_call5_v2 main_call5_v3 (broadcastInDim S780 ![] bcast_S_S780),
    binary main_v16 main_call5_v3 main_call5_v4 Host.remsi,
    nullary main_call5_c_1 (constantI S_ 32 0#32),
    unary main_call5_c_1 main_call5_v5 (broadcastInDim S780 ![] bcast_S_S780),
    binary main_call5_v4 main_call5_v5 main_call5_v6 (cmpi .ne),
    nullary main_call5_c_2 (constantI S_ 32 0#32),
    unary main_call5_c_2 main_call5_v7 (broadcastInDim S780 ![] bcast_S_S780),
    binary main_call5_v4 main_call5_v7 main_call5_v8 (cmpi .slt),
    nullary main_call5_c_3 (constantI S_ 32 0#32),
    binary main_call5_v2 main_call5_c_3 main_call5_v9 (cmpi .slt),
    unary main_call5_v9 main_call5_v10 (broadcastInDim S780 ![] bcast_S_S780),
    binary main_call5_v8 main_call5_v10 main_call5_v11 (cmpi .ne),
    binary main_call5_v11 main_call5_v6 main_call5_v12 andi,
    unary main_call5_v2 main_call5_v13 (broadcastInDim S780 ![] bcast_S_S780),
    binary main_call5_v4 main_call5_v13 main_call5_v14 addi,
    ternary main_call5_v12 main_call5_v14 main_call5_v4 main_v17 select ]

/-- Floor division of the flat position by 1. -/
abbrev opsDiv1 : List (HloOp τ sig (Elt F)) :=
  [ nullary main_c_7 (constantI S_ 32 1#32),
    unary main_c_7 main_call6_v0 (broadcastInDim S780 ![] bcast_S_S780),
    binary main_v15 main_call6_v0 main_call6_v1 Host.divsi,
    unary main_v15 main_call6_v2 signi,
    unary main_c_7 main_call6_v3 signi,
    unary main_call6_v3 main_call6_v4 (broadcastInDim S780 ![] bcast_S_S780),
    binary main_call6_v2 main_call6_v4 main_call6_v5 (cmpi .ne),
    unary main_c_7 main_call6_v6 (broadcastInDim S780 ![] bcast_S_S780),
    binary main_v15 main_call6_v6 main_call6_v7 Host.remsi,
    nullary main_call6_c (constantI S_ 32 0#32),
    unary main_call6_c main_call6_v8 (broadcastInDim S780 ![] bcast_S_S780),
    binary main_call6_v7 main_call6_v8 main_call6_v9 (cmpi .ne),
    binary main_call6_v5 main_call6_v9 main_call6_v10 andi,
    nullary main_call6_c_0 (constantI S_ 32 1#32),
    unary main_call6_c_0 main_call6_v11 (broadcastInDim S780 ![] bcast_S_S780),
    binary main_call6_v1 main_call6_v11 main_call6_v12 subi,
    ternary main_call6_v10 main_call6_v12 main_call6_v1 main_v18 select ]

/-- Its remainder by 40: the column. -/
abbrev opsCol : List (HloOp τ sig (Elt F)) :=
  [ nullary main_c_8 (constantI S_ 32 40#32),
    unary main_c_8 main_call7_v0 id,
    nullary main_call7_c (constantI S_ 32 0#32),
    binary main_call7_v0 main_call7_c main_call7_v1 (cmpi .eq),
    nullary main_call7_c_0 (constantI S_ 32 1#32),
    ternary main_call7_v1 main_call7_c_0 main_call7_v0 main_call7_v2 select,
    unary main_call7_v2 main_call7_v3 (broadcastInDim S780 ![] bcast_S_S780),
    binary main_v18 main_call7_v3 main_call7_v4 Host.remsi,
    nullary main_call7_c_1 (constantI S_ 32 0#32),
    unary main_call7_c_1 main_call7_v5 (broadcastInDim S780 ![] bcast_S_S780),
    binary main_call7_v4 main_call7_v5 main_call7_v6 (cmpi .ne),
    nullary main_call7_c_2 (constantI S_ 32 0#32),
    unary main_call7_c_2 main_call7_v7 (broadcastInDim S780 ![] bcast_S_S780),
    binary main_call7_v4 main_call7_v7 main_call7_v8 (cmpi .slt),
    nullary main_call7_c_3 (constantI S_ 32 0#32),
    binary main_call7_v2 main_call7_c_3 main_call7_v9 (cmpi .slt),
    unary main_call7_v9 main_call7_v10 (broadcastInDim S780 ![] bcast_S_S780),
    binary main_call7_v8 main_call7_v10 main_call7_v11 (cmpi .ne),
    binary main_call7_v11 main_call7_v6 main_call7_v12 andi,
    unary main_call7_v2 main_call7_v13 (broadcastInDim S780 ![] bcast_S_S780),
    binary main_call7_v4 main_call7_v13 main_call7_v14 addi,
    ternary main_call7_v12 main_call7_v14 main_call7_v4 main_v19 select ]

/-- The wrapped indices, the two gathers of the weights and their product: the interaction table. -/
abbrev opsInter : List (HloOp τ sig (Elt F)) :=
  [ nullary main_c_9 (constantI S_ 32 0#32),
    unary main_c_9 main_v20 (broadcastInDim S780 ![] bcast_S_S780 : (⟨S_, .i32⟩ : BufTy).Contents (Elt F) → (⟨S780, .i32⟩ : BufTy).Contents (Elt F)),
    binary main_v17 main_v20 main_v21 (cmpi .slt : (⟨S780, .i32⟩ : BufTy).Contents (Elt F) → (⟨S780, .i32⟩ : BufTy).Contents (Elt F) → (⟨S780, .i1⟩ : BufTy).Contents (Elt F)),
    nullary main_c_10 (constantI S_ 32 40#32),
    unary main_c_10 main_v22 (broadcastInDim S780 ![] bcast_S_S780 : (⟨S_, .i32⟩ : BufTy).Contents (Elt F) → (⟨S780, .i32⟩ : BufTy).Contents (Elt F)),
    binary main_v17 main_v22 main_v23 (addi : (⟨S780, .i32⟩ : BufTy).Contents (Elt F) → (⟨S780, .i32⟩ : BufTy).Contents (Elt F) → (⟨S780, .i32⟩ : BufTy).Contents (Elt F)),
    ternary main_v21 main_v23 main_v17 main_v24 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    nullary main_c_11 (constantI S_ 32 0#32),
    unary main_c_11 main_v25 (broadcastInDim S780 ![] bcast_S_S780 : (⟨S_, .i32⟩ : BufTy).Contents (Elt F) → (⟨S780, .i32⟩ : BufTy).Contents (Elt F)),
    binary main_v19 main_v25 main_v26 (cmpi .slt : (⟨S780, .i32⟩ : BufTy).Contents (Elt F) → (⟨S780, .i32⟩ : BufTy).Contents (Elt F) → (⟨S780, .i1⟩ : BufTy).Contents (Elt F)),
    nullary main_c_12 (constantI S_ 32 40#32),
    unary main_c_12 main_v27 (broadcastInDim S780 ![] bcast_S_S780 : (⟨S_, .i32⟩ : BufTy).Contents (Elt F) → (⟨S780, .i32⟩ : BufTy).Contents (Elt F)),
    binary main_v19 main_v27 main_v28 (addi : (⟨S780, .i32⟩ : BufTy).Contents (Elt F) → (⟨S780, .i32⟩ : BufTy).Contents (Elt F) → (⟨S780, .i32⟩ : BufTy).Contents (Elt F)),
    ternary main_v26 main_v28 main_v19 main_v29 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v24 main_v30 (broadcastInDim S780x1 ![0] bcast_S780_S780x1_0 : (⟨S780, .i32⟩ : BufTy).Contents (Elt F) → (⟨S780x1, .i32⟩ : BufTy).Contents (Elt F)),
    unary main_v29 main_v31 (broadcastInDim S780x1 ![0] bcast_S780_S780x1_0 : (⟨S780, .i32⟩ : BufTy).Contents (Elt F) → (⟨S780x1, .i32⟩ : BufTy).Contents (Elt F)),
    binary main_v30 main_v31 main_v32 (cat2 : (⟨S780x1, .i32⟩ : BufTy).Contents (Elt F) → (⟨S780x1, .i32⟩ : BufTy).Contents (Elt F) → (⟨S780x2, .i32⟩ : BufTy).Contents (Elt F)),
    binary main_arg1 main_v32 main_v33 ((fun x i => Host.gather gather_S40x40x64_S780x2_S780x64_1_01_n_n_01_1_1164 x i) : (⟨S40x40x64, .f32⟩ : BufTy).Contents (Elt F) → (⟨S780x2, .i32⟩ : BufTy).Contents (Elt F) → (⟨S780x64, .f32⟩ : BufTy).Contents (Elt F)),
    nullary main_c_13 (constantI S_ 32 0#32),
    unary main_c_13 main_v34 (broadcastInDim S780 ![] bcast_S_S780 : (⟨S_, .i32⟩ : BufTy).Contents (Elt F) → (⟨S780, .i32⟩ : BufTy).Contents (Elt F)),
    binary main_v19 main_v34 main_v35 (cmpi .slt : (⟨S780, .i32⟩ : BufTy).Contents (Elt F) → (⟨S780, .i32⟩ : BufTy).Contents (Elt F) → (⟨S780, .i1⟩ : BufTy).Contents (Elt F)),
    nullary main_c_14 (constantI S_ 32 40#32),
    unary main_c_14 main_v36 (broadcastInDim S780 ![] bcast_S_S780 : (⟨S_, .i32⟩ : BufTy).Contents (Elt F) → (⟨S780, .i32⟩ : BufTy).Contents (Elt F)),
    binary main_v19 main_v36 main_v37 (addi : (⟨S780, .i32⟩ : BufTy).Contents (Elt F) → (⟨S780, .i32⟩ : BufTy).Contents (Elt F) → (⟨S780, .i32⟩ : BufTy).Contents (Elt F)),
    ternary main_v35 main_v37 main_v19 main_v38 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    nullary main_c_15 (constantI S_ 32 0#32),
    unary main_c_15 main_v39 (broadcastInDim S780 ![] bcast_S_S780 : (⟨S_, .i32⟩ : BufTy).Contents (Elt F) → (⟨S780, .i32⟩ : BufTy).Contents (Elt F)),
    binary main_v17 main_v39 main_v40 (cmpi .slt : (⟨S780, .i32⟩ : BufTy).Contents (Elt F) → (⟨S780, .i32⟩ : BufTy).Contents (Elt F) → (⟨S780, .i1⟩ : BufTy).Contents (Elt F)),
    nullary main_c_16 (constantI S_ 32 40#32),
    unary main_c_16 main_v41 (broadcastInDim S780 ![] bcast_S_S780 : (⟨S_, .i32⟩ : BufTy).Contents (Elt F) → (⟨S780, .i32⟩ : BufTy).Contents (Elt F)),
    binary main_v17 main_v41 main_v42 (addi : (⟨S780, .i32⟩ : BufTy).Contents (Elt F) → (⟨S780, .i32⟩ : BufTy).Contents (Elt F) → (⟨S780, .i32⟩ : BufTy).Contents (Elt F)),
    ternary main_v40 main_v42 main_v17 main_v43 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v38 main_v44 (broadcastInDim S780x1 ![0] bcast_S780_S780x1_0 : (⟨S780, .i32⟩ : BufTy).Contents (Elt F) → (⟨S780x1, .i32⟩ : BufTy).Contents (Elt F)),
    unary main_v43 main_v45 (broadcastInDim S780x1 ![0] bcast_S780_S780x1_0 : (⟨S780, .i32⟩ : BufTy).Contents (Elt F) → (⟨S780x1, .i32⟩ : BufTy).Contents (Elt F)),
    binary main_v44 main_v45 main_v46 (cat2 : (⟨S780x1, .i32⟩ : BufTy).Contents (Elt F) → (⟨S780x1, .i32⟩ : BufTy).Contents (Elt F) → (⟨S780x2, .i32⟩ : BufTy).Contents (Elt F)),
    binary main_arg1 main_v46 main_v47 ((fun x i => Host.gather gather_S40x40x64_S780x2_S780x64_1_01_n_n_01_1_1164 x i) : (⟨S40x40x64, .f32⟩ : BufTy).Contents (Elt F) → (⟨S780x2, .i32⟩ : BufTy).Contents (Elt F) → (⟨S780x64, .f32⟩ : BufTy).Contents (Elt F)),
    binary main_v33 main_v47 main_v48 (mulf : (⟨S780x64, .f32⟩ : BufTy).Contents (Elt F) → (⟨S780x64, .f32⟩ : BufTy).Contents (Elt F) → (⟨S780x64, .f32⟩ : BufTy).Contents (Elt F)) ]

/-- The two gathers of the input, their product with the interaction table, laid out as the result. -/
abbrev opsOut : List (HloOp τ sig (Elt F)) :=
  [ nullary main_c_17 (constantI S_ 32 0#32),
    unary main_c_17 main_v49 (broadcastInDim S780 ![] bcast_S_S780 : (⟨S_, .i32⟩ : BufTy).Contents (Elt F) → (⟨S780, .i32⟩ : BufTy).Contents (Elt F)),
    binary main_v17 main_v49 main_v50 (cmpi .slt : (⟨S780, .i32⟩ : BufTy).Contents (Elt F) → (⟨S780, .i32⟩ : BufTy).Contents (Elt F) → (⟨S780, .i1⟩ : BufTy).Contents (Elt F)),
    nullary main_c_18 (constantI S_ 32 40#32),
    unary main_c_18 main_v51 (broadcastInDim S780 ![] bcast_S_S780 : (⟨S_, .i32⟩ : BufTy).Contents (Elt F) → (⟨S780, .i32⟩ : BufTy).Contents (Elt F)),
    binary main_v17 main_v51 main_v52 (addi : (⟨S780, .i32⟩ : BufTy).Contents (Elt F) → (⟨S780, .i32⟩ : BufTy).Contents (Elt F) → (⟨S780, .i32⟩ : BufTy).Contents (Elt F)),
    ternary main_v50 main_v52 main_v17 main_v53 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v53 main_v54 (broadcastInDim S780x1 ![0] bcast_S780_S780x1_0 : (⟨S780, .i32⟩ : BufTy).Contents (Elt F) → (⟨S780x1, .i32⟩ : BufTy).Contents (Elt F)),
    binary main_arg0 main_v54 main_v55 ((fun x i => Host.gather gather_S4096x40x64_S780x1_S4096x780x64_02_1_n_n_1_1_4096164 x i) : (⟨S4096x40x64, .f32⟩ : BufTy).Contents (Elt F) → (⟨S780x1, .i32⟩ : BufTy).Contents (Elt F) → (⟨S4096x780x64, .f32⟩ : BufTy).Contents (Elt F)),
    nullary main_c_19 (constantI S_ 32 0#32),
    unary main_c_19 main_v56 (broadcastInDim S780 ![] bcast_S_S780 : (⟨S_, .i32⟩ : BufTy).Contents (Elt F) → (⟨S780, .i32⟩ : BufTy).Contents (Elt F)),
    binary main_v19 main_v56 main_v57 (cmpi .slt : (⟨S780, .i32⟩ : BufTy).Contents (Elt F) → (⟨S780, .i32⟩ : BufTy).Contents (Elt F) → (⟨S780, .i1⟩ : BufTy).Contents (Elt F)),
    nullary main_c_20 (constantI S_ 32 40#32),
    unary main_c_20 main_v58 (broadcastInDim S780 ![] bcast_S_S780 : (⟨S_, .i32⟩ : BufTy).Contents (Elt F) → (⟨S780, .i32⟩ : BufTy).Contents (Elt F)),
    binary main_v19 main_v58 main_v59 (addi : (⟨S780, .i32⟩ : BufTy).Contents (Elt F) → (⟨S780, .i32⟩ : BufTy).Contents (Elt F) → (⟨S780, .i32⟩ : BufTy).Contents (Elt F)),
    ternary main_v57 main_v59 main_v19 main_v60 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v60 main_v61 (broadcastInDim S780x1 ![0] bcast_S780_S780x1_0 : (⟨S780, .i32⟩ : BufTy).Contents (Elt F) → (⟨S780x1, .i32⟩ : BufTy).Contents (Elt F)),
    binary main_arg0 main_v61 main_v62 ((fun x i => Host.gather gather_S4096x40x64_S780x1_S4096x780x64_02_1_n_n_1_1_4096164 x i) : (⟨S4096x40x64, .f32⟩ : BufTy).Contents (Elt F) → (⟨S780x1, .i32⟩ : BufTy).Contents (Elt F) → (⟨S4096x780x64, .f32⟩ : BufTy).Contents (Elt F)),
    binary main_v55 main_v62 main_v63 (mulf : (⟨S4096x780x64, .f32⟩ : BufTy).Contents (Elt F) → (⟨S4096x780x64, .f32⟩ : BufTy).Contents (Elt F) → (⟨S4096x780x64, .f32⟩ : BufTy).Contents (Elt F)),
    unary main_v48 main_v64 (broadcastInDim S1x780x64 ![1, 2] bcast_S780x64_S1x780x64_1_2 : (⟨S780x64, .f32⟩ : BufTy).Contents (Elt F) → (⟨S1x780x64, .f32⟩ : BufTy).Contents (Elt F)),
    unary main_v64 main_v65 (broadcastInDim S4096x780x64 ![0, 1, 2] bcast_S1x780x64_S4096x780x64_0_1_2 : (⟨S1x780x64, .f32⟩ : BufTy).Contents (Elt F) → (⟨S4096x780x64, .f32⟩ : BufTy).Contents (Elt F)),
    binary main_v63 main_v65 main_v66 (mulf : (⟨S4096x780x64, .f32⟩ : BufTy).Contents (Elt F) → (⟨S4096x780x64, .f32⟩ : BufTy).Contents (Elt F) → (⟨S4096x780x64, .f32⟩ : BufTy).Contents (Elt F)),
    reshape main_v66 main_v67 rfl shapeCasts_S4096x780x64_S4096x49920 ]

/-- @main's 177 operations, in order, the calls unfolded. -/
abbrev ops : List (HloOp τ sig (Elt F)) :=
  [ nullary main_cst (constant S_ .f32 0x3F800000#32),
    unary main_cst main_v0 (broadcastInDim S40x40 ![] bcast_S_S40x40 : (⟨S_, .f32⟩ : BufTy).Contents (Elt F) → (⟨S40x40, .f32⟩ : BufTy).Contents (Elt F)),
    nullary main_call0_v0 (iotaInDim S40x40 32 0),
    nullary main_call0_c (constantI S_ 32 0#32),
    unary main_call0_c main_call0_v1 (broadcastInDim S40x40 ![] bcast_S_S40x40),
    binary main_call0_v0 main_call0_v1 main_call0_v2 addi,
    nullary main_call0_v3 (iotaInDim S40x40 32 1),
    binary main_call0_v2 main_call0_v3 main_call0_v4 (cmpi .sge),
    nullary main_call0_cst (constant S_ .f32 0x00000000#32),
    unary main_call0_cst main_call0_v5 (broadcastInDim S40x40 ![] bcast_S_S40x40),
    ternary main_call0_v4 main_call0_v5 main_v0 main_v1 select,
    nullary main_cst_0 (constant S_ .f32 0x00000000#32),
    unary main_cst_0 main_v2 (broadcastInDim S40x40 ![] bcast_S_S40x40 : (⟨S_, .f32⟩ : BufTy).Contents (Elt F) → (⟨S40x40, .f32⟩ : BufTy).Contents (Elt F)),
    binary main_v1 main_v2 main_v3 (cmpf .une : (⟨S40x40, .f32⟩ : BufTy).Contents (Elt F) → (⟨S40x40, .f32⟩ : BufTy).Contents (Elt F) → (⟨S40x40, .i1⟩ : BufTy).Contents (Elt F)),
    reshape main_v3 main_call1_v0 rfl shapeCasts_S40x40_S1600,
    unary main_call1_v0 main_call1_v1 (extui 32 · natLt_1_32),
    nullary main_call1_call0_c (constantI S_ 32 0#32),
    unary main_call1_call0_c main_call1_call0_v0 (broadcastInDim S_ ![] bcast_S_S_),
    binary main_call1_v1 main_call1_call0_v0 main_v4 (fun x v => Host.reduceWindow IntOp.addi ![1600] ![1] ![1599] ![0] x v reduceWindows_S1600_S1600_w1600s1p1599_0 h_S_),
    nullary main_c (constantI S_ 32 0#32),
    unary main_c main_v5 (broadcastInDim S780 ![] bcast_S_S780 : (⟨S_, .i32⟩ : BufTy).Contents (Elt F) → (⟨S780, .i32⟩ : BufTy).Contents (Elt F)),
    nullary main_c_1 (constantI S_ 32 0#32),
    unary main_c_1 main_call2_v0 id,
    unary main_call2_v0 main_call2_v1 (broadcastInDim S1600 ![] bcast_S_S1600),
    binary main_call2_v1 main_v4 main_v6 maxsi,
    nullary main_c_2 (constantI S_ 32 0#32),
    unary main_c_2 main_v7 (broadcastInDim S1600 ![] bcast_S_S1600 : (⟨S_, .i32⟩ : BufTy).Contents (Elt F) → (⟨S1600, .i32⟩ : BufTy).Contents (Elt F)),
    binary main_v6 main_v7 main_v8 (cmpi .slt : (⟨S1600, .i32⟩ : BufTy).Contents (Elt F) → (⟨S1600, .i32⟩ : BufTy).Contents (Elt F) → (⟨S1600, .i1⟩ : BufTy).Contents (Elt F)),
    nullary main_c_3 (constantI S_ 32 780#32),
    unary main_c_3 main_v9 (broadcastInDim S1600 ![] bcast_S_S1600 : (⟨S_, .i32⟩ : BufTy).Contents (Elt F) → (⟨S1600, .i32⟩ : BufTy).Contents (Elt F)),
    binary main_v6 main_v9 main_v10 (addi : (⟨S1600, .i32⟩ : BufTy).Contents (Elt F) → (⟨S1600, .i32⟩ : BufTy).Contents (Elt F) → (⟨S1600, .i32⟩ : BufTy).Contents (Elt F)),
    ternary main_v8 main_v10 main_v6 main_v11 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v11 main_v12 (broadcastInDim S1600x1 ![0] bcast_S1600_S1600x1_0 : (⟨S1600, .i32⟩ : BufTy).Contents (Elt F) → (⟨S1600x1, .i32⟩ : BufTy).Contents (Elt F)),
    nullary main_c_4 (constantI S_ 32 1#32),
    unary main_c_4 main_v13 (broadcastInDim S1600 ![] bcast_S_S1600 : (⟨S_, .i32⟩ : BufTy).Contents (Elt F) → (⟨S1600, .i32⟩ : BufTy).Contents (Elt F)),
    ternary main_v5 main_v12 main_v13 main_v14 ((fun x i u => Host.scatter scatter_S780_S1600x1_S1600_n_0_0_1 IntOp.addi x i u) : (⟨S780, .i32⟩ : BufTy).Contents (Elt F) → (⟨S1600x1, .i32⟩ : BufTy).Contents (Elt F) → (⟨S1600, .i32⟩ : BufTy).Contents (Elt F) → (⟨S780, .i32⟩ : BufTy).Contents (Elt F)),
    nullary main_call3_call0_c (constantI S_ 32 0#32),
    unary main_call3_call0_c main_call3_call0_v0 (broadcastInDim S_ ![] bcast_S_S_),
    binary main_v14 main_call3_call0_v0 main_v15 (fun x v => Host.reduceWindow IntOp.addi ![780] ![1] ![779] ![0] x v reduceWindows_S780_S780_w780s1p779_0 h_S_),
    nullary main_c_5 (constantI S_ 32 40#32),
    unary main_c_5 main_call4_v0 (broadcastInDim S780 ![] bcast_S_S780),
    binary main_v15 main_call4_v0 main_call4_v1 Host.divsi,
    unary main_v15 main_call4_v2 signi,
    unary main_c_5 main_call4_v3 signi,
    unary main_call4_v3 main_call4_v4 (broadcastInDim S780 ![] bcast_S_S780),
    binary main_call4_v2 main_call4_v4 main_call4_v5 (cmpi .ne),
    unary main_c_5 main_call4_v6 (broadcastInDim S780 ![] bcast_S_S780),
    binary main_v15 main_call4_v6 main_call4_v7 Host.remsi,
    nullary main_call4_c (constantI S_ 32 0#32),
    unary main_call4_c main_call4_v8 (broadcastInDim S780 ![] bcast_S_S780),
    binary main_call4_v7 main_call4_v8 main_call4_v9 (cmpi .ne),
    binary main_call4_v5 main_call4_v9 main_call4_v10 andi,
    nullary main_call4_c_0 (constantI S_ 32 1#32),
    unary main_call4_c_0 main_call4_v11 (broadcastInDim S780 ![] bcast_S_S780),
    binary main_call4_v1 main_call4_v11 main_call4_v12 subi,
    ternary main_call4_v10 main_call4_v12 main_call4_v1 main_v16 select,
    nullary main_c_6 (constantI S_ 32 40#32),
    unary main_c_6 main_call5_v0 id,
    nullary main_call5_c (constantI S_ 32 0#32),
    binary main_call5_v0 main_call5_c main_call5_v1 (cmpi .eq),
    nullary main_call5_c_0 (constantI S_ 32 1#32),
    ternary main_call5_v1 main_call5_c_0 main_call5_v0 main_call5_v2 select,
    unary main_call5_v2 main_call5_v3 (broadcastInDim S780 ![] bcast_S_S780),
    binary main_v16 main_call5_v3 main_call5_v4 Host.remsi,
    nullary main_call5_c_1 (constantI S_ 32 0#32),
    unary main_call5_c_1 main_call5_v5 (broadcastInDim S780 ![] bcast_S_S780),
    binary main_call5_v4 main_call5_v5 main_call5_v6 (cmpi .ne),
    nullary main_call5_c_2 (constantI S_ 32 0#32),
    unary main_call5_c_2 main_call5_v7 (broadcastInDim S780 ![] bcast_S_S780),
    binary main_call5_v4 main_call5_v7 main_call5_v8 (cmpi .slt),
    nullary main_call5_c_3 (constantI S_ 32 0#32),
    binary main_call5_v2 main_call5_c_3 main_call5_v9 (cmpi .slt),
    unary main_call5_v9 main_call5_v10 (broadcastInDim S780 ![] bcast_S_S780),
    binary main_call5_v8 main_call5_v10 main_call5_v11 (cmpi .ne),
    binary main_call5_v11 main_call5_v6 main_call5_v12 andi,
    unary main_call5_v2 main_call5_v13 (broadcastInDim S780 ![] bcast_S_S780),
    binary main_call5_v4 main_call5_v13 main_call5_v14 addi,
    ternary main_call5_v12 main_call5_v14 main_call5_v4 main_v17 select,
    nullary main_c_7 (constantI S_ 32 1#32),
    unary main_c_7 main_call6_v0 (broadcastInDim S780 ![] bcast_S_S780),
    binary main_v15 main_call6_v0 main_call6_v1 Host.divsi,
    unary main_v15 main_call6_v2 signi,
    unary main_c_7 main_call6_v3 signi,
    unary main_call6_v3 main_call6_v4 (broadcastInDim S780 ![] bcast_S_S780),
    binary main_call6_v2 main_call6_v4 main_call6_v5 (cmpi .ne),
    unary main_c_7 main_call6_v6 (broadcastInDim S780 ![] bcast_S_S780),
    binary main_v15 main_call6_v6 main_call6_v7 Host.remsi,
    nullary main_call6_c (constantI S_ 32 0#32),
    unary main_call6_c main_call6_v8 (broadcastInDim S780 ![] bcast_S_S780),
    binary main_call6_v7 main_call6_v8 main_call6_v9 (cmpi .ne),
    binary main_call6_v5 main_call6_v9 main_call6_v10 andi,
    nullary main_call6_c_0 (constantI S_ 32 1#32),
    unary main_call6_c_0 main_call6_v11 (broadcastInDim S780 ![] bcast_S_S780),
    binary main_call6_v1 main_call6_v11 main_call6_v12 subi,
    ternary main_call6_v10 main_call6_v12 main_call6_v1 main_v18 select,
    nullary main_c_8 (constantI S_ 32 40#32),
    unary main_c_8 main_call7_v0 id,
    nullary main_call7_c (constantI S_ 32 0#32),
    binary main_call7_v0 main_call7_c main_call7_v1 (cmpi .eq),
    nullary main_call7_c_0 (constantI S_ 32 1#32),
    ternary main_call7_v1 main_call7_c_0 main_call7_v0 main_call7_v2 select,
    unary main_call7_v2 main_call7_v3 (broadcastInDim S780 ![] bcast_S_S780),
    binary main_v18 main_call7_v3 main_call7_v4 Host.remsi,
    nullary main_call7_c_1 (constantI S_ 32 0#32),
    unary main_call7_c_1 main_call7_v5 (broadcastInDim S780 ![] bcast_S_S780),
    binary main_call7_v4 main_call7_v5 main_call7_v6 (cmpi .ne),
    nullary main_call7_c_2 (constantI S_ 32 0#32),
    unary main_call7_c_2 main_call7_v7 (broadcastInDim S780 ![] bcast_S_S780),
    binary main_call7_v4 main_call7_v7 main_call7_v8 (cmpi .slt),
    nullary main_call7_c_3 (constantI S_ 32 0#32),
    binary main_call7_v2 main_call7_c_3 main_call7_v9 (cmpi .slt),
    unary main_call7_v9 main_call7_v10 (broadcastInDim S780 ![] bcast_S_S780),
    binary main_call7_v8 main_call7_v10 main_call7_v11 (cmpi .ne),
    binary main_call7_v11 main_call7_v6 main_call7_v12 andi,
    unary main_call7_v2 main_call7_v13 (broadcastInDim S780 ![] bcast_S_S780),
    binary main_call7_v4 main_call7_v13 main_call7_v14 addi,
    ternary main_call7_v12 main_call7_v14 main_call7_v4 main_v19 select,
    nullary main_c_9 (constantI S_ 32 0#32),
    unary main_c_9 main_v20 (broadcastInDim S780 ![] bcast_S_S780 : (⟨S_, .i32⟩ : BufTy).Contents (Elt F) → (⟨S780, .i32⟩ : BufTy).Contents (Elt F)),
    binary main_v17 main_v20 main_v21 (cmpi .slt : (⟨S780, .i32⟩ : BufTy).Contents (Elt F) → (⟨S780, .i32⟩ : BufTy).Contents (Elt F) → (⟨S780, .i1⟩ : BufTy).Contents (Elt F)),
    nullary main_c_10 (constantI S_ 32 40#32),
    unary main_c_10 main_v22 (broadcastInDim S780 ![] bcast_S_S780 : (⟨S_, .i32⟩ : BufTy).Contents (Elt F) → (⟨S780, .i32⟩ : BufTy).Contents (Elt F)),
    binary main_v17 main_v22 main_v23 (addi : (⟨S780, .i32⟩ : BufTy).Contents (Elt F) → (⟨S780, .i32⟩ : BufTy).Contents (Elt F) → (⟨S780, .i32⟩ : BufTy).Contents (Elt F)),
    ternary main_v21 main_v23 main_v17 main_v24 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    nullary main_c_11 (constantI S_ 32 0#32),
    unary main_c_11 main_v25 (broadcastInDim S780 ![] bcast_S_S780 : (⟨S_, .i32⟩ : BufTy).Contents (Elt F) → (⟨S780, .i32⟩ : BufTy).Contents (Elt F)),
    binary main_v19 main_v25 main_v26 (cmpi .slt : (⟨S780, .i32⟩ : BufTy).Contents (Elt F) → (⟨S780, .i32⟩ : BufTy).Contents (Elt F) → (⟨S780, .i1⟩ : BufTy).Contents (Elt F)),
    nullary main_c_12 (constantI S_ 32 40#32),
    unary main_c_12 main_v27 (broadcastInDim S780 ![] bcast_S_S780 : (⟨S_, .i32⟩ : BufTy).Contents (Elt F) → (⟨S780, .i32⟩ : BufTy).Contents (Elt F)),
    binary main_v19 main_v27 main_v28 (addi : (⟨S780, .i32⟩ : BufTy).Contents (Elt F) → (⟨S780, .i32⟩ : BufTy).Contents (Elt F) → (⟨S780, .i32⟩ : BufTy).Contents (Elt F)),
    ternary main_v26 main_v28 main_v19 main_v29 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v24 main_v30 (broadcastInDim S780x1 ![0] bcast_S780_S780x1_0 : (⟨S780, .i32⟩ : BufTy).Contents (Elt F) → (⟨S780x1, .i32⟩ : BufTy).Contents (Elt F)),
    unary main_v29 main_v31 (broadcastInDim S780x1 ![0] bcast_S780_S780x1_0 : (⟨S780, .i32⟩ : BufTy).Contents (Elt F) → (⟨S780x1, .i32⟩ : BufTy).Contents (Elt F)),
    binary main_v30 main_v31 main_v32 (cat2 : (⟨S780x1, .i32⟩ : BufTy).Contents (Elt F) → (⟨S780x1, .i32⟩ : BufTy).Contents (Elt F) → (⟨S780x2, .i32⟩ : BufTy).Contents (Elt F)),
    binary main_arg1 main_v32 main_v33 ((fun x i => Host.gather gather_S40x40x64_S780x2_S780x64_1_01_n_n_01_1_1164 x i) : (⟨S40x40x64, .f32⟩ : BufTy).Contents (Elt F) → (⟨S780x2, .i32⟩ : BufTy).Contents (Elt F) → (⟨S780x64, .f32⟩ : BufTy).Contents (Elt F)),
    nullary main_c_13 (constantI S_ 32 0#32),
    unary main_c_13 main_v34 (broadcastInDim S780 ![] bcast_S_S780 : (⟨S_, .i32⟩ : BufTy).Contents (Elt F) → (⟨S780, .i32⟩ : BufTy).Contents (Elt F)),
    binary main_v19 main_v34 main_v35 (cmpi .slt : (⟨S780, .i32⟩ : BufTy).Contents (Elt F) → (⟨S780, .i32⟩ : BufTy).Contents (Elt F) → (⟨S780, .i1⟩ : BufTy).Contents (Elt F)),
    nullary main_c_14 (constantI S_ 32 40#32),
    unary main_c_14 main_v36 (broadcastInDim S780 ![] bcast_S_S780 : (⟨S_, .i32⟩ : BufTy).Contents (Elt F) → (⟨S780, .i32⟩ : BufTy).Contents (Elt F)),
    binary main_v19 main_v36 main_v37 (addi : (⟨S780, .i32⟩ : BufTy).Contents (Elt F) → (⟨S780, .i32⟩ : BufTy).Contents (Elt F) → (⟨S780, .i32⟩ : BufTy).Contents (Elt F)),
    ternary main_v35 main_v37 main_v19 main_v38 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    nullary main_c_15 (constantI S_ 32 0#32),
    unary main_c_15 main_v39 (broadcastInDim S780 ![] bcast_S_S780 : (⟨S_, .i32⟩ : BufTy).Contents (Elt F) → (⟨S780, .i32⟩ : BufTy).Contents (Elt F)),
    binary main_v17 main_v39 main_v40 (cmpi .slt : (⟨S780, .i32⟩ : BufTy).Contents (Elt F) → (⟨S780, .i32⟩ : BufTy).Contents (Elt F) → (⟨S780, .i1⟩ : BufTy).Contents (Elt F)),
    nullary main_c_16 (constantI S_ 32 40#32),
    unary main_c_16 main_v41 (broadcastInDim S780 ![] bcast_S_S780 : (⟨S_, .i32⟩ : BufTy).Contents (Elt F) → (⟨S780, .i32⟩ : BufTy).Contents (Elt F)),
    binary main_v17 main_v41 main_v42 (addi : (⟨S780, .i32⟩ : BufTy).Contents (Elt F) → (⟨S780, .i32⟩ : BufTy).Contents (Elt F) → (⟨S780, .i32⟩ : BufTy).Contents (Elt F)),
    ternary main_v40 main_v42 main_v17 main_v43 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v38 main_v44 (broadcastInDim S780x1 ![0] bcast_S780_S780x1_0 : (⟨S780, .i32⟩ : BufTy).Contents (Elt F) → (⟨S780x1, .i32⟩ : BufTy).Contents (Elt F)),
    unary main_v43 main_v45 (broadcastInDim S780x1 ![0] bcast_S780_S780x1_0 : (⟨S780, .i32⟩ : BufTy).Contents (Elt F) → (⟨S780x1, .i32⟩ : BufTy).Contents (Elt F)),
    binary main_v44 main_v45 main_v46 (cat2 : (⟨S780x1, .i32⟩ : BufTy).Contents (Elt F) → (⟨S780x1, .i32⟩ : BufTy).Contents (Elt F) → (⟨S780x2, .i32⟩ : BufTy).Contents (Elt F)),
    binary main_arg1 main_v46 main_v47 ((fun x i => Host.gather gather_S40x40x64_S780x2_S780x64_1_01_n_n_01_1_1164 x i) : (⟨S40x40x64, .f32⟩ : BufTy).Contents (Elt F) → (⟨S780x2, .i32⟩ : BufTy).Contents (Elt F) → (⟨S780x64, .f32⟩ : BufTy).Contents (Elt F)),
    binary main_v33 main_v47 main_v48 (mulf : (⟨S780x64, .f32⟩ : BufTy).Contents (Elt F) → (⟨S780x64, .f32⟩ : BufTy).Contents (Elt F) → (⟨S780x64, .f32⟩ : BufTy).Contents (Elt F)),
    nullary main_c_17 (constantI S_ 32 0#32),
    unary main_c_17 main_v49 (broadcastInDim S780 ![] bcast_S_S780 : (⟨S_, .i32⟩ : BufTy).Contents (Elt F) → (⟨S780, .i32⟩ : BufTy).Contents (Elt F)),
    binary main_v17 main_v49 main_v50 (cmpi .slt : (⟨S780, .i32⟩ : BufTy).Contents (Elt F) → (⟨S780, .i32⟩ : BufTy).Contents (Elt F) → (⟨S780, .i1⟩ : BufTy).Contents (Elt F)),
    nullary main_c_18 (constantI S_ 32 40#32),
    unary main_c_18 main_v51 (broadcastInDim S780 ![] bcast_S_S780 : (⟨S_, .i32⟩ : BufTy).Contents (Elt F) → (⟨S780, .i32⟩ : BufTy).Contents (Elt F)),
    binary main_v17 main_v51 main_v52 (addi : (⟨S780, .i32⟩ : BufTy).Contents (Elt F) → (⟨S780, .i32⟩ : BufTy).Contents (Elt F) → (⟨S780, .i32⟩ : BufTy).Contents (Elt F)),
    ternary main_v50 main_v52 main_v17 main_v53 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v53 main_v54 (broadcastInDim S780x1 ![0] bcast_S780_S780x1_0 : (⟨S780, .i32⟩ : BufTy).Contents (Elt F) → (⟨S780x1, .i32⟩ : BufTy).Contents (Elt F)),
    binary main_arg0 main_v54 main_v55 ((fun x i => Host.gather gather_S4096x40x64_S780x1_S4096x780x64_02_1_n_n_1_1_4096164 x i) : (⟨S4096x40x64, .f32⟩ : BufTy).Contents (Elt F) → (⟨S780x1, .i32⟩ : BufTy).Contents (Elt F) → (⟨S4096x780x64, .f32⟩ : BufTy).Contents (Elt F)),
    nullary main_c_19 (constantI S_ 32 0#32),
    unary main_c_19 main_v56 (broadcastInDim S780 ![] bcast_S_S780 : (⟨S_, .i32⟩ : BufTy).Contents (Elt F) → (⟨S780, .i32⟩ : BufTy).Contents (Elt F)),
    binary main_v19 main_v56 main_v57 (cmpi .slt : (⟨S780, .i32⟩ : BufTy).Contents (Elt F) → (⟨S780, .i32⟩ : BufTy).Contents (Elt F) → (⟨S780, .i1⟩ : BufTy).Contents (Elt F)),
    nullary main_c_20 (constantI S_ 32 40#32),
    unary main_c_20 main_v58 (broadcastInDim S780 ![] bcast_S_S780 : (⟨S_, .i32⟩ : BufTy).Contents (Elt F) → (⟨S780, .i32⟩ : BufTy).Contents (Elt F)),
    binary main_v19 main_v58 main_v59 (addi : (⟨S780, .i32⟩ : BufTy).Contents (Elt F) → (⟨S780, .i32⟩ : BufTy).Contents (Elt F) → (⟨S780, .i32⟩ : BufTy).Contents (Elt F)),
    ternary main_v57 main_v59 main_v19 main_v60 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v60 main_v61 (broadcastInDim S780x1 ![0] bcast_S780_S780x1_0 : (⟨S780, .i32⟩ : BufTy).Contents (Elt F) → (⟨S780x1, .i32⟩ : BufTy).Contents (Elt F)),
    binary main_arg0 main_v61 main_v62 ((fun x i => Host.gather gather_S4096x40x64_S780x1_S4096x780x64_02_1_n_n_1_1_4096164 x i) : (⟨S4096x40x64, .f32⟩ : BufTy).Contents (Elt F) → (⟨S780x1, .i32⟩ : BufTy).Contents (Elt F) → (⟨S4096x780x64, .f32⟩ : BufTy).Contents (Elt F)),
    binary main_v55 main_v62 main_v63 (mulf : (⟨S4096x780x64, .f32⟩ : BufTy).Contents (Elt F) → (⟨S4096x780x64, .f32⟩ : BufTy).Contents (Elt F) → (⟨S4096x780x64, .f32⟩ : BufTy).Contents (Elt F)),
    unary main_v48 main_v64 (broadcastInDim S1x780x64 ![1, 2] bcast_S780x64_S1x780x64_1_2 : (⟨S780x64, .f32⟩ : BufTy).Contents (Elt F) → (⟨S1x780x64, .f32⟩ : BufTy).Contents (Elt F)),
    unary main_v64 main_v65 (broadcastInDim S4096x780x64 ![0, 1, 2] bcast_S1x780x64_S4096x780x64_0_1_2 : (⟨S1x780x64, .f32⟩ : BufTy).Contents (Elt F) → (⟨S4096x780x64, .f32⟩ : BufTy).Contents (Elt F)),
    binary main_v63 main_v65 main_v66 (mulf : (⟨S4096x780x64, .f32⟩ : BufTy).Contents (Elt F) → (⟨S4096x780x64, .f32⟩ : BufTy).Contents (Elt F) → (⟨S4096x780x64, .f32⟩ : BufTy).Contents (Elt F)),
    reshape main_v66 main_v67 rfl shapeCasts_S4096x780x64_S4096x49920 ]

/-- The operations are the ten stretches one after the other. -/
theorem ops_split : (ops : List (HloOp τ sig (Elt F))) =
    opsMask ++ (opsCsum ++ (opsBins ++ (opsFlat ++ (opsDiv40 ++ (opsRow ++ (opsDiv1 ++ (opsCol ++ (opsInter ++ (opsOut))))))))) := rfl

/-- Every operation touches TensorCore buffers only. -/
theorem ops_sub : (ops : List (HloOp τ sig (Elt F))).Forall fun op => op.bufs ⊆ tcRefs τ sig :=
  ⟨nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub .., nullary_bufs_sub ..,
    unary_bufs_sub .., binary_bufs_sub .., reshape_bufs_sub .., unary_bufs_sub .., nullary_bufs_sub .., unary_bufs_sub ..,
    binary_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    unary_bufs_sub .., binary_bufs_sub .., reshape_bufs_sub ..⟩

/-- Every operation determines its results. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl⟩

/-- The fold over all the operations is the fold over the stretches, one after the other. -/
theorem after_ops (V : Valuation τ sig (Elt F)) :
    after ops V = after opsOut (after opsInter (after opsCol (after opsDiv1 (after opsRow (after opsDiv40
      (after opsFlat (after opsBins (after opsCsum (after opsMask V))))))))) := by
  rw [ops_split]
  simp only [after_append]

end Cert.ReferenceIdeal.RefRun

end
-- ==== Proof.RefRunMain.lean ====
import proofs.«165907_j66383014527546_2_alg».proof.Proof.RefRunOps

/-!
# The reference's run: @main is the sequence of its operations

The reference's @main, with each call unfolded to the callee's body over that call's buffers and the
sequencing reassociated, is the straight line of the 177 listed operations. An operation inside a
callee is stated over references that carry their tensor type; at the literal buffers of a call that
type is the buffer's own, so the operation is the listed one. The program scopes no buffer and no
semaphore, so from a memory with zero counters every weakly fair execution of @main terminates with
every buffer at the fold of the operations' results over the launch contents.
-/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Cert.ReferenceIdeal.Facts] {F : FTy → Type} [FloatOps F]

-- The equation between the two programs never looks inside these operations' functions: kept folded,
-- an operation of a callee and the listed one are compared argument by argument.
attribute [local irreducible] Host.reduceWindow Host.scatter Host.gather Host.divsi Host.remsi concatenate

set_option maxRecDepth 8192 in
set_option maxHeartbeats 8000000 in
/-- @main is the straight line of the listed operations: the callees' definitions unfolded at their
    calls, both sides are one chain of steps once the sequencing is reassociated. -/
theorem main_eq (c : Dev nD) : main (F := F) c = seq ops := by
  simp only [main, main_part0, main_part1, fn_triu.body, fn_cumsum.body, fn_cumsum_0.body, fn_clip.body,
    fn_cumsum_1.body, fn_cumsum_2.body, fn_floor_divide.body, fn_where.body, fn_remainder.body, fn_where_3.body,
    seq, bind_assoc, pure_bind]
  rfl

/-- No TensorCore buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- From any memory with zero counters: every weakly fair execution of @main on the TensorCores
    terminates, and every final state has each TensorCore buffer at the operations' fold over the
    launch contents. -/
theorem run_main (m : (l : Loc nD τ sig) → Buf (Elt F) l) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => List.forall_iff_forall_mem.mp ops_fresh)

end Cert.ReferenceIdeal.RefRun

end
-- ==== Proof.RefRunA.lean ====
import proofs.«165907_j66383014527546_2_alg».proof.Proof.RefRunOps

/-!
# The reference's run: the pair tables' first stages

What the first four stretches of operations leave in their result buffers, from any contents: the
mask, its running count, the count per bin, and the running count of the bins (the flat position of
each one of the mask). Each stage is read from the contents the stage before left in its buffer.
-/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Cert.ReferenceIdeal.Facts]

attribute [local irreducible] Host.reduceWindow Host.scatter

/-- The first stretch leaves the mask in its result buffer. -/
theorem mask_eq (W : Valuation τ sig (Elt Ideal)) :
    after (opsMask (F := Ideal)) W (main_v3 : DevRef τ sig) = Spec.mask := by
  after_results
  rfl

/-- From the mask, the second stretch leaves its running count. -/
theorem csum_eq (W : Valuation τ sig (Elt Ideal)) (h : W (main_v3 : DevRef τ sig) = Spec.mask) :
    after (opsCsum (F := Ideal)) W (main_v4 : DevRef τ sig) = Spec.csum := by
  after_results
  rw [h]
  rfl

/-- From the running count, the third stretch leaves the count per bin. -/
theorem bins_eq (W : Valuation τ sig (Elt Ideal)) (h : W (main_v4 : DevRef τ sig) = Spec.csum) :
    after (opsBins (F := Ideal)) W (main_v14 : DevRef τ sig) = Spec.bins := by
  after_results
  rw [h]
  rfl

/-- From the count per bin, the fourth stretch leaves the flat positions. -/
theorem flat_eq (W : Valuation τ sig (Elt Ideal)) (h : W (main_v14 : DevRef τ sig) = Spec.bins) :
    after (opsFlat (F := Ideal)) W (main_v15 : DevRef τ sig) = Spec.flat := by
  after_results
  rw [h]
  rfl

end Cert.ReferenceIdeal.RefRun

end
-- ==== Proof.RefRunB.lean ====
import proofs.«165907_j66383014527546_2_alg».proof.Proof.RefRunOps

/-!
# The reference's run: rows and columns

What the four stretches that split the flat position leave in their result buffers: the floor
division by 40 and its remainder by 40 (the row), the floor division by 1 and its remainder by 40
(the column). Each is read from the contents left in the buffer it divides.
-/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Cert.ReferenceIdeal.Facts]

attribute [local irreducible] Host.reduceWindow Host.scatter Host.divsi Host.remsi

/-- From the flat positions, the fifth stretch leaves their floor division by 40. -/
theorem div40_eq (W : Valuation τ sig (Elt Ideal)) (h : W (main_v15 : DevRef τ sig) = Spec.flat) :
    after (opsDiv40 (F := Ideal)) W (main_v16 : DevRef τ sig) = Spec.floorDiv Spec.flat (constantI S_ 32 40#32) := by
  after_results_simp
  rw [h]
  rfl

/-- From that quotient, the sixth stretch leaves its remainder by 40: the row. -/
theorem row_eq (W : Valuation τ sig (Elt Ideal))
    (h : W (main_v16 : DevRef τ sig) = Spec.floorDiv Spec.flat (constantI S_ 32 40#32)) :
    after (opsRow (F := Ideal)) W (main_v17 : DevRef τ sig) = Spec.rowIdx := by
  after_results_simp
  rw [h]
  rfl

/-- From the flat positions, the seventh stretch leaves their floor division by 1. -/
theorem div1_eq (W : Valuation τ sig (Elt Ideal)) (h : W (main_v15 : DevRef τ sig) = Spec.flat) :
    after (opsDiv1 (F := Ideal)) W (main_v18 : DevRef τ sig) = Spec.floorDiv Spec.flat (constantI S_ 32 1#32) := by
  after_results_simp
  rw [h]
  rfl

/-- From that quotient, the eighth stretch leaves its remainder by 40: the column. -/
theorem col_eq (W : Valuation τ sig (Elt Ideal))
    (h : W (main_v18 : DevRef τ sig) = Spec.floorDiv Spec.flat (constantI S_ 32 1#32)) :
    after (opsCol (F := Ideal)) W (main_v19 : DevRef τ sig) = Spec.colIdx := by
  after_results_simp
  rw [h]
  rfl

end Cert.ReferenceIdeal.RefRun

end
-- ==== Proof.RefRunC.lean ====
import proofs.«165907_j66383014527546_2_alg».proof.Proof.RefRunOps

/-!
# The reference's run: the interaction table and the result

What the last two stretches leave in their result buffers, from contents in which the row and
column buffers hold the two index tables: the interaction table of the weights, and the result.
-/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Cert.ReferenceIdeal.Facts]

attribute [local irreducible] Host.reduceWindow Host.scatter Host.gather Host.divsi Host.remsi

/-- From the rows and columns, the ninth stretch leaves the interaction table of the weights. -/
theorem inter_eq (W : Valuation τ sig (Elt Ideal)) (h17 : W (main_v17 : DevRef τ sig) = Spec.rowIdx)
    (h19 : W (main_v19 : DevRef τ sig) = Spec.colIdx) :
    after (opsInter (F := Ideal)) W (main_v48 : DevRef τ sig)
      = Spec.inter (W (main_arg1 : DevRef τ sig)) (Spec.wrap Spec.rowIdx) (Spec.wrap Spec.colIdx) := by
  after_results_simp
  rw [h17, h19]
  rfl

/-- From the rows, the columns and the interaction table, the last stretch leaves the result. -/
theorem out_eq (W : Valuation τ sig (Elt Ideal)) (w : Spec.F32 S40x40x64) (h17 : W (main_v17 : DevRef τ sig) = Spec.rowIdx)
    (h19 : W (main_v19 : DevRef τ sig) = Spec.colIdx)
    (h48 : W (main_v48 : DevRef τ sig) = Spec.inter w (Spec.wrap Spec.rowIdx) (Spec.wrap Spec.colIdx)) :
    after (opsOut (F := Ideal)) W (main_v67 : DevRef τ sig) = Spec.refOut (W (main_arg0 : DevRef τ sig)) w := by
  after_results_simp
  rw [h17, h19, h48]
  rfl

end Cert.ReferenceIdeal.RefRun

end
-- ==== Proof.RefRun.lean ====
import proofs.«165907_j66383014527546_2_alg».proof.Proof.RefRunMain
import proofs.«165907_j66383014527546_2_alg».proof.Proof.RefRunA
import proofs.«165907_j66383014527546_2_alg».proof.Proof.RefRunB
import proofs.«165907_j66383014527546_2_alg».proof.Proof.RefRunC

/-!
# The reference's run

Every weakly fair execution of the reference's @main terminates with its result buffer at
Spec.refOut of the two arguments' launch contents, and the arguments unchanged. The fold of the 177
operations is taken stretch by stretch: each stage's buffer holds that stage's term of the stages
before it, and a buffer a later stretch reads is not written in between (every buffer has exactly
one operation writing it).
-/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable [Cert.ReferenceIdeal.Facts]

/-! ## Which buffers each stretch leaves alone -/

theorem outMask : (opsMask (F := Ideal)).Forall (WritesOutside [main_arg0, main_arg1]) := by writes_outside
theorem outCsum : (opsCsum (F := Ideal)).Forall (WritesOutside [main_arg0, main_arg1]) := by writes_outside
theorem outBins : (opsBins (F := Ideal)).Forall (WritesOutside [main_arg0, main_arg1]) := by writes_outside
theorem outFlat : (opsFlat (F := Ideal)).Forall (WritesOutside [main_arg0, main_arg1]) := by writes_outside
theorem outDiv40 : (opsDiv40 (F := Ideal)).Forall (WritesOutside [main_arg0, main_arg1, main_v15]) := by writes_outside
theorem outRow : (opsRow (F := Ideal)).Forall (WritesOutside [main_arg0, main_arg1, main_v15]) := by writes_outside
theorem outDiv1 : (opsDiv1 (F := Ideal)).Forall (WritesOutside [main_arg0, main_arg1, main_v17]) := by writes_outside
theorem outCol : (opsCol (F := Ideal)).Forall (WritesOutside [main_arg0, main_arg1, main_v17]) := by writes_outside
theorem outInter : (opsInter (F := Ideal)).Forall (WritesOutside [main_arg0, main_arg1, main_v17, main_v19]) := by writes_outside
theorem outOut : (opsOut (F := Ideal)).Forall (WritesOutside [main_arg0, main_arg1]) := by writes_outside

/-- A buffer of the list keeps its contents through a stretch writing outside the list. -/
theorem keep {L : List (Ref sig .tc)} {S : List (HloOp τ sig (Elt Ideal))} (h : S.Forall (WritesOutside L))
    (W : Valuation τ sig (Elt Ideal)) {b : Ref sig .tc} (hb : b ∈ L) :
    after S W (Proc.devRef .tc b) = W (Proc.devRef .tc b) :=
  after_of_writesOutside S (List.forall_iff_forall_mem.mp h) W hb

/-! ## The fold, stage by stage -/

/-- After all the operations, from any contents: the result buffer holds Spec.refOut of the two
    arguments' contents, and the arguments' buffers hold what they held. -/
theorem value (V : Valuation τ sig (Elt Ideal)) :
    after (ops (F := Ideal)) V (main_v67 : DevRef τ sig)
        = Spec.refOut (V (main_arg0 : DevRef τ sig)) (V (main_arg1 : DevRef τ sig))
      ∧ after (ops (F := Ideal)) V (main_arg0 : DevRef τ sig) = V (main_arg0 : DevRef τ sig)
      ∧ after (ops (F := Ideal)) V (main_arg1 : DevRef τ sig) = V (main_arg1 : DevRef τ sig) := by
  rw [after_ops]
  generalize hA : after opsMask V = VA
  generalize hB : after opsCsum VA = VB
  generalize hC : after opsBins VB = VC
  generalize hD : after opsFlat VC = VD
  generalize hE : after opsDiv40 VD = VE
  generalize hF : after opsRow VE = VF
  generalize hG : after opsDiv1 VF = VG
  generalize hH : after opsCol VG = VH
  generalize hI : after opsInter VH = VI
  generalize hJ : after opsOut VI = VJ
  have a0A : VA (main_arg0 : DevRef τ sig) = V (main_arg0 : DevRef τ sig) := by
    rw [← hA, keep outMask V (by decide)]
  have a1A : VA (main_arg1 : DevRef τ sig) = V (main_arg1 : DevRef τ sig) := by
    rw [← hA, keep outMask V (by decide)]
  have a0B : VB (main_arg0 : DevRef τ sig) = V (main_arg0 : DevRef τ sig) := by
    rw [← hB, keep outCsum VA (by decide)]; exact a0A
  have a1B : VB (main_arg1 : DevRef τ sig) = V (main_arg1 : DevRef τ sig) := by
    rw [← hB, keep outCsum VA (by decide)]; exact a1A
  have a0C : VC (main_arg0 : DevRef τ sig) = V (main_arg0 : DevRef τ sig) := by
    rw [← hC, keep outBins VB (by decide)]; exact a0B
  have a1C : VC (main_arg1 : DevRef τ sig) = V (main_arg1 : DevRef τ sig) := by
    rw [← hC, keep outBins VB (by decide)]; exact a1B
  have a0D : VD (main_arg0 : DevRef τ sig) = V (main_arg0 : DevRef τ sig) := by
    rw [← hD, keep outFlat VC (by decide)]; exact a0C
  have a1D : VD (main_arg1 : DevRef τ sig) = V (main_arg1 : DevRef τ sig) := by
    rw [← hD, keep outFlat VC (by decide)]; exact a1C
  have a0E : VE (main_arg0 : DevRef τ sig) = V (main_arg0 : DevRef τ sig) := by
    rw [← hE, keep outDiv40 VD (by decide)]; exact a0D
  have a1E : VE (main_arg1 : DevRef τ sig) = V (main_arg1 : DevRef τ sig) := by
    rw [← hE, keep outDiv40 VD (by decide)]; exact a1D
  have a0F : VF (main_arg0 : DevRef τ sig) = V (main_arg0 : DevRef τ sig) := by
    rw [← hF, keep outRow VE (by decide)]; exact a0E
  have a1F : VF (main_arg1 : DevRef τ sig) = V (main_arg1 : DevRef τ sig) := by
    rw [← hF, keep outRow VE (by decide)]; exact a1E
  have a0G : VG (main_arg0 : DevRef τ sig) = V (main_arg0 : DevRef τ sig) := by
    rw [← hG, keep outDiv1 VF (by decide)]; exact a0F
  have a1G : VG (main_arg1 : DevRef τ sig) = V (main_arg1 : DevRef τ sig) := by
    rw [← hG, keep outDiv1 VF (by decide)]; exact a1F
  have a0H : VH (main_arg0 : DevRef τ sig) = V (main_arg0 : DevRef τ sig) := by
    rw [← hH, keep outCol VG (by decide)]; exact a0G
  have a1H : VH (main_arg1 : DevRef τ sig) = V (main_arg1 : DevRef τ sig) := by
    rw [← hH, keep outCol VG (by decide)]; exact a1G
  have a0I : VI (main_arg0 : DevRef τ sig) = V (main_arg0 : DevRef τ sig) := by
    rw [← hI, keep outInter VH (by decide)]; exact a0H
  have a1I : VI (main_arg1 : DevRef τ sig) = V (main_arg1 : DevRef τ sig) := by
    rw [← hI, keep outInter VH (by decide)]; exact a1H
  have a0J : VJ (main_arg0 : DevRef τ sig) = V (main_arg0 : DevRef τ sig) := by
    rw [← hJ, keep outOut VI (by decide)]; exact a0I
  have a1J : VJ (main_arg1 : DevRef τ sig) = V (main_arg1 : DevRef τ sig) := by
    rw [← hJ, keep outOut VI (by decide)]; exact a1I
  have m3 : VA (main_v3 : DevRef τ sig) = Spec.mask := by rw [← hA]; exact mask_eq V
  have m4 : VB (main_v4 : DevRef τ sig) = Spec.csum := by rw [← hB]; exact csum_eq VA m3
  have m14 : VC (main_v14 : DevRef τ sig) = Spec.bins := by rw [← hC]; exact bins_eq VB m4
  have m15 : VD (main_v15 : DevRef τ sig) = Spec.flat := by rw [← hD]; exact flat_eq VC m14
  have m16 : VE (main_v16 : DevRef τ sig) = Spec.floorDiv Spec.flat (constantI S_ 32 40#32) := by
    rw [← hE]; exact div40_eq VD m15
  have m15E : VE (main_v15 : DevRef τ sig) = Spec.flat := by rw [← hE, keep outDiv40 VD (by decide)]; exact m15
  have m17 : VF (main_v17 : DevRef τ sig) = Spec.rowIdx := by rw [← hF]; exact row_eq VE m16
  have m15F : VF (main_v15 : DevRef τ sig) = Spec.flat := by rw [← hF, keep outRow VE (by decide)]; exact m15E
  have m18 : VG (main_v18 : DevRef τ sig) = Spec.floorDiv Spec.flat (constantI S_ 32 1#32) := by
    rw [← hG]; exact div1_eq VF m15F
  have m17G : VG (main_v17 : DevRef τ sig) = Spec.rowIdx := by rw [← hG, keep outDiv1 VF (by decide)]; exact m17
  have m19 : VH (main_v19 : DevRef τ sig) = Spec.colIdx := by rw [← hH]; exact col_eq VG m18
  have m17H : VH (main_v17 : DevRef τ sig) = Spec.rowIdx := by rw [← hH, keep outCol VG (by decide)]; exact m17G
  have m48 : VI (main_v48 : DevRef τ sig)
      = Spec.inter (V (main_arg1 : DevRef τ sig)) (Spec.wrap Spec.rowIdx) (Spec.wrap Spec.colIdx) := by
    rw [← hI, inter_eq VH m17H m19, a1H]
  have m17I : VI (main_v17 : DevRef τ sig) = Spec.rowIdx := by rw [← hI, keep outInter VH (by decide)]; exact m17H
  have m19I : VI (main_v19 : DevRef τ sig) = Spec.colIdx := by rw [← hI, keep outInter VH (by decide)]; exact m19
  refine ⟨?_, a0J, a1J⟩
  rw [← hJ, out_eq VI (V (main_arg1 : DevRef τ sig)) m17I m19I m48, a0I]

/-! ## The run -/

/-- On every device, from any memory with zero counters: every weakly fair execution of @main
    terminates with the result buffer at Spec.refOut of the arguments' launch contents and the
    arguments unchanged. -/
theorem run (m : (l : Loc nD τ sig) → Buf (Elt Ideal) l) (ρ : Dev nD → PrngReg) :
    θ_run (defs (F := Ideal)) (onTc (τ := τ) (main (F := Ideal))) ⟨m, fun _ => 0, ρ⟩ fun r => ∀ c : Dev nD,
      r.2.mem ((c.tc : Thread nD τ).loc main_v67) = Cert.ReferenceIdeal.Spec.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v67).trans (value (launchContents m c)).1,
       (h c main_arg0).trans (value (launchContents m c)).2.1,
       (h c main_arg1).trans (value (launchContents m c)).2.2⟩)
    (run_main m ρ)

end Cert.ReferenceIdeal.RefRun

end
-- ==== Proof.LibCumsum.lean ====
import Idealize.ShloMosaic.PureOps.Contract
import Idealize.ShloMosaic.Lib.ValueIdx
import Mathlib.Data.BitVec

/-!
# A running sum as a padded window reduction

Over a one-axis operand of n entries, the window reduction with window n, stride 1, low padding
n - 1, no high padding, integer addition and a zero initial value is the running sum: entry j of the
result is the sum of the operand's entries at the positions s ≤ j.

The window at result position j covers the padded positions j, …, j + n - 1; padded position p is
operand position p - (n - 1) once p ≥ n - 1 and holds zero before that, so the window's non-zero
terms are the operand's entries 0, …, j.
-/

namespace Cert.LibCumsum

open Idealize.ShloMosaic

/-- The window's terms, summed in window order, are the operand's entries at positions 0 … j:
    window offset m holds entry j + m - lo when lo ≤ j + m and zero otherwise, where lo + 1 is the
    window's length and j ≤ lo. -/
theorem sum_window {M : Type} [AddCommMonoid M] (a : ℕ → M) (lo j : ℕ) (hj : j ≤ lo) :
    (∑ m ∈ Finset.range (lo + 1), if lo ≤ j + m then a (j + m - lo) else 0)
      = ∑ s ∈ Finset.range (j + 1), a s := by
  rw [← Finset.sum_filter]
  refine Finset.sum_nbij' (fun m => j + m - lo) (fun s => s + lo - j) ?_ ?_ ?_ ?_ ?_
  · intro m hm
    simp only [Finset.mem_filter, Finset.mem_range] at hm ⊢
    omega
  · intro s hs
    simp only [Finset.mem_filter, Finset.mem_range] at hs ⊢
    omega
  · intro m hm
    simp only [Finset.mem_filter, Finset.mem_range] at hm
    omega
  · intro s hs
    simp only [Finset.mem_range] at hs
    omega
  · intro m _
    rfl

/-- A left fold of additions from zero is the sum over the list. -/
theorem foldl_add_eq_sum {ι : Type} (g : ι → BitVec 32) (l : List ι) (z : BitVec 32) :
    l.foldl (fun r m => IntOp.addi r (g m)) z = z + (l.map g).sum := by
  induction l generalizing z with
  | nil => simp
  | cons b l ih =>
    rw [List.foldl_cons, ih, List.map_cons, List.sum_cons, IntOp.addi, add_assoc]

/-- **The running sum.** The window reduction by integer addition from a zero initial value, over a
    one-axis operand of n = lo + 1 entries with window n, stride 1, low padding lo and no high
    padding: entry j of the result is the sum of the operand's entries at positions 0, …, j. The
    operand is given by its entries a s at the natural-number positions s. -/
theorem reduceWindow_cumsum {n lo : ℕ} (hlo : lo + 1 = n) {u : Shape}
    (x : (⟨1, ![n]⟩ : Shape).Idx → BitVec 32) (a : ℕ → BitVec 32) (hx : ∀ i, x i = a (i 0).val)
    (init : u.Idx → BitVec 32)
    (h : (⟨1, ![n]⟩ : Shape).ReduceWindows ![n] ![1] ![lo] ![0] ⟨1, ![n]⟩) (hu : 0 < u.numel)
    (hinit : init (Shape.Idx.first hu) = 0#32) (j : (⟨1, ![n]⟩ : Shape).Idx) :
    Host.reduceWindow IntOp.addi ![n] ![1] ![lo] ![0] x init h hu j
      = ∑ s ∈ Finset.range ((j 0).val + 1), a s := by
  subst hlo
  have hj : (j 0).val ≤ lo := Nat.lt_succ_iff.1 (j 0).isLt
  have hsym : ∀ m : Fin (⟨1, ![lo + 1]⟩ : Shape).numel,
      (((⟨1, ![lo + 1]⟩ : Shape).rowMajor.symm m) 0).val = m.val := fun m => by
    rw [← Shape.rowMajor_val_one, Equiv.apply_symm_apply]
  have hN : (⟨1, ![lo + 1]⟩ : Shape).numel = lo + 1 := by simp [Shape.numel]
  unfold Host.reduceWindow
  simp only [hinit]
  have hR : ∀ f : ℕ → BitVec 32, (∑ m ∈ Finset.range (lo + 1), f m)
      = ∑ m : Fin (⟨1, ![lo + 1]⟩ : Shape).numel, f m.val := fun f => by
    rw [← Finset.sum_range, hN]
  rw [foldl_add_eq_sum, BitVec.zero_add, ← Fin.sum_univ_def, ← sum_window a lo (j 0).val hj, hR]
  refine Finset.sum_congr rfl fun m _ => ?_
  by_cases hc : lo ≤ (j 0).val + m.val
  · have hin : ∀ a : Fin 1, ![lo] a ≤ (j (Fin.cast h.1.symm a)).val * ![1] a
          + (((⟨1, ![lo + 1]⟩ : Shape).rowMajor.symm m) a).val
        ∧ (j (Fin.cast h.1.symm a)).val * ![1] a + (((⟨1, ![lo + 1]⟩ : Shape).rowMajor.symm m) a).val - ![lo] a
          < (⟨1, ![lo + 1]⟩ : Shape).size a := by
      refine Fin.forall_fin_one.2 ?_
      show lo ≤ (j 0).val * 1 + (((⟨1, ![lo + 1]⟩ : Shape).rowMajor.symm m) 0).val
        ∧ (j 0).val * 1 + (((⟨1, ![lo + 1]⟩ : Shape).rowMajor.symm m) 0).val - lo < lo + 1
      rw [hsym]
      have := m.isLt
      omega
    rw [if_pos hc, dif_pos hin, hx]
    show a ((j 0).val * 1 + (((⟨1, ![lo + 1]⟩ : Shape).rowMajor.symm m) 0).val - lo) = _
    rw [hsym, Nat.mul_one]
  · rw [if_neg hc, dif_neg]
    · rfl
    · intro hin
      have h0 : lo ≤ (j 0).val * 1 + (((⟨1, ![lo + 1]⟩ : Shape).rowMajor.symm m) 0).val := (hin 0).1
      rw [hsym] at h0
      omega

/-- Words of natural numbers add as the natural numbers do: the sum of the words is the word of the sum. -/
theorem sum_ofNat (a : ℕ → ℕ) (k : ℕ) :
    (∑ s ∈ Finset.range k, BitVec.ofNat 32 (a s)) = BitVec.ofNat 32 (∑ s ∈ Finset.range k, a s) := by
  induction k with
  | zero => rfl
  | succ k ih => rw [Finset.sum_range_succ, Finset.sum_range_succ, ih, BitVec.ofNat_add]

/-- The running sum of an operand whose entries are the words of natural numbers a s: entry j of the
    result is the word of a 0 + … + a j. No bound on the sum is needed: the word of a sum is the sum of
    the words. -/
theorem reduceWindow_cumsum_ofNat {n lo : ℕ} (hlo : lo + 1 = n) {u : Shape}
    (x : (⟨1, ![n]⟩ : Shape).Idx → BitVec 32) (a : ℕ → ℕ)
    (hx : ∀ i, x i = BitVec.ofNat 32 (a (i 0).val)) (init : u.Idx → BitVec 32)
    (h : (⟨1, ![n]⟩ : Shape).ReduceWindows ![n] ![1] ![lo] ![0] ⟨1, ![n]⟩) (hu : 0 < u.numel)
    (hinit : init (Shape.Idx.first hu) = 0#32) (j : (⟨1, ![n]⟩ : Shape).Idx) :
    Host.reduceWindow IntOp.addi ![n] ![1] ![lo] ![0] x init h hu j
      = BitVec.ofNat 32 (∑ s ∈ Finset.range ((j 0).val + 1), a s) := by
  rw [reduceWindow_cumsum hlo x (fun s => BitVec.ofNat 32 (a s)) hx init h hu hinit j, sum_ofNat]

end Cert.LibCumsum
-- ==== Proof.PairCsum.lean ====
import proofs.«165907_j66383014527546_2_alg».proof.Proof.Spec
import proofs.«165907_j66383014527546_2_alg».proof.Proof.LibCumsum
import Idealize.ShloMosaic.Lib.IdealHost
import Idealize.ShloMosaic.Lib.Pipeline.Value

/-!
# The first running count: ones of the mask at flat positions ≤ n

The mask at (i, j) is the bit of i < j. Flattened, position n holds the bit of n / 40 < n % 40; its
running sum at n is the number of pairs i < j among the flat positions ≤ n, which is
off (n / 40) + (n % 40 - n / 40).
-/

namespace Cert.ReferenceIdeal.PairIndex

open Idealize.ShloMosaic Idealize.ShloMosaic.ValueIdx Cert.ReferenceIdeal Cert.ReferenceIdeal.Facts₀ Cert.Pairs

variable [Cert.ReferenceIdeal.Facts]

/-- The mask's entry at flat position s, as a natural number: one when s / 40 < s % 40. -/
def maskBit (s : ℕ) : ℕ := if s / 40 < s % 40 then 1 else 0

/-- On coordinates below 40 the signed comparison i + 0 ≥ j of the two words is the comparison of the
    coordinates. -/
theorem cmpi_sge_small : ∀ a b : Fin 40,
    IntOp.cmpi .sge (IntOp.addi (BitVec.ofNat 32 a.val) 0#32) (BitVec.ofNat 32 b.val)
      = if a.val < b.val then 0#1 else 1#1 := by decide +kernel

/-- The mask at (i, j) is the bit of i < j. -/
theorem mask_apply (i : S40x40.Idx) : Spec.mask i = if (i 0).val < (i 1).val then 1#1 else 0#1 := by
  show Ideal.cmp .une (Scalar.select (IntOp.cmpi .sge (IntOp.addi (BitVec.ofNat 32 (i 0).val) 0#32)
      (BitVec.ofNat 32 (i 1).val)) (Ideal.ofBits .f32 0x00000000#32) (Ideal.ofBits .f32 0x3F800000#32))
    (Ideal.ofBits .f32 0x00000000#32) = _
  rw [cmpi_sge_small (i 0) (i 1), Ideal.ofBits_zero_f32, Ideal.ofBits_one_f32]
  by_cases h : (i 0).val < (i 1).val
  · rw [if_pos h, if_pos h]; simp [Scalar.select, Ideal.cmp]
  · rw [if_neg h, if_neg h]; simp [Scalar.select, Ideal.cmp]

/-- The flattened mask widened to 32 bits: position n holds the word of maskBit n, the mask at
    (n / 40, n % 40). -/
theorem flatMask_apply (n : S1600.Idx) :
    extui 32 (shapeCast S1600 Spec.mask shapeCasts_S40x40_S1600) natLt_1_32 n
      = BitVec.ofNat 32 (maskBit (n 0).val) := by
  have hn : (n 0).val < 1600 := (n 0).isLt
  have hk : (S40x40.rowMajor (ix2 (⟨(n 0).val / 40, by omega⟩ : Fin 40)
      (⟨(n 0).val % 40, Nat.mod_lt _ (by decide)⟩ : Fin 40))).val = (S1600.rowMajor n).val := by
    rw [Shape.rowMajor_val_two, Shape.rowMajor_val_one]
    show (n 0).val / 40 * 40 + (n 0).val % 40 = (n 0).val
    omega
  rw [extui_apply, shapeCast_apply Spec.mask shapeCasts_S40x40_S1600 n _ hk, mask_apply]
  show (if (n 0).val / 40 < (n 0).val % 40 then 1#1 else 0#1).setWidth 32
    = BitVec.ofNat 32 (if (n 0).val / 40 < (n 0).val % 40 then 1 else 0)
  split <;> rfl

/-- The running count at n is the word of the number of ones of the mask at flat positions ≤ n. -/
theorem csum_apply (n : S1600.Idx) :
    Spec.csum n = BitVec.ofNat 32 (∑ s ∈ Finset.range ((n 0).val + 1), maskBit s) :=
  Cert.LibCumsum.reduceWindow_cumsum_ofNat (n := 1600) (lo := 1599) rfl _ maskBit flatMask_apply _ _ _ rfl n

/-- The closed form at the first position: no one at (0, 0). -/
theorem cnt_zero : cnt 0 = maskBit 0 := by decide

/-- The closed form's step: position n + 1 adds its own bit. -/
theorem cnt_succ : ∀ n : Fin 1599, cnt (n.val + 1) = cnt n.val + maskBit (n.val + 1) := by decide +kernel

/-- The number of ones of the mask at flat positions ≤ n is cnt n, for every position of the square. -/
theorem sum_maskBit (n : ℕ) (hn : n < 1600) : ∑ s ∈ Finset.range (n + 1), maskBit s = cnt n := by
  induction n with
  | zero => rw [Finset.sum_range_one, cnt_zero]
  | succ k ih => rw [Finset.sum_range_succ, ih (by omega), cnt_succ ⟨k, by omega⟩]

/-- The first running count in closed form. -/
theorem csum_eq : Spec.csum = fun n : S1600.Idx => BitVec.ofNat 32 (cnt (n 0).val) := by
  funext n
  rw [csum_apply, sum_maskBit _ (n 0).isLt]

end Cert.ReferenceIdeal.PairIndex
-- ==== Proof.LibScatterRead.lean ====
/-
  The host's `stablehlo.scatter` read at one index of its result.

  `Host.scatter d f x idx upd` folds, over the update indices in row-major order, the step "where the update's
  result index lies inside the operand, replace the element there by `f` of it and the update's element".  Read at
  ONE result index `i` that fold only ever looks at the updates landing on `i`:

  * `Host.scatter_apply`: the element at `i` is the fold, from `x i`, of `f · (upd n)` over the update indices
    `n` whose result index is `i`, in row-major order;
  * `Host.scatter_apply_of_forall_ne`: no update lands on `i` — the operand's element `x i`;
  * `Host.scatter_apply_of_unique`: exactly one update index `n₀` lands on `i` — `f (x i) (upd n₀)`; for a
    `.at[].set` (`f := fun _ b => b`) that is the update's element `upd n₀`, for a scatter-min the minimum of the
    operand's element and the update's;
  * `ScatterDims.resultIdx?_vec`: for a vector operand with one scalar index per update (what `x.at[idx].set(v)` and
    the segment reductions lower to) the update lands on the element its index names, read signed, when that is
    inside the operand, and is dropped otherwise.

  The two list lemmas they rest on (`List.foldl_ite_of_forall_not`, `List.foldl_ite_of_unique`) are stated for any
  list without repetitions.
-/
import Idealize.ShloMosaic.PureOps.ShapeOps
import Idealize.ShloMosaic.Lib.ValueIdx

namespace List

variable {α β : Type}

/-- A fold that acts only at the elements satisfying `p`, none of which is in the list, changes nothing. -/
theorem foldl_ite_of_forall_not (p : β → Prop) [DecidablePred p] (g : α → β → α) :
    ∀ (L : List β) (a : α), (∀ n ∈ L, ¬p n) → L.foldl (fun a n => if p n then g a n else a) a = a
  | [], _, _ => rfl
  | n :: L, a, h => by
    rw [List.foldl_cons, if_neg (h n List.mem_cons_self)]
    exact foldl_ite_of_forall_not p g L a fun k hk => h k (List.mem_cons_of_mem _ hk)

/-- A fold that acts only at the elements satisfying `p`, over a list without repetitions in which `n₀` is the
    one element satisfying `p`, acts once, at `n₀`. -/
theorem foldl_ite_of_unique (p : β → Prop) [DecidablePred p] (g : α → β → α) (n₀ : β) (hp : p n₀) :
    ∀ (L : List β) (a : α), L.Nodup → n₀ ∈ L → (∀ n ∈ L, p n → n = n₀) →
      L.foldl (fun a n => if p n then g a n else a) a = g a n₀
  | [], _, _, h, _ => absurd h List.not_mem_nil
  | n :: L, a, hnd, hmem, huniq => by
    rw [List.foldl_cons]
    by_cases hn : n = n₀
    · subst hn
      rw [if_pos hp]
      exact foldl_ite_of_forall_not p g L _ fun k hk hpk =>
        (List.nodup_cons.mp hnd).1 ((huniq k (List.mem_cons_of_mem _ hk) hpk) ▸ hk)
    · have hpn : ¬p n := fun h => hn (huniq n List.mem_cons_self h)
      rw [if_neg hpn]
      exact foldl_ite_of_unique p g n₀ hp L a (List.nodup_cons.mp hnd).2
        ((List.mem_cons.mp hmem).resolve_left (fun e => hn e.symm)) fun k hk => huniq k (List.mem_cons_of_mem _ hk)

end List

namespace Idealize.ShloMosaic

variable {α : Type} {s si u : Shape} {w : Nat}

/-- The scatter's fold, read at one index: only the updates landing there act. -/
theorem Host.scatter_fold_apply (d : ScatterDims s si u) (f : α → α → α) (idx : IVec si w) (upd : u.Idx → α) (i : s.Idx) :
    ∀ (L : List (Fin u.numel)) (r : s.Idx → α),
      (L.foldl (fun r n =>
          match d.resultIdx? (u.rowMajor.symm n) idx with
          | some i₀ => fun i' => if i' = i₀ then f (r i₀) (upd (u.rowMajor.symm n)) else r i'
          | none => r) r) i
        = L.foldl (fun a n => if d.resultIdx? (u.rowMajor.symm n) idx = some i then f a (upd (u.rowMajor.symm n)) else a) (r i)
  | [], _ => rfl
  | n :: L, r => by
    rw [List.foldl_cons, List.foldl_cons, Host.scatter_fold_apply d f idx upd i L]
    congr 1
    cases h : d.resultIdx? (u.rowMajor.symm n) idx with
    | none => simp
    | some i₀ =>
      by_cases e : i = i₀
      · subst e; simp
      · have : ¬(some i₀ = some i) := fun h' => e (Option.some.inj h').symm
        simp [e, this]

/-- The element of a host scatter's result at `i`: the fold, from the operand's element, of the updates whose
    result index is `i`, in row-major order. -/
theorem Host.scatter_apply (d : ScatterDims s si u) (f : α → α → α) (x : s.Idx → α) (idx : IVec si w) (upd : u.Idx → α) (i : s.Idx) :
    Host.scatter d f x idx upd i
      = (List.finRange u.numel).foldl (fun a n => if d.resultIdx? (u.rowMajor.symm n) idx = some i then f a (upd (u.rowMajor.symm n)) else a) (x i) :=
  Host.scatter_fold_apply d f idx upd i _ x

/-- No update lands on `i`: the operand's element. -/
theorem Host.scatter_apply_of_forall_ne (d : ScatterDims s si u) (f : α → α → α) (x : s.Idx → α) (idx : IVec si w) (upd : u.Idx → α) (i : s.Idx)
    (h : ∀ j : u.Idx, d.resultIdx? j idx ≠ some i) : Host.scatter d f x idx upd i = x i := by
  rw [Host.scatter_apply]
  exact List.foldl_ite_of_forall_not _ _ _ _ fun n _ => h _

/-- Exactly one update index lands on `i`: `f` of the operand's element and that update's. -/
theorem Host.scatter_apply_of_unique (d : ScatterDims s si u) (f : α → α → α) (x : s.Idx → α) (idx : IVec si w) (upd : u.Idx → α) (i : s.Idx)
    (j₀ : u.Idx) (h₀ : d.resultIdx? j₀ idx = some i) (huniq : ∀ j : u.Idx, d.resultIdx? j idx = some i → j = j₀) :
    Host.scatter d f x idx upd i = f (x i) (upd j₀) := by
  rw [Host.scatter_apply]
  have e := List.foldl_ite_of_unique (fun n : Fin u.numel => d.resultIdx? (u.rowMajor.symm n) idx = some i)
    (fun a n => f a (upd (u.rowMajor.symm n))) (u.rowMajor j₀) (by simpa using h₀) (List.finRange u.numel) (x i)
    (List.nodup_finRange _) (List.mem_finRange _) (fun n _ hn => by
      have := huniq _ hn
      rw [← this]; simp)
  simpa using e

/-- For a `.at[].set`: the one update landing on `i` is what the result holds there. -/
theorem Host.scatter_set_apply_of_unique (d : ScatterDims s si u) (x : s.Idx → α) (idx : IVec si w) (upd : u.Idx → α) (i : s.Idx)
    (j₀ : u.Idx) (h₀ : d.resultIdx? j₀ idx = some i) (huniq : ∀ j : u.Idx, d.resultIdx? j idx = some i → j = j₀) :
    Host.scatter d (fun _ b => b) x idx upd i = upd j₀ :=
  Host.scatter_apply_of_unique d _ x idx upd i j₀ h₀ huniq

/-! ## The index a `v.at[idx].set(u)` update lands on -/

open ValueIdx

/-- For a vector operand with one scalar index per update (the shape jnp's `x.at[idx].set(v)` / `.min(v)` /
    segment reductions lower to: no window axis, the operand's one axis inserted, the index vector on the indices'
    last axis): the window's start is the update's own index, read signed. -/
theorem ScatterDims.start_vec {n k w : Nat} (wf : ScatterDims.WF ⟨1, ![n]⟩ ⟨2, ![k, 1]⟩ ⟨1, ![k]⟩ [] [0] [0] 1)
    (j : (⟨1, ![k]⟩ : Shape).Idx) (idx : IVec ⟨2, ![k, 1]⟩ w) (a : Fin 1) :
    (⟨[], [0], [0], 1, wf⟩ : ScatterDims ⟨1, ![n]⟩ ⟨2, ![k, 1]⟩ ⟨1, ![k]⟩).start j idx a = (idx (ix2 (j 0) (0 : Fin 1))).toInt := by
  have ha : a = 0 := Subsingleton.elim _ _
  subst ha
  unfold ScatterDims.start
  simp only [List.mem_singleton, dite_true]
  congr 2
  funext b
  apply Fin.ext
  match b with
  | ⟨0, _⟩ =>
    unfold ScatterDims.siIdx
    simp [ScatterDims.siCoord, ScatterDims.siKept, ScatterDims.uScatter, Shape.kept]
    rfl
  | ⟨1, _⟩ =>
    unfold ScatterDims.siIdx
    simp

/-- … and the window coordinate is zero. -/
theorem ScatterDims.window_vec {n k : Nat} (wf : ScatterDims.WF ⟨1, ![n]⟩ ⟨2, ![k, 1]⟩ ⟨1, ![k]⟩ [] [0] [0] 1)
    (j : (⟨1, ![k]⟩ : Shape).Idx) (a : Fin 1) :
    (⟨[], [0], [0], 1, wf⟩ : ScatterDims ⟨1, ![n]⟩ ⟨2, ![k, 1]⟩ ⟨1, ![k]⟩).window j a = 0 := by
  have ha : a = 0 := Subsingleton.elim _ _
  subst ha
  unfold ScatterDims.window
  simp [ScatterDims.sKept, Shape.kept]

/-- So update `j` lands on the element its index names when that is inside the operand, and is dropped otherwise. -/
theorem ScatterDims.resultIdx?_vec {n k w : Nat} (wf : ScatterDims.WF ⟨1, ![n]⟩ ⟨2, ![k, 1]⟩ ⟨1, ![k]⟩ [] [0] [0] 1)
    (j : (⟨1, ![k]⟩ : Shape).Idx) (idx : IVec ⟨2, ![k, 1]⟩ w) :
    (⟨[], [0], [0], 1, wf⟩ : ScatterDims ⟨1, ![n]⟩ ⟨2, ![k, 1]⟩ ⟨1, ![k]⟩).resultIdx? j idx
      = if h : 0 ≤ (idx (ix2 (j 0) (0 : Fin 1))).toInt ∧ (idx (ix2 (j 0) (0 : Fin 1))).toInt < n then
          some (ix1 (⟨(idx (ix2 (j 0) (0 : Fin 1))).toInt.toNat, by omega⟩ : Fin n))
        else none := by
  unfold ScatterDims.resultIdx?
  have key : ∀ a : Fin 1,
      (⟨[], [0], [0], 1, wf⟩ : ScatterDims ⟨1, ![n]⟩ ⟨2, ![k, 1]⟩ ⟨1, ![k]⟩).start j idx a
        + ((⟨[], [0], [0], 1, wf⟩ : ScatterDims ⟨1, ![n]⟩ ⟨2, ![k, 1]⟩ ⟨1, ![k]⟩).window j a : Int)
        = (idx (ix2 (j 0) (0 : Fin 1))).toInt := fun a => by
    rw [ScatterDims.start_vec, ScatterDims.window_vec, Nat.cast_zero, add_zero]
  by_cases h : 0 ≤ (idx (ix2 (j 0) (0 : Fin 1))).toInt ∧ (idx (ix2 (j 0) (0 : Fin 1))).toInt < n
  · rw [dif_pos h, dif_pos (fun a => by
      rw [key a]
      have ha : a = 0 := Subsingleton.elim _ _
      subst ha
      exact h)]
    congr 1
    funext a
    apply Fin.ext
    have ha : a = 0 := Subsingleton.elim _ _
    subst ha
    show ((⟨[], [0], [0], 1, wf⟩ : ScatterDims ⟨1, ![n]⟩ ⟨2, ![k, 1]⟩ ⟨1, ![k]⟩).start j idx 0
        + ((⟨[], [0], [0], 1, wf⟩ : ScatterDims ⟨1, ![n]⟩ ⟨2, ![k, 1]⟩ ⟨1, ![k]⟩).window j 0 : Int)).toNat = _
    rw [key 0]
    rfl
  · rw [dif_neg h, dif_neg (fun h' => h (by
      have h0 := h' 0
      rw [key 0] at h0
      exact h0))]

end Idealize.ShloMosaic
-- ==== Proof.PairBins.lean ====
import proofs.«165907_j66383014527546_2_alg».proof.Proof.Spec
import proofs.«165907_j66383014527546_2_alg».proof.Proof.LibScatterRead

/-!
# How many flat positions share each running count

The reference adds a one into a vector of 780 zeros at the index csum n, for each of the 1600 flat
positions n, an index outside 0..779 being dropped. With csum n the word of cnt n ≤ 780, the clip
below at zero and the move of a negative value leave the index alone, so position n adds to entry
cnt n when cnt n < 780 and is dropped when cnt n = 780. Read at one entry v the scatter is the
fold, over the positions n in order, of "add one if cnt n = v"; such a fold from zero is the word of
the number of positions with cnt n = v, which is binCount v.
-/

namespace Cert.ReferenceIdeal.PairIndex

open Idealize.ShloMosaic Idealize.ShloMosaic.ValueIdx Cert.ReferenceIdeal Cert.ReferenceIdeal.Spec

/-- The bin index from a running count: the count clipped below at zero, a negative value moved up by 780. -/
def bins_clip (c : BitVec 32) : BitVec 32 :=
  Scalar.select (IntOp.cmpi .slt (IntOp.maxsi 0#32 c) 0#32) (IntOp.addi (IntOp.maxsi 0#32 c) 780#32) (IntOp.maxsi 0#32 c)

/-- On the words of the running counts the clip changes nothing. -/
theorem bins_clip_cnt :
    ∀ n : Fin 1600, bins_clip (BitVec.ofNat 32 (Cert.Pairs.cnt n.val)) = BitVec.ofNat 32 (Cert.Pairs.cnt n.val) := by
  decide +kernel

/-- Every running count is at most 780, the number of pairs. -/
theorem bins_cnt_le : ∀ n : Fin 1600, Cert.Pairs.cnt n.val ≤ 780 := by
  decide +kernel

/-- A natural number up to 780, as a 32-bit word read signed, is itself. -/
theorem bins_toInt_ofNat (c : ℕ) (h : c ≤ 780) : (BitVec.ofNat 32 c).toInt = (c : Int) := by
  have hm : c % 2 ^ 32 = c := Nat.mod_eq_of_lt (by omega)
  rw [BitVec.toInt_eq_toNat_of_lt (by rw [BitVec.toNat_ofNat, hm]; omega), BitVec.toNat_ofNat, hm]

/-- A fold that adds one at the elements satisfying p adds the number of such elements. -/
theorem bins_foldl_count {β : Type} (p : β → Prop) [DecidablePred p] :
    ∀ (L : List β) (a : BitVec 32),
      L.foldl (fun a n => if p n then IntOp.addi a 1#32 else a) a
        = a + BitVec.ofNat 32 (L.filter fun n => decide (p n)).length
  | [], a => by simp
  | n :: L, a => by
    rw [List.foldl_cons, bins_foldl_count p L]
    by_cases h : p n
    · rw [if_pos h, List.filter_cons_of_pos (by simpa using h), List.length_cons, BitVec.ofNat_add]
      show a + 1#32 + _ = _
      rw [BitVec.add_assoc, BitVec.add_comm 1#32]
    · rw [if_neg h, List.filter_cons_of_neg (by simpa using h)]

/-- Counting over the first m naturals as elements of Fin m or as naturals is the same. -/
theorem bins_count_finRange (p : ℕ → Bool) (m : ℕ) :
    ((List.finRange m).filter fun n => p n.val).length = ((List.range m).filter p).length := by
  rw [← List.map_coe_finRange_eq_range, List.filter_map, List.length_map]
  rfl

/-- An update of a vector scatter with one scalar index per update lands on entry v exactly when its
index, read signed, is v. -/
theorem bins_resultIdx_iff {n k w : Nat} (wf : ScatterDims.WF ⟨1, ![n]⟩ ⟨2, ![k, 1]⟩ ⟨1, ![k]⟩ [] [0] [0] 1)
    (j : (⟨1, ![k]⟩ : Shape).Idx) (idx : IVec ⟨2, ![k, 1]⟩ w) (v : (⟨1, ![n]⟩ : Shape).Idx) :
    (⟨[], [0], [0], 1, wf⟩ : ScatterDims ⟨1, ![n]⟩ ⟨2, ![k, 1]⟩ ⟨1, ![k]⟩).resultIdx? j idx = some v
      ↔ (idx (ix2 (j 0) (0 : Fin 1))).toInt = ((v 0).val : Int) := by
  rw [ScatterDims.resultIdx?_vec]
  have hv : (v 0).val < n := (v 0).isLt
  by_cases h : 0 ≤ (idx (ix2 (j 0) (0 : Fin 1))).toInt ∧ (idx (ix2 (j 0) (0 : Fin 1))).toInt < n
  · rw [dif_pos h]
    constructor
    · intro e
      have e' : (idx (ix2 (j 0) (0 : Fin 1))).toInt.toNat = (v 0).val :=
        congrArg Fin.val (congrFun (Option.some.inj e) 0)
      omega
    · intro e
      congr 1
      funext a
      have ha : a = 0 := Subsingleton.elim _ _
      subst ha
      apply Fin.ext
      show (idx (ix2 (j 0) (0 : Fin 1))).toInt.toNat = (v 0).val
      omega
  · rw [dif_neg h]
    constructor
    · intro e; exact absurd e (by simp)
    · intro e; exact absurd ⟨by omega, by omega⟩ h

variable [Cert.ReferenceIdeal.Facts]

/-- The bin index, read at one position. -/
theorem bins_binIdx_apply (n : S1600.Idx) : binIdx n = bins_clip (csum n) := rfl

/-- The column of bin indices, read at row j. -/
theorem bins_col_apply (j : S1600.Idx) :
    (broadcastInDim S1600x1 ![0] Facts₀.bcast_S1600_S1600x1_0 binIdx : I32 S1600x1) (ix2 (j 0) (0 : Fin 1)) = binIdx j := by
  show binIdx _ = binIdx j
  congr 1
  funext a
  have ha : a = 0 := Subsingleton.elim _ _
  subst ha
  rfl

/-- Position j adds to entry v exactly when its running count is v. -/
theorem bins_lands_iff
    (hc : Cert.ReferenceIdeal.Spec.csum = fun n : S1600.Idx => BitVec.ofNat 32 (Cert.Pairs.cnt (n 0).val))
    (j : S1600.Idx) (v : S780.Idx) :
    scatter_S780_S1600x1_S1600_n_0_0_1.resultIdx? j
        (broadcastInDim S1600x1 ![0] Facts₀.bcast_S1600_S1600x1_0 binIdx : I32 S1600x1) = some v
      ↔ Cert.Pairs.cnt (j 0).val = (v 0).val := by
  have hd : scatter_S780_S1600x1_S1600_n_0_0_1
      = (⟨[], [0], [0], 1, Facts₀.scatter_S780_S1600x1_S1600_n_0_0_1_wf⟩ : ScatterDims S780 S1600x1 S1600) := rfl
  have hclip : bins_clip (BitVec.ofNat 32 (Cert.Pairs.cnt (j 0).val)) = BitVec.ofNat 32 (Cert.Pairs.cnt (j 0).val) :=
    bins_clip_cnt ⟨(j 0).val, (j 0).isLt⟩
  have hle : Cert.Pairs.cnt (j 0).val ≤ 780 := bins_cnt_le ⟨(j 0).val, (j 0).isLt⟩
  rw [hd, bins_resultIdx_iff, bins_col_apply, bins_binIdx_apply, hc, hclip, bins_toInt_ofNat _ hle]
  omega

/-- The count per running count: entry v holds the number of flat positions whose running count is v. -/
theorem bins_eq
    (hc : Cert.ReferenceIdeal.Spec.csum = fun n : S1600.Idx => BitVec.ofNat 32 (Cert.Pairs.cnt (n 0).val)) :
    Cert.ReferenceIdeal.Spec.bins = fun v : S780.Idx => BitVec.ofNat 32 (Cert.Pairs.binCount (v 0).val) := by
  funext v
  rw [bins, Host.scatter_apply]
  have hfun :
      (fun (a : BitVec 32) (n : Fin S1600.numel) =>
        if scatter_S780_S1600x1_S1600_n_0_0_1.resultIdx? (S1600.rowMajor.symm n)
            (broadcastInDim S1600x1 ![0] Facts₀.bcast_S1600_S1600x1_0 binIdx : I32 S1600x1) = some v
        then IntOp.addi a (bc1600 (constantI S_ 32 1#32) (S1600.rowMajor.symm n)) else a)
      = fun (a : BitVec 32) (n : Fin S1600.numel) =>
        if Cert.Pairs.cnt n.val = (v 0).val then IntOp.addi a 1#32 else a := by
    funext a n
    have hn : ((S1600.rowMajor.symm n) 0).val = n.val := by
      have h1 := Shape.rowMajor_val_one (S1600.rowMajor.symm n)
      rw [Equiv.apply_symm_apply] at h1
      exact h1.symm
    have hiff := bins_lands_iff hc (S1600.rowMajor.symm n) v
    rw [hn] at hiff
    by_cases h : Cert.Pairs.cnt n.val = (v 0).val
    · rw [if_pos h, if_pos (hiff.2 h)]; rfl
    · rw [if_neg h, if_neg (fun h' => h (hiff.1 h'))]
  rw [hfun, bins_foldl_count]
  have hnum : S1600.numel = 1600 := by simp [Shape.numel]
  have hlen : ((List.finRange S1600.numel).filter fun n => decide (Cert.Pairs.cnt n.val = (v 0).val)).length
      = Cert.Pairs.binCount (v 0).val := by
    rw [bins_count_finRange (fun n => decide (Cert.Pairs.cnt n = (v 0).val)), hnum]
    rfl
  rw [hlen]
  show 0#32 + _ = _
  rw [BitVec.zero_add]

end Cert.ReferenceIdeal.PairIndex
-- ==== Proof.PairFlat.lean ====
import proofs.«165907_j66383014527546_2_alg».proof.Proof.Spec
import proofs.«165907_j66383014527546_2_alg».proof.Proof.LibCumsum
import proofs.«165907_j66383014527546_2_alg».proof.Proof.PairCsum

/-!
# The second running count: the flat position of the k-th one of the mask

bins v counts the flat positions whose running count is v, so the running sum of bins at k counts the
positions whose running count is at most k. The running count is non-decreasing, it is k just before
the k-th one (counting from zero) and k + 1 at it; so those positions are exactly the ones before the
k-th one, and their number is that one's flat position 40 · rowOf k + colOf k.
-/

namespace Cert.ReferenceIdeal.PairIndex

open Idealize.ShloMosaic Idealize.ShloMosaic.ValueIdx Cert.ReferenceIdeal Cert.ReferenceIdeal.Facts₀ Cert.Pairs

variable [Cert.ReferenceIdeal.Facts]

/-- The flat position of the k-th pair. -/
def pos (k : ℕ) : ℕ := 40 * rowOf k + colOf k

/-- Entries with value below m + 1 are those below m and those equal to m. -/
theorem length_filter_lt_succ (f : ℕ → ℕ) (m : ℕ) (l : List ℕ) :
    (l.filter fun n => f n < m + 1).length
      = (l.filter fun n => f n < m).length + (l.filter fun n => f n = m).length := by
  have key : ∀ (p : ℕ → Bool) (a : ℕ) (l : List ℕ),
      ((a :: l).filter p).length = (if p a = true then 1 else 0) + (l.filter p).length := by
    intro p a l
    by_cases hp : p a = true
    · rw [List.filter_cons_of_pos hp, if_pos hp, List.length_cons]; omega
    · rw [List.filter_cons_of_neg hp, if_neg hp]; omega
  induction l with
  | nil => rfl
  | cons a l ih =>
    rw [key, key (fun n => decide (f n < m)), key (fun n => decide (f n = m)), ih]
    simp only [decide_eq_true_eq]
    split_ifs <;> omega

/-- Counting the entries of each value below m counts the entries with value below m. -/
theorem sum_length_filter_eq (f : ℕ → ℕ) (l : List ℕ) (m : ℕ) :
    ∑ v ∈ Finset.range m, (l.filter fun n => f n = v).length = (l.filter fun n => f n < m).length := by
  induction m with
  | zero => simp
  | succ m ih => rw [Finset.sum_range_succ, ih, length_filter_lt_succ]

/-- Among 0, …, N - 1 there are min p N numbers below p. -/
theorem length_filter_lt_range (p N : ℕ) : ((List.range N).filter fun n => n < p).length = min p N := by
  induction N with
  | zero => simp
  | succ N ih =>
    rw [List.range_succ, List.filter_append, List.length_append, ih]
    by_cases h : N < p
    · simp [h]; omega
    · simp [h]; omega

/-- The k-th one lies inside the square, not at its first position; just before it the running count
    is k, and at it k + 1. -/
theorem cnt_pos : ∀ k : Fin 780,
    1 ≤ pos k.val ∧ pos k.val < 1600 ∧ cnt (pos k.val - 1) = k.val ∧ cnt (pos k.val) = k.val + 1 := by
  decide +kernel

/-- The running count is non-decreasing along the square: it is a sum of bits over an initial segment. -/
theorem cnt_mono {m n : ℕ} (hmn : m ≤ n) (hn : n < 1600) : cnt m ≤ cnt n := by
  rw [← sum_maskBit m (by omega), ← sum_maskBit n hn]
  exact Finset.sum_le_sum_of_subset (Finset.range_mono (by omega))

/-- The positions with running count at most k are the positions before the k-th one. -/
theorem cnt_lt_succ_iff (k : ℕ) (hk : k < 780) (n : ℕ) (hn : n < 1600) : cnt n < k + 1 ↔ n < pos k := by
  obtain ⟨h1, h2, h3, h4⟩ :
      1 ≤ pos k ∧ pos k < 1600 ∧ cnt (pos k - 1) = k ∧ cnt (pos k) = k + 1 := cnt_pos ⟨k, hk⟩
  constructor
  · intro h
    by_contra hc
    have := cnt_mono (Nat.le_of_not_lt hc) hn
    omega
  · intro h
    have := cnt_mono (show n ≤ pos k - 1 by omega) (by omega)
    omega

/-- The running sum of the bin counts at k is the flat position of the k-th one. -/
theorem sum_binCount (k : ℕ) (hk : k < 780) : ∑ v ∈ Finset.range (k + 1), binCount v = pos k := by
  obtain ⟨h1, h2, -, -⟩ :
      1 ≤ pos k ∧ pos k < 1600 ∧ cnt (pos k - 1) = k ∧ cnt (pos k) = k + 1 := cnt_pos ⟨k, hk⟩
  show ∑ v ∈ Finset.range (k + 1), ((List.range 1600).filter fun n => cnt n = v).length = pos k
  rw [sum_length_filter_eq cnt (List.range 1600) (k + 1),
    List.filter_congr (fun n hn => decide_eq_decide.2 (cnt_lt_succ_iff k hk n (List.mem_range.1 hn))),
    length_filter_lt_range]
  omega

/-- The second running count in closed form, given the bin counts. -/
theorem flat_eq (hb : Spec.bins = fun v : S780.Idx => BitVec.ofNat 32 (binCount (v 0).val)) :
    Spec.flat = fun k : S780.Idx => BitVec.ofNat 32 (40 * rowOf (k 0).val + colOf (k 0).val) := by
  funext k
  have h := Cert.LibCumsum.reduceWindow_cumsum_ofNat (n := 780) (lo := 779) rfl Spec.bins binCount
    (fun i => by rw [hb]) (broadcastInDim S_ ![] bcast_S_S_ (constantI S_ 32 0#32))
    reduceWindows_S780_S780_w780s1p779_0 h_S_ rfl k
  rw [Spec.flat, h, sum_binCount _ (k 0).isLt]
  rfl

end Cert.ReferenceIdeal.PairIndex
-- ==== Proof.PairDivRem.lean ====
import proofs.«165907_j66383014527546_2_alg».proof.Proof.Spec

/-!
# Splitting the flat position into row and column

The reference splits the flat position a = 40 i + j of a pair (i, j), i < j < 40, into its row and
column with floor division and the remainder that carries the divisor's sign, each written over the
truncated 32-bit signed division and remainder with a sign correction, and then moves a negative
index up by 40. On the words 0 ≤ a < 1600 no correction fires: the row is a / 40 and the column
a % 40. Each elementwise stage is one function of 32-bit words; the vector forms equal it
pointwise by unfolding, and the word facts are checked over the 1600 values of a.
-/

namespace Cert.ReferenceIdeal.PairIndex

open Idealize.ShloMosaic Cert.ReferenceIdeal Cert.ReferenceIdeal.Spec

/-- The sign of a word: 0, -1 or 1. -/
def divrem_sgn (x : BitVec 32) : BitVec 32 := if x = 0 then 0 else if x.msb then -1 else 1

/-- Floor division of words: the truncated quotient, less one where the signs differ and the
remainder is not zero. -/
def divrem_fdiv (a d : BitVec 32) : BitVec 32 :=
  Scalar.select
    (IntOp.andi (IntOp.cmpi .ne (divrem_sgn a) (divrem_sgn d)) (IntOp.cmpi .ne (IntOp.remsi .host a d) 0#32))
    (IntOp.subi (IntOp.divsi .host a d) 1#32)
    (IntOp.divsi .host a d)

/-- The divisor the remainder uses: one in place of zero. -/
def divrem_safe (d : BitVec 32) : BitVec 32 := Scalar.select (IntOp.cmpi .eq d 0#32) 1#32 d

/-- The remainder with the divisor's sign: the truncated remainder, plus the divisor where it is
not zero and its sign differs from the divisor's. -/
def divrem_frem (a d : BitVec 32) : BitVec 32 :=
  Scalar.select
    (IntOp.andi
      (IntOp.cmpi .ne (IntOp.cmpi .slt (IntOp.remsi .host a (divrem_safe d)) 0#32) (IntOp.cmpi .slt (divrem_safe d) 0#32))
      (IntOp.cmpi .ne (IntOp.remsi .host a (divrem_safe d)) 0#32))
    (IntOp.addi (IntOp.remsi .host a (divrem_safe d)) (divrem_safe d))
    (IntOp.remsi .host a (divrem_safe d))

/-- A negative index counted from the end of an axis of extent 40. -/
def divrem_wrap (v : BitVec 32) : BitVec 32 := Scalar.select (IntOp.cmpi .slt v 0#32) (IntOp.addi v 40#32) v

/-- On 0 ≤ a < 1600: floor division by 40, then the remainder by 40, then the wrap, is a / 40. -/
theorem divrem_row_word :
    ∀ a : Fin 1600, divrem_wrap (divrem_frem (divrem_fdiv (BitVec.ofNat 32 a.val) 40#32) 40#32) = BitVec.ofNat 32 (a.val / 40) := by
  decide +kernel

/-- On 0 ≤ a < 1600: floor division by 1, then the remainder by 40, then the wrap, is a % 40. -/
theorem divrem_col_word :
    ∀ a : Fin 1600, divrem_wrap (divrem_frem (divrem_fdiv (BitVec.ofNat 32 a.val) 1#32) 40#32) = BitVec.ofNat 32 (a.val % 40) := by
  decide +kernel

/-- Row and column of each of the 780 pairs are below 40. -/
theorem divrem_pair_lt : ∀ n : Fin 780, Cert.Pairs.rowOf n.val < 40 ∧ Cert.Pairs.colOf n.val < 40 := by
  decide +kernel

variable [Cert.ReferenceIdeal.Facts]

/-- Floor division by a constant, read at one entry. -/
theorem divrem_floorDiv_apply (a : I32 S780) (d : BitVec 32) (k : S780.Idx) :
    floorDiv a (constantI S_ 32 d) k = divrem_fdiv (a k) d := rfl

/-- The signed remainder by a constant, read at one entry. -/
theorem divrem_floorRem_apply (a : I32 S780) (d : BitVec 32) (k : S780.Idx) :
    floorRem a (constantI S_ 32 d) k = divrem_frem (a k) d := rfl

/-- The wrap, read at one entry. -/
theorem divrem_wrap_apply (v : I32 S780) (k : S780.Idx) : wrap v k = divrem_wrap (v k) := rfl

/-- The row table: with the flat positions 40 i + j, the wrapped row index is i. -/
theorem wrap_rowIdx
    (hf : Cert.ReferenceIdeal.Spec.flat = fun k : S780.Idx => BitVec.ofNat 32 (40 * Cert.Pairs.rowOf (k 0).val + Cert.Pairs.colOf (k 0).val)) :
    Cert.ReferenceIdeal.Spec.wrap Cert.ReferenceIdeal.Spec.rowIdx = fun k : S780.Idx => BitVec.ofNat 32 (Cert.Pairs.rowOf (k 0).val) := by
  funext k
  have hp : Cert.Pairs.rowOf (k 0).val < 40 ∧ Cert.Pairs.colOf (k 0).val < 40 :=
    divrem_pair_lt ⟨(k 0).val, (k 0).isLt⟩
  obtain ⟨hi, hj⟩ := hp
  have hlt : 40 * Cert.Pairs.rowOf (k 0).val + Cert.Pairs.colOf (k 0).val < 1600 := by omega
  have h : divrem_wrap (divrem_frem (divrem_fdiv (BitVec.ofNat 32 (40 * Cert.Pairs.rowOf (k 0).val + Cert.Pairs.colOf (k 0).val)) 40#32) 40#32)
      = BitVec.ofNat 32 ((40 * Cert.Pairs.rowOf (k 0).val + Cert.Pairs.colOf (k 0).val) / 40) := divrem_row_word ⟨_, hlt⟩
  rw [divrem_wrap_apply, rowIdx, divrem_floorRem_apply, divrem_floorDiv_apply, hf]
  rw [h]
  congr 1
  omega

/-- The column table: with the flat positions 40 i + j, the wrapped column index is j. -/
theorem wrap_colIdx
    (hf : Cert.ReferenceIdeal.Spec.flat = fun k : S780.Idx => BitVec.ofNat 32 (40 * Cert.Pairs.rowOf (k 0).val + Cert.Pairs.colOf (k 0).val)) :
    Cert.ReferenceIdeal.Spec.wrap Cert.ReferenceIdeal.Spec.colIdx = fun k : S780.Idx => BitVec.ofNat 32 (Cert.Pairs.colOf (k 0).val) := by
  funext k
  have hp : Cert.Pairs.rowOf (k 0).val < 40 ∧ Cert.Pairs.colOf (k 0).val < 40 :=
    divrem_pair_lt ⟨(k 0).val, (k 0).isLt⟩
  obtain ⟨hi, hj⟩ := hp
  have hlt : 40 * Cert.Pairs.rowOf (k 0).val + Cert.Pairs.colOf (k 0).val < 1600 := by omega
  have h : divrem_wrap (divrem_frem (divrem_fdiv (BitVec.ofNat 32 (40 * Cert.Pairs.rowOf (k 0).val + Cert.Pairs.colOf (k 0).val)) 1#32) 40#32)
      = BitVec.ofNat 32 ((40 * Cert.Pairs.rowOf (k 0).val + Cert.Pairs.colOf (k 0).val) % 40) := divrem_col_word ⟨_, hlt⟩
  rw [divrem_wrap_apply, colIdx, divrem_floorRem_apply, divrem_floorDiv_apply, hf]
  rw [h]
  congr 1
  omega

end Cert.ReferenceIdeal.PairIndex
-- ==== Proof.lean ====
/-
  The kernel (a field-aware pairwise product, one grid point per 64 rows) against its reference, over
  the extended reals.

  Both programs compute, for x : [4096, 40, 64] and w : [40, 40, 64], at row b and column 64 p + e,
  (x[b, I p, e] · x[b, J p, e]) · (w[I p, J p, e] · w[J p, I p, e]), where p runs over the 780 pairs
  (I p, J p), I p < J p < 40, in row-major order. The same products in the same grouping: no algebraic
  law is needed and the precondition is never opened. What has to be proved is that the two programs use
  the same pairs.

  The kernel has the pairs as two literal tables, and its body handles one anchor field i at a time: the
  pairs (i, i + 1) … (i, 39) are consecutive, so one broadcast product fills the columns of all of them.
  The reference computes the pairs at run time as the positions of the ones of the mask i < j: a running
  count of the flattened mask, a count of the positions sharing each running count, a second running
  count — the flat position 40 i + j of the p-th one — and its quotient and remainder by 40. Both tables
  are shown to be the closed forms rowOf / colOf (Spec.lean); then the interaction tables of the two
  programs are one term, and each result is the common value kOut of x and that table.
-/
import proofs.«165907_j66383014527546_2_alg».proof.Defs
import proofs.«165907_j66383014527546_2_alg».proof.Proof.Gen.Kernel
import proofs.«165907_j66383014527546_2_alg».proof.Proof.Gen.Kernel.Frame
import proofs.«165907_j66383014527546_2_alg».proof.Proof.Gen.KernelIdeal
import proofs.«165907_j66383014527546_2_alg».proof.Proof.Gen.KernelIdeal.Frame
import proofs.«165907_j66383014527546_2_alg».proof.Proof.Gen.KernelIdeal.Value
import proofs.«165907_j66383014527546_2_alg».proof.Proof.Gen.ReferenceIdeal
import proofs.«165907_j66383014527546_2_alg».proof.Proof.Gen.Pre_finite_inputs
import proofs.«165907_j66383014527546_2_alg».proof.Proof.Spec
import proofs.«165907_j66383014527546_2_alg».proof.Proof.Bridge
import proofs.«165907_j66383014527546_2_alg».proof.Proof.KTable
import proofs.«165907_j66383014527546_2_alg».proof.Proof.KPieces
import proofs.«165907_j66383014527546_2_alg».proof.Proof.KValue
import proofs.«165907_j66383014527546_2_alg».proof.Proof.RefRun
import proofs.«165907_j66383014527546_2_alg».proof.Proof.PairCsum
import proofs.«165907_j66383014527546_2_alg».proof.Proof.PairBins
import proofs.«165907_j66383014527546_2_alg».proof.Proof.PairFlat
import proofs.«165907_j66383014527546_2_alg».proof.Proof.PairDivRem
import Idealize.ShloMosaic.Adequacy
import Idealize.ShloMosaic.Init

noncomputable section

namespace Cert.Proof

open Idealize.ShloMosaic Idealize.ShloMosaic.TcCoe Idealize.SL.Sem

instance factsK : Cert.Kernel.Facts := Cert.Kernel.Gen.facts
instance factsKI : Cert.KernelIdeal.Facts := Cert.KernelIdeal.Gen.facts
instance factsRI : Cert.ReferenceIdeal.Facts := Cert.ReferenceIdeal.Gen.facts
instance factsPre : Cert.Pre_finite_inputs.Facts := Cert.Pre_finite_inputs.Gen.facts

open Cert.ReferenceIdeal in
/-- The reference's row table, wrapped, is the closed form: running count, counts per value, second running count, split by 40. -/
theorem row_tab : Spec.wrap Spec.rowIdx = Bridge.rowTab :=
  PairIndex.wrap_rowIdx (PairIndex.flat_eq (PairIndex.bins_eq PairIndex.csum_eq))

open Cert.ReferenceIdeal in
/-- The reference's column table, wrapped, is the closed form. -/
theorem col_tab : Spec.wrap Spec.colIdx = Bridge.colTab :=
  PairIndex.wrap_colIdx (PairIndex.flat_eq (PairIndex.bins_eq PairIndex.csum_eq))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- The two idealized programs end with equal results: the kernel's is kOut of x and the table its host
    operations build, the reference's is refOut; with the index tables in closed form both are kOut of x
    and one interaction table. -/
theorem algebraic : Cert.algebraic_KernelIdeal_ReferenceIdeal := by
  intro m ρ m' ρ' _ hagree
  refine ⟨fun c => Cert.Pairs.kOut (m ((c.tc : Thread Cert.KernelIdeal.nD Cert.KernelIdeal.τ).loc Cert.KernelIdeal.main_arg0))
      (Cert.KernelIdeal.Gen.V m c Cert.KernelIdeal.main_v20), Cert.KernelIdeal.KValue.run Cert.KernelIdeal.KValue.block_eq m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]
  unfold Cert.ReferenceIdeal.Spec.refOut
  rw [row_tab, col_tab, Cert.ReferenceIdeal.Bridge.out_tabs]
  exact congrArg (Cert.Pairs.kOut _) (Cert.KernelIdeal.KTable.table_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
